-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25600x640 : Shape := ⟨2, ![25600, 640]⟩
abbrev S640x640 : Shape := ⟨2, ![640, 640]⟩
abbrev S640 : Shape := ⟨1, ![640]⟩
abbrev S_ : Shape := ⟨0, ![]⟩

class Facts : Prop where
  bcast_S_S25600x640 : S_.BroadcastsInDim S25600x640 (![] : Fin 0 → Fin S25600x640.rank)
  reducesTo_S25600x640_S_d0_1 : S25600x640.ReducesTo [0, 1] S_
  h_S_ : 0 < S_.numel
  bcast_S_S640x640 : S_.BroadcastsInDim S640x640 (![] : Fin 0 → Fin S640x640.rank)
  reducesTo_S640x640_S_d0_1 : S640x640.ReducesTo [0, 1] S_
  bcast_S_S640 : S_.BroadcastsInDim S640 (![] : Fin 0 → Fin S640.rank)
  reducesTo_S640_S_d0 : S640.ReducesTo [0] S_

variable [Facts]

def fn_part1 {F : FTy → Type} [FloatOps F] (main_arg4 : FVec F S640 .f32) (main_arg5 : FVec F S640 .f32) (main_v13 : IVec S_ 1) (main_v16 : IVec S640x640 1) : IVec S_ 1 :=
  let main_c_5 : IVec S_ 1 := constantI S_ 1 1#1
  let main_v17 : IVec S_ 1 := (fun x v => Host.reduce IntOp.andi x v reducesTo_S640x640_S_d0_1 h_S_) main_v16 main_c_5
  let main_v18 : IVec S_ 1 := andi main_v13 main_v17
  let main_v19 : FVec F S640 .f32 := Host.absf main_arg4
  let main_cst_6 : FVec F S_ .f32 := constant S_ .f32 0x7F800000#32
  let main_v20 : FVec F S640 .f32 := broadcastInDim S640 ![] bcast_S_S640 main_cst_6
  let main_v21 : IVec S640 1 := cmpf .olt main_v19 main_v20
  let main_c_7 : IVec S_ 1 := constantI S_ 1 1#1
  let main_v22 : IVec S_ 1 := (fun x v => Host.reduce IntOp.andi x v reducesTo_S640_S_d0 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  main_v28

def fn {F : FTy → Type} [FloatOps F] (main_arg0 : FVec F S25600x640 .f32) (main_arg1 : FVec F S640x640 .f32) (main_arg2 : FVec F S640x640 .f32) (main_arg3 : FVec F S640x640 .f32) (main_arg4 : FVec F S640 .f32) (main_arg5 : FVec F S640 .f32) : IVec S_ 1 :=
  let main_v0 : FVec F S25600x640 .f32 := Host.absf main_arg0
  let main_cst : FVec F S_ .f32 := constant S_ .f32 0x7F800000#32
  let main_v1 : FVec F S25600x640 .f32 := broadcastInDim S25600x640 ![] bcast_S_S25600x640 main_cst
  let main_v2 : IVec S25600x640 1 := cmpf .olt main_v0 main_v1
  let main_c : IVec S_ 1 := constantI S_ 1 1#1
  let main_v3 : IVec S_ 1 := (fun x v => Host.reduce IntOp.andi x v reducesTo_S25600x640_S_d0_1 h_S_) main_v2 main_c
  let main_v4 : FVec F S640x640 .f32 := Host.absf main_arg1
  let main_cst_0 : FVec F S_ .f32 := constant S_ .f32 0x7F800000#32
  let main_v5 : FVec F S640x640 .f32 := broadcastInDim S640x640 ![] bcast_S_S640x640 main_cst_0
  let main_v6 : IVec S640x640 1 := cmpf .olt main_v4 main_v5
  let main_c_1 : IVec S_ 1 := constantI S_ 1 1#1
  let main_v7 : IVec S_ 1 := (fun x v => Host.reduce IntOp.andi x v reducesTo_S640x640_S_d0_1 h_S_) main_v6 main_c_1
  let main_v8 : IVec S_ 1 := andi main_v3 main_v7
  let main_v9 : FVec F S640x640 .f32 := Host.absf main_arg2
  let main_cst_2 : FVec F S_ .f32 := constant S_ .f32 0x7F800000#32
  let main_v10 : FVec F S640x640 .f32 := broadcastInDim S640x640 ![] bcast_S_S640x640 main_cst_2
  let main_v11 : IVec S640x640 1 := cmpf .olt main_v9 main_v10
  let main_c_3 : IVec S_ 1 := constantI S_ 1 1#1
  let main_v12 : IVec S_ 1 := (fun x v => Host.reduce IntOp.andi x v reducesTo_S640x640_S_d0_1 h_S_) main_v11 main_c_3
  let main_v13 : IVec S_ 1 := andi main_v8 main_v12
  let main_v14 : FVec F S640x640 .f32 := Host.absf main_arg3
  let main_cst_4 : FVec F S_ .f32 := constant S_ .f32 0x7F800000#32
  let main_v15 : FVec F S640x640 .f32 := broadcastInDim S640x640 ![] bcast_S_S640x640 main_cst_4
  let main_v16 : IVec S640x640 1 := cmpf .olt main_v14 main_v15
  fn_part1 (F := F) main_arg4 main_arg5 main_v13 main_v16
-- ==== Kernel.lean ====
abbrev S25600x640 : Shape := ⟨2, ![25600, 640]⟩
abbrev S640x640 : Shape := ⟨2, ![640, 640]⟩
abbrev S640 : Shape := ⟨1, ![640]⟩
abbrev S1280x640 : Shape := ⟨2, ![1280, 640]⟩
abbrev S640x400x64 : Shape := ⟨3, ![640, 400, 64]⟩
abbrev S640x64x400 : Shape := ⟨3, ![640, 64, 400]⟩
abbrev S32x400x64 : Shape := ⟨3, ![32, 400, 64]⟩
abbrev S32x64x400 : Shape := ⟨3, ![32, 64, 400]⟩
abbrev S1x400x64 : Shape := ⟨3, ![1, 400, 64]⟩
abbrev S400x64 : Shape := ⟨2, ![400, 64]⟩
abbrev S1x64x400 : Shape := ⟨3, ![1, 64, 400]⟩
abbrev S64x400 : Shape := ⟨2, ![64, 400]⟩
abbrev S400x400 : Shape := ⟨2, ![400, 400]⟩
abbrev S400 : Shape := ⟨1, ![400]⟩
abbrev S400x1 : Shape := ⟨2, ![400, 1]⟩
abbrev S1x640 : Shape := ⟨2, ![1, 640]⟩
abbrev S800x640 : Shape := ⟨2, ![800, 640]⟩
abbrev S800 : Shape := ⟨1, ![800]⟩
abbrev S800x1 : Shape := ⟨2, ![800, 1]⟩

abbrev nBuf : Space → Nat
  | .hbm => 23
  | .vmem => 27
  | .smem => 0
  | _ => 0

abbrev bufTy : (tb : Table) → Fin (tcTables nBuf tb) → BufTy
  | .hbm, ⟨0, _⟩ => ⟨S25600x640, .f32⟩
  | .hbm, ⟨1, _⟩ => ⟨S640x640, .f32⟩
  | .hbm, ⟨2, _⟩ => ⟨S640x640, .f32⟩
  | .hbm, ⟨3, _⟩ => ⟨S640x640, .f32⟩
  | .hbm, ⟨4, _⟩ => ⟨S640, .f32⟩
  | .hbm, ⟨5, _⟩ => ⟨S640, .f32⟩
  | .hbm, ⟨6, _⟩ => ⟨S640x640, .f32⟩
  | .hbm, ⟨7, _⟩ => ⟨S640x640, .bf16⟩
  | .hbm, ⟨8, _⟩ => ⟨S640x640, .f32⟩
  | .hbm, ⟨9, _⟩ => ⟨S640x640, .bf16⟩
  | .hbm, ⟨10, _⟩ => ⟨S640x640, .f32⟩
  | .hbm, ⟨11, _⟩ => ⟨S640x640, .bf16⟩
  | .hbm, ⟨12, _⟩ => ⟨S25600x640, .bf16⟩
  | .hbm, ⟨13, _⟩ => ⟨S25600x640, .bf16⟩
  | .hbm, ⟨14, _⟩ => ⟨S25600x640, .bf16⟩
  | .hbm, ⟨15, _⟩ => ⟨S640x400x64, .bf16⟩
  | .hbm, ⟨16, _⟩ => ⟨S640x64x400, .bf16⟩
  | .hbm, ⟨17, _⟩ => ⟨S640x400x64, .bf16⟩
  | .hbm, ⟨18, _⟩ => ⟨S640x400x64, .f32⟩
  | .hbm, ⟨19, _⟩ => ⟨S25600x640, .f32⟩
  | .hbm, ⟨20, _⟩ => ⟨S1x640, .f32⟩
  | .hbm, ⟨21, _⟩ => ⟨S1x640, .f32⟩
  | .hbm, ⟨22, _⟩ => ⟨S25600x640, .f32⟩
  | .local _ .vmem, ⟨0, _⟩ => ⟨S1280x640, .f32⟩
  | .local _ .vmem, ⟨1, _⟩ => ⟨S1280x640, .f32⟩
  | .local _ .vmem, ⟨2, _⟩ => ⟨S640x640, .bf16⟩
  | .local _ .vmem, ⟨3, _⟩ => ⟨S640x640, .bf16⟩
  | .local _ .vmem, ⟨4, _⟩ => ⟨S640x640, .bf16⟩
  | .local _ .vmem, ⟨5, _⟩ => ⟨S1280x640, .bf16⟩
  | .local _ .vmem, ⟨6, _⟩ => ⟨S1280x640, .bf16⟩
  | .local _ .vmem, ⟨7, _⟩ => ⟨S1280x640, .bf16⟩
  | .local _ .vmem, ⟨8, _⟩ => ⟨S1280x640, .bf16⟩
  | .local _ .vmem, ⟨9, _⟩ => ⟨S1280x640, .bf16⟩
  | .local _ .vmem, ⟨10, _⟩ => ⟨S1280x640, .bf16⟩
  | .local _ .vmem, ⟨11, _⟩ => ⟨S32x400x64, .bf16⟩
  | .local _ .vmem, ⟨12, _⟩ => ⟨S32x400x64, .bf16⟩
  | .local _ .vmem, ⟨13, _⟩ => ⟨S32x64x400, .bf16⟩
  | .local _ .vmem, ⟨14, _⟩ => ⟨S32x64x400, .bf16⟩
  | .local _ .vmem, ⟨15, _⟩ => ⟨S32x400x64, .bf16⟩
  | .local _ .vmem, ⟨16, _⟩ => ⟨S32x400x64, .bf16⟩
  | .local _ .vmem, ⟨17, _⟩ => ⟨S32x400x64, .f32⟩
  | .local _ .vmem, ⟨18, _⟩ => ⟨S32x400x64, .f32⟩
  | .local _ .vmem, ⟨19, _⟩ => ⟨S800x640, .f32⟩
  | .local _ .vmem, ⟨20, _⟩ => ⟨S800x640, .f32⟩
  | .local _ .vmem, ⟨21, _⟩ => ⟨S800x640, .f32⟩
  | .local _ .vmem, ⟨22, _⟩ => ⟨S800x640, .f32⟩
  | .local _ .vmem, ⟨23, _⟩ => ⟨S1x640, .f32⟩
  | .local _ .vmem, ⟨24, _⟩ => ⟨S1x640, .f32⟩
  | .local _ .vmem, ⟨25, _⟩ => ⟨S800x640, .f32⟩
  | .local _ .vmem, ⟨26, _⟩ => ⟨S800x640, .f32⟩
  | _, _ => ⟨S25600x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

@[reducible] def k1_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k1_off1 (k1_t1 : Fin k1_t1_loop.trips) : Fin 3 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v1 : BitVec 32 := Scalar.muli arg5 c1_i32_1
  let v2 : BitVec 32 := Scalar.addi c0_i32_2 v1
  let v3 : Index := Scalar.indexCast v2
  let c0 : Index := 0#32
  let c0_3 : Index := 0#32
  ![v3.toNat, 0, 0]
def k1_off2 (k1_t1 : Fin k1_t1_loop.trips) : Fin 3 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v1 : BitVec 32 := Scalar.muli arg5 c1_i32_1
  let v2 : BitVec 32 := Scalar.addi c0_i32_2 v1
  let v6 : Index := Scalar.indexCast v2
  let c0_4 : Index := 0#32
  let c0_5 : Index := 0#32
  ![v6.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x400x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x64x400 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x400x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x640 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S800x640 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S640x640_S640x640_1_0 : S640x640.Transposes [1, 0] S640x640
  bitsLt_bf16_f32 : FTy.bits .bf16 < FTy.bits .f32
  inb_S1280x640_S1280x640_0_0 : ∀ a, (![0, 0] : Fin 2 → Nat) a + S1280x640.size a ≤ S1280x640.size a
  h_S1280x640 : 0 < S1280x640.numel
  inb_S640x640_S640x640_0_0 : ∀ a, (![0, 0] : Fin 2 → Nat) a + S640x640.size a ≤ S640x640.size a
  h_S640x640 : 0 < S640x640.numel
  shapeCasts_S640x640_S640x640 : S640x640.ShapeCasts S640x640
  packedbf16_S1280x640_S1280x640_0_0 : (Rect.unit (s := S1280x640) ![0, 0] S1280x640.size inb_S1280x640_S1280x640_0_0).PackedRows (EltTy.packing .bf16)
  shapeCasts_S25600x640_S640x400x64 : S25600x640.ShapeCasts S640x400x64
  shapeCasts_S25600x640_S640x64x400 : S25600x640.ShapeCasts S640x64x400
  h_S1x400x64 : 0 < S1x400x64.numel
  shapeCasts_S1x400x64_S400x64 : S1x400x64.ShapeCasts S400x64
  h_S1x64x400 : 0 < S1x64x400.numel
  shapeCasts_S1x64x400_S64x400 : S1x64x400.ShapeCasts S64x400
  reduces_S400x400_S400 : S400x400.Reduces [1] S400
  shapeCasts_S400_S400x1 : S400.ShapeCasts S400x1
  broadcasts_S400x1_S400x400 : S400x1.Broadcasts S400x400
  broadcasts_S400x1_S400x64 : S400x1.Broadcasts S400x64
  shapeCasts_S400x64_S1x400x64 : S400x64.ShapeCasts S1x400x64
  shapeCasts_S640x400x64_S25600x640 : S640x400x64.ShapeCasts S25600x640
  shapeCasts_S640_S1x640 : S640.ShapeCasts S1x640
  inb_S800x640_S800x640_0_0 : ∀ a, (![0, 0] : Fin 2 → Nat) a + S800x640.size a ≤ S800x640.size a
  h_S800x640 : 0 < S800x640.numel
  shapeCasts_S800x640_S800x640 : S800x640.ShapeCasts S800x640
  reduces_S800x640_S800 : S800x640.Reduces [1] S800
  shapeCasts_S800_S800x1 : S800.ShapeCasts S800x1
  broadcasts_S800x1_S800x640 : S800x1.Broadcasts S800x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S800x640 : S1x640.Broadcasts S800x640
  dot_S1280x640_S640x640_S1280x640_1_0_0_1_n_n_wf : DotDims.WF S1280x640 S640x640 S1280x640 [1] [0] [0] [1] [] []
  dot_S400x64_S64x400_S400x400_1_0_0_1_n_n_wf : DotDims.WF S400x64 S64x400 S400x400 [1] [0] [0] [1] [] []
  dot_S400x400_S400x64_S400x64_1_0_0_1_n_n_wf : DotDims.WF S400x400 S400x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x640.size a ≤ S25600x640.size a
  hwx0_0 : ∀ i : grid0.Coords, EltTy.bits .f32 = 32 ∨ (Rect.block (s := S25600x640) S1280x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .bf16 = 32 ∨ (Rect.block (s := S640x640) S640x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x640.size a ≤ S640x640.size a
  hwx0_2 : ∀ i : grid0.Coords, EltTy.bits .bf16 = 32 ∨ (Rect.block (s := S640x640) S640x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x640.size a ≤ S640x640.size a
  hwx0_3 : ∀ i : grid0.Coords, EltTy.bits .bf16 = 32 ∨ (Rect.block (s := S640x640) S640x640.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x640.size a ≤ S25600x640.size a
  hwx0_4 : ∀ i : grid0.Coords, EltTy.bits .bf16 = 32 ∨ (Rect.block (s := S25600x640) S1280x640.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x640.size a ≤ S25600x640.size a
  hwx0_5 : ∀ i : grid0.Coords, EltTy.bits .bf16 = 32 ∨ (Rect.block (s := S25600x640) S1280x640.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1280x640.size a ≤ S25600x640.size a
  hwx0_6 : ∀ i : grid0.Coords, EltTy.bits .bf16 = 32 ∨ (Rect.block (s := S25600x640) S1280x640.size (cc0_transform_6 i) (hinb0_6 i)).WholeWords (EltTy.packing .bf16)
  hrank1 : 0 < grid1.rank
  k1_t1_ok : k1_t1_loop.OK
  k1_off1_inb : ∀ k1_t1 : Fin k1_t1_loop.trips, ∀ a, (k1_off1 k1_t1) a + S1x400x64.size a ≤ S32x400x64.size a
  k1_off2_inb : ∀ k1_t1 : Fin k1_t1_loop.trips, ∀ a, (k1_off2 k1_t1) a + S1x64x400.size a ≤ S32x64x400.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x400x64.size a ≤ S640x400x64.size a
  hwx1_0 : ∀ i : grid1.Coords, EltTy.bits .bf16 = 32 ∨ (Rect.block (s := S640x400x64) S32x400x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x400.size a ≤ S640x64x400.size a
  hwx1_1 : ∀ i : grid1.Coords, EltTy.bits .bf16 = 32 ∨ (Rect.block (s := S640x64x400) S32x64x400.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x400x64.size a ≤ S640x400x64.size a
  hwx1_2 : ∀ i : grid1.Coords, EltTy.bits .bf16 = 32 ∨ (Rect.block (s := S640x400x64) S32x400x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x400x64.size a ≤ S640x400x64.size a
  hwx1_3 : ∀ i : grid1.Coords, EltTy.bits .f32 = 32 ∨ (Rect.block (s := S640x400x64) S32x400x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x640.size a ≤ S25600x640.size a
  hwx2_0 : ∀ i : grid2.Coords, EltTy.bits .f32 = 32 ∨ (Rect.block (s := S25600x640) S800x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x640.size a ≤ S25600x640.size a
  hwx2_1 : ∀ i : grid2.Coords, EltTy.bits .f32 = 32 ∨ (Rect.block (s := S25600x640) S800x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x640.size a
  hwx2_2 : ∀ i : grid2.Coords, EltTy.bits .f32 = 32 ∨ (Rect.block (s := S1x640) S1x640.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x640.size a ≤ S1x640.size a
  hwx2_3 : ∀ i : grid2.Coords, EltTy.bits .f32 = 32 ∨ (Rect.block (s := S1x640) S1x640.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S800x640.size a ≤ S25600x640.size a
  hwx2_4 : ∀ i : grid2.Coords, EltTy.bits .f32 = 32 ∨ (Rect.block (s := S25600x640) S800x640.size (cc2_transform_4 i) (hinb2_4 i)).WholeWords (EltTy.packing .f32)

variable [Facts₀]

def dot_S1280x640_S640x640_S1280x640_1_0_0_1_n_n : DotDims S1280x640 S640x640 S1280x640 where
  lhsContracting := [1]
  rhsContracting := [0]
  lhsNonContracting := [0]
  rhsNonContracting := [1]
  lhsBatch := []
  rhsBatch := []
  wf := dot_S1280x640_S640x640_S1280x640_1_0_0_1_n_n_wf
def dot_S400x64_S64x400_S400x400_1_0_0_1_n_n : DotDims S400x64 S64x400 S400x400 where
  lhsContracting := [1]
  rhsContracting := [0]
  lhsNonContracting := [0]
  rhsNonContracting := [1]
  lhsBatch := []
  rhsBatch := []
  wf := dot_S400x64_S64x400_S400x400_1_0_0_1_n_n_wf
def dot_S400x400_S400x64_S400x64_1_0_0_1_n_n : DotDims S400x400 S400x64 S400x64 where
  lhsContracting := [1]
  rhsContracting := [0]
  lhsNonContracting := [0]
  rhsNonContracting := [1]
  lhsBatch := []
  rhsBatch := []
  wf := dot_S400x400_S400x64_S400x64_1_0_0_1_n_n_wf

abbrev win0_0 : Pipeline.Window sig grid0 :=
  Pipeline.Window.ofSpec (Memref.whole main_arg0) S1280x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S640x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S640x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1280x640.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1280x640.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1280x640.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S32x400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S32x64x400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S32x400x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S32x400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S800x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S800x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x640.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S800x640.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S25600x640 : Shape := ⟨2, ![25600, 640]⟩
abbrev S640x640 : Shape := ⟨2, ![640, 640]⟩
abbrev S640 : Shape := ⟨1, ![640]⟩
abbrev S64x10x400x64 : Shape := ⟨4, ![64, 10, 400, 64]⟩
abbrev S64x10x64x400 : Shape := ⟨4, ![64, 10, 64, 400]⟩
abbrev S_ : Shape := ⟨0, ![]⟩
abbrev S64x10x400x400 : Shape := ⟨4, ![64, 10, 400, 400]⟩
abbrev S64x10x400 : Shape := ⟨3, ![64, 10, 400]⟩
abbrev S64x10x400x1 : Shape := ⟨4, ![64, 10, 400, 1]⟩
abbrev S25600 : Shape := ⟨1, ![25600]⟩
abbrev S25600x1 : Shape := ⟨2, ![25600, 1]⟩
abbrev S1x640 : Shape := ⟨2, ![1, 640]⟩

abbrev nBuf : Space → Nat
  | .hbm => 69
  | .vmem => 0
  | .smem => 0
  | _ => 0

abbrev bufTy : (tb : Table) → Fin (tcTables nBuf tb) → BufTy
  | .hbm, ⟨0, _⟩ => ⟨S25600x640, .f32⟩
  | .hbm, ⟨1, _⟩ => ⟨S640x640, .f32⟩
  | .hbm, ⟨2, _⟩ => ⟨S640x640, .f32⟩
  | .hbm, ⟨3, _⟩ => ⟨S640x640, .f32⟩
  | .hbm, ⟨4, _⟩ => ⟨S640, .f32⟩
  | .hbm, ⟨5, _⟩ => ⟨S640, .f32⟩
  | .hbm, ⟨6, _⟩ => ⟨S640x640, .f32⟩
  | .hbm, ⟨7, _⟩ => ⟨S25600x640, .f32⟩
  | .hbm, ⟨8, _⟩ => ⟨S640x640, .f32⟩
  | .hbm, ⟨9, _⟩ => ⟨S25600x640, .f32⟩
  | .hbm, ⟨10, _⟩ => ⟨S640x640, .f32⟩
  | .hbm, ⟨11, _⟩ => ⟨S25600x640, .f32⟩
  | .hbm, ⟨12, _⟩ => ⟨S64x10x400x64, .f32⟩
  | .hbm, ⟨13, _⟩ => ⟨S64x10x400x64, .f32⟩
  | .hbm, ⟨14, _⟩ => ⟨S64x10x400x64, .f32⟩
  | .hbm, ⟨15, _⟩ => ⟨S64x10x64x400, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x10x400x400, .f32⟩
  | .hbm, ⟨21, _⟩ => ⟨S64x10x400x400, .f32⟩
  | .hbm, ⟨22, _⟩ => ⟨S64x10x400x400, .f32⟩
  | .hbm, ⟨23, _⟩ => ⟨S_, .f32⟩
  | .hbm, ⟨24, _⟩ => ⟨S64x10x400, .f32⟩
  | .hbm, ⟨25, _⟩ => ⟨S_, .f32⟩
  | .hbm, ⟨26, _⟩ => ⟨S64x10x400, .f32⟩
  | .hbm, ⟨27, _⟩ => ⟨S64x10x400, .f32⟩
  | .hbm, ⟨28, _⟩ => ⟨S64x10x400x1, .f32⟩
  | .hbm, ⟨29, _⟩ => ⟨S64x10x400x400, .f32⟩
  | .hbm, ⟨30, _⟩ => ⟨S64x10x400x400, .f32⟩
  | .hbm, ⟨31, _⟩ => ⟨S64x10x400x400, .f32⟩
  | .hbm, ⟨32, _⟩ => ⟨S_, .f32⟩
  | .hbm, ⟨33, _⟩ => ⟨S64x10x400, .f32⟩
  | .hbm, ⟨34, _⟩ => ⟨S64x10x400x1, .f32⟩
  | .hbm, ⟨35, _⟩ => ⟨S64x10x400x400, .f32⟩
  | .hbm, ⟨36, _⟩ => ⟨S64x10x400x400, .f32⟩
  | .hbm, ⟨37, _⟩ => ⟨S64x10x400x64, .f32⟩
  | .hbm, ⟨38, _⟩ => ⟨S25600x640, .f32⟩
  | .hbm, ⟨39, _⟩ => ⟨S25600x640, .f32⟩
  | .hbm, ⟨40, _⟩ => ⟨S_, .f32⟩
  | .hbm, ⟨41, _⟩ => ⟨S25600, .f32⟩
  | .hbm, ⟨42, _⟩ => ⟨S25600x1, .f32⟩
  | .hbm, ⟨43, _⟩ => ⟨S_, .f32⟩
  | .hbm, ⟨44, _⟩ => ⟨S25600x1, .f32⟩
  | .hbm, ⟨45, _⟩ => ⟨S25600x1, .f32⟩
  | .hbm, ⟨46, _⟩ => ⟨S25600x640, .f32⟩
  | .hbm, ⟨47, _⟩ => ⟨S25600x640, .f32⟩
  | .hbm, ⟨48, _⟩ => ⟨S25600x640, .f32⟩
  | .hbm, ⟨49, _⟩ => ⟨S_, .f32⟩
  | .hbm, ⟨50, _⟩ => ⟨S25600, .f32⟩
  | .hbm, ⟨51, _⟩ => ⟨S25600x1, .f32⟩
  | .hbm, ⟨52, _⟩ => ⟨S_, .f32⟩
  | .hbm, ⟨53, _⟩ => ⟨S25600x1, .f32⟩
  | .hbm, ⟨54, _⟩ => ⟨S25600x1, .f32⟩
  | .hbm, ⟨55, _⟩ => ⟨S25600x640, .f32⟩
  | .hbm, ⟨56, _⟩ => ⟨S25600x640, .f32⟩
  | .hbm, ⟨57, _⟩ => ⟨S_, .f32⟩
  | .hbm, ⟨58, _⟩ => ⟨S25600x1, .f32⟩
  | .hbm, ⟨59, _⟩ => ⟨S25600x1, .f32⟩
  | .hbm, ⟨60, _⟩ => ⟨S25600x1, .f32⟩
  | .hbm, ⟨61, _⟩ => ⟨S25600x640, .f32⟩
  | .hbm, ⟨62, _⟩ => ⟨S25600x640, .f32⟩
  | .hbm, ⟨63, _⟩ => ⟨S1x640, .f32⟩
  | .hbm, ⟨64, _⟩ => ⟨S25600x640, .f32⟩
  | .hbm, ⟨65, _⟩ => ⟨S25600x640, .f32⟩
  | .hbm, ⟨66, _⟩ => ⟨S1x640, .f32⟩
  | .hbm, ⟨67, _⟩ => ⟨S25600x640, .f32⟩
  | .hbm, ⟨68, _⟩ => ⟨S25600x640, .f32⟩
  | _, _ => ⟨S25600x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  transposes_S640x640_S640x640_1_0 : S640x640.Transposes [1, 0] S640x640
  shapeCasts_S25600x640_S64x10x400x64 : S25600x640.ShapeCasts S64x10x400x64
  shapeCasts_S64x10x400x64_S64x10x64x400 : S64x10x400x64.ShapeCasts S64x10x64x400
  bcast_S_S64x10x400x400 : S_.BroadcastsInDim S64x10x400x400 (![] : Fin 0 → Fin S64x10x400x400.rank)
  reducesTo_S64x10x400x400_S64x10x400_d3 : S64x10x400x400.ReducesTo [3] S64x10x400
  h_S_ : 0 < S_.numel
  bcast_S_S64x10x400 : S_.BroadcastsInDim S64x10x400 (![] : Fin 0 → Fin S64x10x400.rank)
  bcast_S64x10x400_S64x10x400x1_0_1_2 : S64x10x400.BroadcastsInDim S64x10x400x1 (![0, 1, 2] : Fin 3 → Fin S64x10x400x1.rank)
  bcast_S64x10x400x1_S64x10x400x400_0_1_2_3 : S64x10x400x1.BroadcastsInDim S64x10x400x400 (![0, 1, 2, 3] : Fin 4 → Fin S64x10x400x400.rank)
  shapeCasts_S64x10x400x64_S25600x640 : S64x10x400x64.ShapeCasts S25600x640
  reducesTo_S25600x640_S25600_d1 : S25600x640.ReducesTo [1] S25600
  bcast_S25600_S25600x1_0 : S25600.BroadcastsInDim S25600x1 (![0] : Fin 1 → Fin S25600x1.rank)
  bcast_S_S25600x1 : S_.BroadcastsInDim S25600x1 (![] : Fin 0 → Fin S25600x1.rank)
  bcast_S25600x1_S25600x640_0_1 : S25600x1.BroadcastsInDim S25600x640 (![0, 1] : Fin 2 → Fin S25600x640.rank)
  bcast_S640_S1x640_1 : S640.BroadcastsInDim S1x640 (![1] : Fin 1 → Fin S1x640.rank)
  bcast_S1x640_S25600x640_0_1 : S1x640.BroadcastsInDim S25600x640 (![0, 1] : Fin 2 → Fin S25600x640.rank)
  dot_S25600x640_S640x640_S25600x640_1_0_0_1_n_n_wf : DotDims.WF S25600x640 S640x640 S25600x640 [1] [0] [0] [1] [] []
  dot_S64x10x400x64_S64x10x64x400_S64x10x400x400_3_2_2_3_01_01_wf : DotDims.WF S64x10x400x64 S64x10x64x400 S64x10x400x400 [3] [2] [2] [3] [0, 1] [0, 1]
  dot_S64x10x400x400_S64x10x400x64_S64x10x400x64_3_2_2_3_01_01_wf : DotDims.WF S64x10x400x400 S64x10x400x64 S64x10x400x64 [3] [2] [2] [3] [0, 1] [0, 1]

variable [Facts₀]

def dot_S25600x640_S640x640_S25600x640_1_0_0_1_n_n : DotDims S25600x640 S640x640 S25600x640 where
  lhsContracting := [1]
  rhsContracting := [0]
  lhsNonContracting := [0]
  rhsNonContracting := [1]
  lhsBatch := []
  rhsBatch := []
  wf := dot_S25600x640_S640x640_S25600x640_1_0_0_1_n_n_wf
def dot_S64x10x400x64_S64x10x64x400_S64x10x400x400_3_2_2_3_01_01 : DotDims S64x10x400x64 S64x10x64x400 S64x10x400x400 where
  lhsContracting := [3]
  rhsContracting := [2]
  lhsNonContracting := [2]
  rhsNonContracting := [3]
  lhsBatch := [0, 1]
  rhsBatch := [0, 1]
  wf := dot_S64x10x400x64_S64x10x64x400_S64x10x400x400_3_2_2_3_01_01_wf
def dot_S64x10x400x400_S64x10x400x64_S64x10x400x64_3_2_2_3_01_01 : DotDims S64x10x400x400 S64x10x400x64 S64x10x400x64 where
  lhsContracting := [3]
  rhsContracting := [2]
  lhsNonContracting := [2]
  rhsNonContracting := [3]
  lhsBatch := [0, 1]
  rhsBatch := [0, 1]
  wf := dot_S64x10x400x400_S64x10x400x64_S64x10x400x64_3_2_2_3_01_01_wf

class Facts : Prop extends Facts₀ where

variable [Facts]
-- ==== Proof.KernelRun.lean ====
/-
  The kernel program's run with its result named. From any launch memory every weakly fair execution of the
  kernel program terminates without a fault; at the end the result buffer holds what the third region's
  write-backs leave in it — the fold of the host stretches and the three regions from the launch memory, named
  `W6` by the generated frame — and the six argument arrays are as launched.
  The argument is the generated frame's own (@main cut into host stretches and regions, run in order); only the
  conclusion drawn from "every unscoped buffer ends at W6" is wider: it also reads the result buffer.
-/
import proofs.«107818_j88888643158595_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program from `m` terminates, nothing faulting; the result buffer
    ends at the contents `W6` names for it and every argument array as launched. -/
theorem run_out : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunOut

end
-- ==== Proof.Glue.lean ====
/-
  The host operations between the three regions, read at an index.

  Before the first region the three weight matrices are transposed (and re-typed, which changes no value
  here): entry (k, j) of the array the projection kernel reads is entry (j, k) of the weight. Between the
  regions the arrays are only re-read under another shape: the entry of the new array at a position is the
  entry of the old one with the same row-major position. The input x, the gain and the bias reach the regions
  that read them exactly as launched: no host operation and no region writes them.
-/
import proofs.«107818_j88888643158595_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.Attn.Glue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- No operation of a host stretch writes the buffer `b`: the stretch leaves it as it was. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Before the first region -/

/-- The input x reaches the first region as launched. -/
theorem v1_x (c : Dev nD) : V1 m ρ c main_arg0 = m ((c : Thread nD τ).loc main_arg0) := by
  show StableHlo.after hostOps0 (W0 m ρ c) (Proc.devRef .tc main_arg0) = W0 m ρ c (Proc.devRef .tc main_arg0)
  not_written hostOps0

/-- The query weight as the first region reads it: transposed. -/
theorem v1_wq (c : Dev nD) (k j : Fin 640) :
    (V1 m ρ c main_v1 : S640x640.Idx → EReal) (ix2 k j) = (m ((c : Thread nD τ).loc main_arg1) : S640x640.Idx → EReal) (ix2 j k) := by
  have e : @Eq (S640x640.Idx → EReal) (V1 m ρ c main_v1)
      (truncf (F := Ideal) .bf16 (transpose S640x640 [1, 0] (m ((c : Thread nD τ).loc main_arg1)) transposes_S640x640_S640x640_1_0) bitsLt_bf16_f32) := by
    show StableHlo.after hostOps0 (W0 m ρ c) (Proc.devRef .tc main_v1) = _
    after_results
  rw [e, truncf_apply]
  exact transpose_apply [1, 0] _ transposes_S640x640_S640x640_1_0 (ix2 k j) (ix2 j k) (fun b => match b with
    | ⟨0, _⟩ => rfl
    | ⟨1, _⟩ => rfl)

/-- The key weight as the first region reads it: transposed. -/
theorem v1_wk (c : Dev nD) (k j : Fin 640) :
    (V1 m ρ c main_v3 : S640x640.Idx → EReal) (ix2 k j) = (m ((c : Thread nD τ).loc main_arg2) : S640x640.Idx → EReal) (ix2 j k) := by
  have e : @Eq (S640x640.Idx → EReal) (V1 m ρ c main_v3)
      (truncf (F := Ideal) .bf16 (transpose S640x640 [1, 0] (m ((c : Thread nD τ).loc main_arg2)) transposes_S640x640_S640x640_1_0) bitsLt_bf16_f32) := by
    show StableHlo.after hostOps0 (W0 m ρ c) (Proc.devRef .tc main_v3) = _
    after_results
  rw [e, truncf_apply]
  exact transpose_apply [1, 0] _ transposes_S640x640_S640x640_1_0 (ix2 k j) (ix2 j k) (fun b => match b with
    | ⟨0, _⟩ => rfl
    | ⟨1, _⟩ => rfl)

/-- The value weight as the first region reads it: transposed. -/
theorem v1_wv (c : Dev nD) (k j : Fin 640) :
    (V1 m ρ c main_v5 : S640x640.Idx → EReal) (ix2 k j) = (m ((c : Thread nD τ).loc main_arg3) : S640x640.Idx → EReal) (ix2 j k) := by
  have e : @Eq (S640x640.Idx → EReal) (V1 m ρ c main_v5)
      (truncf (F := Ideal) .bf16 (transpose S640x640 [1, 0] (m ((c : Thread nD τ).loc main_arg3)) transposes_S640x640_S640x640_1_0) bitsLt_bf16_f32) := by
    show StableHlo.after hostOps0 (W0 m ρ c) (Proc.devRef .tc main_v5) = _
    after_results
  rw [e, truncf_apply]
  exact transpose_apply [1, 0] _ transposes_S640x640_S640x640_1_0 (ix2 k j) (ix2 j k) (fun b => match b with
    | ⟨0, _⟩ => rfl
    | ⟨1, _⟩ => rfl)

/-! ## Between the first and the second region: the projections re-read per head -/

/-- Entry (b, r, e) of the queries re-read as [640, 400, 64] is the entry of the projection's first output with the
    same row-major position. -/
theorem v3_q (c : Dev nD) (b : Fin 640) (r : Fin 400) (e : Fin 64) (n : Fin 25600) (j : Fin 640)
    (h : n.val * 640 + j.val = (b.val * 400 + r.val) * 64 + e.val) :
    @Eq EReal ((V3 m ρ c main_v7 : S640x400x64.Idx → EReal) (ix3 b r e))
      (((dat0 (V1 m ρ) c).arrAt 4 cfg0.N : S25600x640.Idx → EReal) (ix2 n j)) := by
  have e1 : @Eq (S640x400x64.Idx → EReal) (V3 m ρ c main_v7)
      (shapeCast S640x400x64 (W2 m ρ c (Proc.devRef .tc main_v6_0) : S25600x640.Idx → EReal) shapeCasts_S25600x640_S640x400x64) := by
    show StableHlo.after hostOps1 (W2 m ρ c) (Proc.devRef .tc main_v7) = _
    after_results
    rfl
  rw [e1, shapeCast_apply _ shapeCasts_S25600x640_S640x400x64 (ix3 b r e) (ix2 n j)
    (by rw [Shape.rowMajor_val_two, Shape.rowMajor_val_three]; exact h)]
  exact congrFun (W2_arr m ρ c 4) (ix2 n j)

/-- Entry (b, e, s) of the keys re-read as [640, 64, 400] is the entry of the projection's second output with the
    same row-major position. -/
theorem v3_k (c : Dev nD) (b : Fin 640) (e : Fin 64) (s : Fin 400) (n : Fin 25600) (j : Fin 640)
    (h : n.val * 640 + j.val = (b.val * 64 + e.val) * 400 + s.val) :
    @Eq EReal ((V3 m ρ c main_v8 : S640x64x400.Idx → EReal) (ix3 b e s))
      (((dat0 (V1 m ρ) c).arrAt 5 cfg0.N : S25600x640.Idx → EReal) (ix2 n j)) := by
  have e1 : @Eq (S640x64x400.Idx → EReal) (V3 m ρ c main_v8)
      (shapeCast S640x64x400 (W2 m ρ c (Proc.devRef .tc main_v6_1) : S25600x640.Idx → EReal) shapeCasts_S25600x640_S640x64x400) := by
    show StableHlo.after hostOps1 (W2 m ρ c) (Proc.devRef .tc main_v8) = _
    after_results
    rfl
  rw [e1, shapeCast_apply _ shapeCasts_S25600x640_S640x64x400 (ix3 b e s) (ix2 n j)
    (by rw [Shape.rowMajor_val_two, Shape.rowMajor_val_three]; exact h)]
  exact congrFun (W2_arr m ρ c 5) (ix2 n j)

/-- Entry (b, r, e) of the values re-read as [640, 400, 64] is the entry of the projection's third output with the
    same row-major position. -/
theorem v3_v (c : Dev nD) (b : Fin 640) (r : Fin 400) (e : Fin 64) (n : Fin 25600) (j : Fin 640)
    (h : n.val * 640 + j.val = (b.val * 400 + r.val) * 64 + e.val) :
    @Eq EReal ((V3 m ρ c main_v9 : S640x400x64.Idx → EReal) (ix3 b r e))
      (((dat0 (V1 m ρ) c).arrAt 6 cfg0.N : S25600x640.Idx → EReal) (ix2 n j)) := by
  have e1 : @Eq (S640x400x64.Idx → EReal) (V3 m ρ c main_v9)
      (shapeCast S640x400x64 (W2 m ρ c (Proc.devRef .tc main_v6_2) : S25600x640.Idx → EReal) shapeCasts_S25600x640_S640x400x64) := by
    show StableHlo.after hostOps1 (W2 m ρ c) (Proc.devRef .tc main_v9) = _
    after_results
    rfl
  rw [e1, shapeCast_apply _ shapeCasts_S25600x640_S640x400x64 (ix3 b r e) (ix2 n j)
    (by rw [Shape.rowMajor_val_two, Shape.rowMajor_val_three]; exact h)]
  exact congrFun (W2_arr m ρ c 6) (ix2 n j)

/-! ## Between the second and the third region -/

/-- Entry (n, k) of the attention output re-read as [25600, 640] is the entry of the second region's output with
    the same row-major position. -/
theorem v5_vals (c : Dev nD) (n : Fin 25600) (k : Fin 640) (b : Fin 640) (r : Fin 400) (d : Fin 64)
    (h : (b.val * 400 + r.val) * 64 + d.val = n.val * 640 + k.val) :
    @Eq EReal ((V5 m ρ c main_v11 : S25600x640.Idx → EReal) (ix2 n k))
      (((dat1 (V3 m ρ) c).arrAt 3 cfg1.N : S640x400x64.Idx → EReal) (ix3 b r d)) := by
  have e1 : @Eq (S25600x640.Idx → EReal) (V5 m ρ c main_v11)
      (shapeCast S25600x640 (W4 m ρ c (Proc.devRef .tc main_v10) : S640x400x64.Idx → EReal) shapeCasts_S640x400x64_S25600x640) := by
    show StableHlo.after hostOps2 (W4 m ρ c) (Proc.devRef .tc main_v11) = _
    after_results
    rfl
  rw [e1, shapeCast_apply _ shapeCasts_S640x400x64_S25600x640 (ix2 n k) (ix3 b r d)
    (by rw [Shape.rowMajor_val_two, Shape.rowMajor_val_three]; exact h)]
  exact congrFun (W4_arr m ρ c 3) (ix3 b r d)

/-- The gain reaches the second host stretch as launched. -/
theorem w4_gain (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _
          not_written hostOps1
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _
          not_written hostOps0
    _ = m ((c : Thread nD τ).loc main_arg4) := rfl

/-- The bias reaches the second host stretch as launched. -/
theorem w4_bias (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by
          show StableHlo.after hostOps1 (W2 m ρ c) (Proc.devRef .tc main_arg5) = _
          not_written hostOps1
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          not_written hostOps0
    _ = m ((c : Thread nD τ).loc main_arg5) := rfl

/-- The gain re-read as [1, 640], as the third region reads it. -/
theorem v5_gain (c : Dev nD) (k : Fin 640) :
    @Eq EReal ((V5 m ρ c main_v12 : S1x640.Idx → EReal) (ix2 0 k)) ((m ((c : Thread nD τ).loc main_arg4) : S640.Idx → EReal) (ix1 k)) := by
  have e1 : @Eq (S1x640.Idx → EReal) (V5 m ρ c main_v12)
      (shapeCast S1x640 (W4 m ρ c (Proc.devRef .tc main_arg4) : S640.Idx → EReal) shapeCasts_S640_S1x640) := by
    show StableHlo.after hostOps2 (W4 m ρ c) (Proc.devRef .tc main_v12) = _
    after_results
    rfl
  rw [e1, shapeCast_apply _ shapeCasts_S640_S1x640 (ix2 0 k) (ix1 k)
    (by rw [Shape.rowMajor_val_two, Shape.rowMajor_val_one]; show k.val = 0 * 640 + k.val; omega)]
  exact congrFun (w4_gain m ρ c) (ix1 k)

/-- The bias re-read as [1, 640], as the third region reads it. -/
theorem v5_bias (c : Dev nD) (k : Fin 640) :
    @Eq EReal ((V5 m ρ c main_v13 : S1x640.Idx → EReal) (ix2 0 k)) ((m ((c : Thread nD τ).loc main_arg5) : S640.Idx → EReal) (ix1 k)) := by
  have e1 : @Eq (S1x640.Idx → EReal) (V5 m ρ c main_v13)
      (shapeCast S1x640 (W4 m ρ c (Proc.devRef .tc main_arg5) : S640.Idx → EReal) shapeCasts_S640_S1x640) := by
    show StableHlo.after hostOps2 (W4 m ρ c) (Proc.devRef .tc main_v13) = _
    after_results
    rfl
  rw [e1, shapeCast_apply _ shapeCasts_S640_S1x640 (ix2 0 k) (ix1 k)
    (by rw [Shape.rowMajor_val_two, Shape.rowMajor_val_one]; show k.val = 0 * 640 + k.val; omega)]
  exact congrFun (w4_bias m ρ c) (ix1 k)

/-- The input x reaches the third region as launched. -/
theorem v5_x (c : Dev nD) : V5 m ρ c main_arg0 = m ((c : Thread nD τ).loc main_arg0) :=
  calc W5 m ρ c (Proc.devRef .tc main_arg0)
    _ = W4 m ρ c (Proc.devRef .tc main_arg0) := by
          show StableHlo.after hostOps2 (W4 m ρ c) (Proc.devRef .tc main_arg0) = _
          not_written hostOps2
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _
          not_written hostOps1
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := v1_x m ρ c

end Cert.Attn.Glue

end
-- ==== Proof.Spec.lean ====
/-
  The mathematics of the claim, stated once over the extended reals and over literal index types.

  One attention head takes a query matrix q (400 × 64), a key matrix k (64 × 400) and a value matrix v (400 × 64).
  Its scores are s r j = (∑ e, q r e · k e j) · scale; a row's maximum is the fold of max from −∞; the
  unnormalised weights are p r j = exp (s r j − max_r); their row sum is l r. The kernel divides the weighted
  sum of values by l r once per output entry (headK); the reference divides every weight by l r first and then
  sums (headR). For real inputs the two agree (that law is proved elsewhere: it needs every p, l and v to be
  real and l ≠ 0, which is where finiteness of the inputs is used).

  The residual + layer normalisation of one row y of 640 entries, with gain g and bias b:
  mean = (∑ y) / 640, var = (∑ (y − mean)²) / 640, entry j ↦ (y j − mean) · rsqrt (var + ε) · g j + b j.
  Both programs compute exactly this, in this order, with the same float words for 640 and ε.
-/
import Idealize.ShloMosaic.PureOps.Ideal
import Idealize.ShloMosaic.Lib.ValueIdx

noncomputable section

open scoped BigOperators

namespace Cert.Attn

open Idealize.ShloMosaic

/-- −∞ as the float word both programs start a row maximum from. -/
def negInf : EReal := Ideal.ofBits .f32 0xFF800000#32
/-- The kernel's score scale, the float word of 0.125. -/
def scaleK : EReal := Ideal.ofBits .f32 0x3E000000#32
/-- The row length 640 as a float word (the divisor of the mean and the variance). -/
def c640 : EReal := Ideal.ofBits .f32 0x44200000#32
/-- The ε added to the variance, as the float word both programs carry. -/
def ceps : EReal := Ideal.ofBits .f32 0x3727C5AC#32

/-- One entry of a projection x · Wᵀ: the sum over the 640 shared coordinates. -/
def dot640 (a b : Fin 640 → EReal) : EReal := ∑ k : Fin 640, a k * b k

section Head

variable (scale : EReal) (q : Fin 400 → Fin 64 → EReal) (k : Fin 64 → Fin 400 → EReal) (v : Fin 400 → Fin 64 → EReal)

/-- The scaled score of query row r against key column j. -/
def score (r j : Fin 400) : EReal := (∑ e : Fin 64, q r e * k e j) * scale
/-- A row's maximum score: the fold of max over its 400 columns from −∞. -/
def rowMax (r : Fin 400) : EReal := (Finset.univ : Finset (Fin 400)).fold max negInf (score scale q k r)
/-- The unnormalised softmax weight. -/
def prob (r j : Fin 400) : EReal := Ideal.exp (score scale q k r j - rowMax scale q k r)
/-- A row's sum of weights. -/
def denom (r : Fin 400) : EReal := ∑ j : Fin 400, prob scale q k r j
/-- The kernel's order: sum the weighted values, then divide once by the row's sum of weights. -/
def headK (r : Fin 400) (d : Fin 64) : EReal :=
  Ideal.div (∑ j : Fin 400, prob scale q k r j * v j d) (denom scale q k r)
/-- The reference's order: divide every weight by the row's sum of weights, then sum the weighted values. -/
def headR (r : Fin 400) (d : Fin 64) : EReal :=
  ∑ j : Fin 400, Ideal.div (prob scale q k r j) (denom scale q k r) * v j d

end Head

/-- The mean of a row of 640 entries. -/
def rowMean (y : Fin 640 → EReal) : EReal := Ideal.div (∑ k : Fin 640, y k) c640
/-- The (biased) variance of a row of 640 entries. -/
def rowVar (y : Fin 640 → EReal) : EReal :=
  Ideal.div (∑ k : Fin 640, (y k - rowMean y) * (y k - rowMean y)) c640
/-- Layer normalisation of a row y with gain g and bias b, at column j. -/
def layerNorm (y g b : Fin 640 → EReal) (j : Fin 640) : EReal :=
  (y j - rowMean y) * Ideal.rsqrt (rowVar y + ceps) * g j + b j

end Cert.Attn

end
-- ==== Proof.FlatIndex.lean ====
/-
  Row-major positions, shared by the two programs.

  Both programs re-read a [25600, 640] projection per head without moving anything: the entry of the
  re-read array at a position is the projection's entry with the same row-major position f, that is row
  f / 640 and column f % 640. So one head's query, key and value matrices are the projections read at
  positions (b·400 + r)·64 + e, (b·64 + e)·400 + s and (b·400 + r)·64 + e, where b is the head's number among
  the 640 (batch · 10 + head in the reference's four-axis arrays), and the attention output at row-major
  position f belongs to head f / 25600, query row f / 64 % 400, column f % 64.

  `attnAt` states the attention output at a row-major position once, for either order of the normalisation
  (the head function is a parameter), and `resultAt` the whole program's result at (n, j): layer
  normalisation of row n of attention output + x.
-/
import proofs.«107818_j88888643158595_2_alg».proof.Proof.Spec

noncomputable section

open scoped BigOperators

namespace Cert.Attn

open Idealize.ShloMosaic Idealize.ShloMosaic.ValueIdx

/-- A [25600, 640] array of extended reals. -/
abbrev Arr := (⟨2, ![25600, 640]⟩ : Shape).Idx → EReal
/-- A [640, 640] weight matrix. -/
abbrev Wt := (⟨2, ![640, 640]⟩ : Shape).Idx → EReal
/-- A vector of 640 entries. -/
abbrev Vc := (⟨1, ![640]⟩ : Shape).Idx → EReal

/-- Entry (n, j) of x · Wᵀ. -/
def projAt (x : Arr) (w : Wt) (n : Fin 25600) (j : Fin 640) : EReal :=
  dot640 (fun k => x (ix2 n k)) (fun k => w (ix2 j k))

/-- The row of a row-major position in a [25600, 640] array. -/
def rowOf (f : ℕ) (h : f < 16384000) : Fin 25600 := ⟨f / 640, by omega⟩
/-- The column of a row-major position in a [25600, 640] array. -/
def colOf (f : ℕ) : Fin 640 := ⟨f % 640, Nat.mod_lt _ (by decide)⟩

/-- A [25600, 640] array read at a row-major position. -/
def flatAt (P : Fin 25600 → Fin 640 → EReal) (f : ℕ) (h : f < 16384000) : EReal := P (rowOf f h) (colOf f)

theorem flatAt_congr (P : Fin 25600 → Fin 640 → EReal) {f g : ℕ} (e : f = g) (hf : f < 16384000) (hg : g < 16384000) :
    flatAt P f hf = flatAt P g hg := by subst e; rfl

theorem flatAt_eq (P : Fin 25600 → Fin 640 → EReal) (f : ℕ) (h : f < 16384000) (n : Fin 25600) (j : Fin 640)
    (e : n.val * 640 + j.val = f) : flatAt P f h = P n j := by
  have hn : rowOf f h = n := Fin.ext (by show f / 640 = n.val; have := j.isLt; omega)
  have hj : colOf f = j := Fin.ext (by show f % 640 = j.val; have := j.isLt; omega)
  unfold flatAt; rw [hn, hj]

/-- The bounds of the three per-head positions. -/
theorem qpos_lt (b : Fin 640) (r : Fin 400) (e : Fin 64) : (b.val * 400 + r.val) * 64 + e.val < 16384000 := by
  have := b.isLt; have := r.isLt; have := e.isLt; omega
theorem kpos_lt (b : Fin 640) (e : Fin 64) (s : Fin 400) : (b.val * 64 + e.val) * 400 + s.val < 16384000 := by
  have := b.isLt; have := s.isLt; have := e.isLt; omega

/-- Head b's query matrix: the query projection at positions (b·400 + r)·64 + e. -/
def headQ (Q : Fin 25600 → Fin 640 → EReal) (b : Fin 640) (r : Fin 400) (e : Fin 64) : EReal :=
  flatAt Q ((b.val * 400 + r.val) * 64 + e.val) (qpos_lt b r e)
/-- Head b's key matrix, 64 × 400: the key projection at positions (b·64 + e)·400 + s. -/
def headKm (K : Fin 25600 → Fin 640 → EReal) (b : Fin 640) (e : Fin 64) (s : Fin 400) : EReal :=
  flatAt K ((b.val * 64 + e.val) * 400 + s.val) (kpos_lt b e s)

/-- The attention output of head b at (r, d), for either order of the normalisation (`head` is `headK` or
    `headR`), from the inputs and the three weights. -/
def attnHead (head : EReal → (Fin 400 → Fin 64 → EReal) → (Fin 64 → Fin 400 → EReal) → (Fin 400 → Fin 64 → EReal) → Fin 400 → Fin 64 → EReal)
    (scale : EReal) (x : Arr) (wq wk wv : Wt) (b : Fin 640) (r : Fin 400) (d : Fin 64) : EReal :=
  head scale (headQ (projAt x wq) b) (headKm (projAt x wk) b) (headQ (projAt x wv) b) r d

/-- The head, row and column of a row-major position of the attention output. -/
def headOf (n : Fin 25600) (k : Fin 640) : Fin 640 := ⟨(n.val * 640 + k.val) / 25600, by have := n.isLt; have := k.isLt; omega⟩
def qrowOf (n : Fin 25600) (k : Fin 640) : Fin 400 := ⟨(n.val * 640 + k.val) / 64 % 400, Nat.mod_lt _ (by decide)⟩
def dcolOf (n : Fin 25600) (k : Fin 640) : Fin 64 := ⟨(n.val * 640 + k.val) % 64, Nat.mod_lt _ (by decide)⟩

/-- The row-major position of (head, row, column) of entry (n, k) is n · 640 + k. -/
theorem pos_of_entry (n : Fin 25600) (k : Fin 640) :
    ((headOf n k).val * 400 + (qrowOf n k).val) * 64 + (dcolOf n k).val = n.val * 640 + k.val := by
  show ((n.val * 640 + k.val) / 25600 * 400 + (n.val * 640 + k.val) / 64 % 400) * 64 + (n.val * 640 + k.val) % 64 = _
  have e1 : (n.val * 640 + k.val) / 64 / 400 = (n.val * 640 + k.val) / 25600 := Nat.div_div_eq_div_mul _ 64 400
  omega

/-- The whole result at (n, j): the layer normalisation of row n of (attention output + x). -/
def resultAt (head : EReal → (Fin 400 → Fin 64 → EReal) → (Fin 64 → Fin 400 → EReal) → (Fin 400 → Fin 64 → EReal) → Fin 400 → Fin 64 → EReal)
    (scale : EReal) (x : Arr) (wq wk wv : Wt) (g bias : Vc) (n : Fin 25600) (j : Fin 640) : EReal :=
  layerNorm (fun k => attnHead head scale x wq wk wv (headOf n k) (qrowOf n k) (dcolOf n k) + x (ix2 n k))
    (fun k => g (ix1 k)) (fun k => bias (ix1 k)) j

end Cert.Attn

end
-- ==== Proof.R0Value.lean ====
/-
  The first region of the kernel program: the three projections of the attention layer.

  The region's grid has 20 points. Point t reads rows 1280·t … 1280·t + 1279 of the activation array X
  (25600 × 640) and the whole of three weight arrays W₁, W₂, W₃ (640 × 640), multiplies the row block by each
  weight array, and writes the three products back as rows 1280·t … 1280·t + 1279 of three output arrays
  (25600 × 640). Over the extended reals the rounding steps are the identity and the accumulator starts at 0,
  so the stored entry (r, j) of a product is ∑ k, x r k · w k j over the 640 shared coordinates.

  Proved here, for any contents V of the buffers when the region is entered: after the region, entry (n, j) of
  output array m is dot640 (row n of X) (column j of W_m) — theorems arr4, arr5, arr6. The steps: the matrix
  product read at an index (mm_apply), each stored payload at an index (pay2_apply …), each window's block as
  entries of its array (iblk_x_apply, iblk_w1_apply …), what a point writes back as a block of one whole-array
  function proj X W (flushed4_eq …), the cover — row r lies in the block of point r / 1280 (cover4 …) — and the
  array after the last point (final4 …).
-/
import proofs.«107818_j88888643158595_2_alg».proof.Proof.Gen.KernelIdeal.Frame
import proofs.«107818_j88888643158595_2_alg».proof.Proof.Spec
import Idealize.ShloMosaic.Lib.ValueIdx
import Idealize.ShloMosaic.Lib.Pipeline.Value
import Idealize.ShloMosaic.PureOps.Ideal.Laws

noncomputable section

open scoped BigOperators

namespace Cert.Attn.R0

open Cert.KernelIdeal Cert.KernelIdeal.Gen Idealize.ShloMosaic Idealize.ShloMosaic.ValueIdx Idealize.SL.Sem
open Idealize.ShloMosaic.TcCoe
open Idealize.ShloMosaic.Pipeline (Dat)

/-! ## The matrix product at an index -/

/-- The left operand is read at the output's row … -/
theorem lhs0 (i : S1280x640.Idx) (q : dot_S1280x640_S640x640_S1280x640_1_0_0_1_n_n.contr.Idx) :
    (dot_S1280x640_S640x640_S1280x640_1_0_0_1_n_n.lhsIdx i q 0).val = (i 0).val := by
  unfold DotDims.lhsIdx
  rw [dif_neg (show ¬(0 : Fin S1280x640.rank) ∈ dot_S1280x640_S640x640_S1280x640_1_0_0_1_n_n.lhsBatch by decide), dif_pos (show (0 : Fin S1280x640.rank) ∈ dot_S1280x640_S640x640_S1280x640_1_0_0_1_n_n.lhsNonContracting by decide)]
  rfl
/-- … and at the contracted coordinate; -/
theorem lhs1 (i : S1280x640.Idx) (q : dot_S1280x640_S640x640_S1280x640_1_0_0_1_n_n.contr.Idx) :
    (dot_S1280x640_S640x640_S1280x640_1_0_0_1_n_n.lhsIdx i q 1).val = (q ⟨0, by decide⟩).val :=
  dot_S1280x640_S640x640_S1280x640_1_0_0_1_n_n.lhsIdx_val_of_single rfl i q
/-- the right operand at the contracted coordinate … -/
theorem rhs0 (i : S1280x640.Idx) (q : dot_S1280x640_S640x640_S1280x640_1_0_0_1_n_n.contr.Idx) :
    (dot_S1280x640_S640x640_S1280x640_1_0_0_1_n_n.rhsIdx i q 0).val = (q ⟨0, by decide⟩).val :=
  dot_S1280x640_S640x640_S1280x640_1_0_0_1_n_n.rhsIdx_val_of_single rfl i q
/-- … and at the output's column. -/
theorem rhs1 (i : S1280x640.Idx) (q : dot_S1280x640_S640x640_S1280x640_1_0_0_1_n_n.contr.Idx) :
    (dot_S1280x640_S640x640_S1280x640_1_0_0_1_n_n.rhsIdx i q 1).val = (i 1).val := by
  unfold DotDims.rhsIdx
  rw [dif_neg (show ¬(1 : Fin S640x640.rank) ∈ dot_S1280x640_S640x640_S1280x640_1_0_0_1_n_n.rhsBatch by decide), dif_pos (show (1 : Fin S640x640.rank) ∈ dot_S1280x640_S640x640_S1280x640_1_0_0_1_n_n.rhsNonContracting by decide)]
  rfl

/-- The product of a 1280 × 640 block by a 640 × 640 matrix, accumulated from 0, read at row r and column j:
    the sum over the 640 shared coordinates. -/
theorem mm_apply (x : FVec Ideal S1280x640 .bf16) (w : FVec Ideal S640x640 .bf16) (r : Fin 1280) (j : Fin 640) :
    FloatOps.matmul dot_S1280x640_S640x640_S1280x640_1_0_0_1_n_n none x w (constant S1280x640 .f32 0x00000000#32) (ix2 r j)
      = ∑ k : Fin 640, x (ix2 r k) * w (ix2 k j) := by
  rw [Ideal.matmul_constant_zero_apply, ← Equiv.sum_comp (contrEquiv1 dot_S1280x640_S640x640_S1280x640_1_0_0_1_n_n 640 rfl rfl).symm]
  refine Finset.sum_congr rfl fun k _ => ?_
  have hk := contrEquiv1_symm_val dot_S1280x640_S640x640_S1280x640_1_0_0_1_n_n 640 rfl rfl k
  have el : dot_S1280x640_S640x640_S1280x640_1_0_0_1_n_n.lhsIdx (ix2 r j) ((contrEquiv1 dot_S1280x640_S640x640_S1280x640_1_0_0_1_n_n 640 rfl rfl).symm k) = ix2 r k := funext fun a => Fin.ext (by
    match a with
    | ⟨0, _⟩ => exact lhs0 _ _
    | ⟨1, _⟩ => exact (lhs1 _ _).trans hk)
  have er : dot_S1280x640_S640x640_S1280x640_1_0_0_1_n_n.rhsIdx (ix2 r j) ((contrEquiv1 dot_S1280x640_S640x640_S1280x640_1_0_0_1_n_n 640 rfl rfl).symm k) = ix2 k j := funext fun a => Fin.ext (by
    match a with
    | ⟨0, _⟩ => exact (rhs0 _ _).trans hk
    | ⟨1, _⟩ => exact rhs1 _ _)
  rw [el, er]

/-! ## The three stored payloads at an index

Each is: round the activation block (the identity on extended reals), keep the weight block's shape, multiply,
round again (the identity). -/

/-- The first stored payload at (r, j) is the sum over k of x0 r k · w k j. -/
theorem pay2_apply (x0 : Vec Ideal S1280x640 .f32) (w : Vec Ideal S640x640 .bf16) (r : Fin 1280) (j : Fin 640) :
    (k0_pay2 x0 w : S1280x640.Idx → EReal) (ix2 r j)
      = Cert.Attn.dot640 (fun k => (x0 : S1280x640.Idx → EReal) (ix2 r k)) (fun k => (w : S640x640.Idx → EReal) (ix2 k j)) := by
  unfold k0_pay2 k0_pay1
  rw [shapeCast_self]
  exact mm_apply _ _ r j

/-- The second stored payload at (r, j) is the sum over k of x0 r k · w k j. -/
theorem pay3_apply (x0 : Vec Ideal S1280x640 .f32) (w : Vec Ideal S640x640 .bf16) (r : Fin 1280) (j : Fin 640) :
    (k0_pay3 x0 w : S1280x640.Idx → EReal) (ix2 r j)
      = Cert.Attn.dot640 (fun k => (x0 : S1280x640.Idx → EReal) (ix2 r k)) (fun k => (w : S640x640.Idx → EReal) (ix2 k j)) := by
  unfold k0_pay3 k0_pay1
  rw [shapeCast_self]
  exact mm_apply _ _ r j

/-- The third stored payload at (r, j) is the sum over k of x0 r k · w k j. -/
theorem pay4_apply (x0 : Vec Ideal S1280x640 .f32) (w : Vec Ideal S640x640 .bf16) (r : Fin 1280) (j : Fin 640) :
    (k0_pay4 x0 w : S1280x640.Idx → EReal) (ix2 r j)
      = Cert.Attn.dot640 (fun k => (x0 : S1280x640.Idx → EReal) (ix2 r k)) (fun k => (w : S640x640.Idx → EReal) (ix2 k j)) := by
  unfold k0_pay4 k0_pay1
  rw [shapeCast_self]
  exact mm_apply _ _ r j

/-! ## One whole-array function -/

/-- The projection of the activation array X by a weight array W, as a function of the array index: entry
    (n, j) is dot640 (row n of X) (column j of W). -/
def proj (X : S25600x640.Idx → EReal) (W : S640x640.Idx → EReal) : S25600x640.Idx → EReal :=
  fun i => Cert.Attn.dot640 (fun k => X (ix2 (⟨(i 0).val, idx2_lt0 i⟩ : Fin 25600) k))
    (fun k => W (ix2 k (⟨(i 1).val, idx2_lt1 i⟩ : Fin 640)))

theorem proj_apply (X : S25600x640.Idx → EReal) (W : S640x640.Idx → EReal) (n : Fin 25600) (j : Fin 640) :
    proj X W (ix2 n j) = Cert.Attn.dot640 (fun k => X (ix2 n k)) (fun k => W (ix2 k j)) := rfl

/-- A block of the projection. Let p be a 1280 × 640 block whose entry (r, j) is dot640 (row r of x0) (column j of w),
    where x0 is rows 1280·t … 1280·t + 1279 of X (hx) and w is all of W (hw). Then p at a block index y is the
    projection of X by W at the array index i with row 1280·t + (row of y) and the column of y. -/
theorem block_proj (X : S25600x640.Idx → EReal) (W : S640x640.Idx → EReal)
    (p : S1280x640.Idx → EReal) (x0 : Vec Ideal S1280x640 .f32) (w : Vec Ideal S640x640 .bf16) (t : ℕ)
    (hp : ∀ (r : Fin 1280) (j : Fin 640), p (ix2 r j)
      = Cert.Attn.dot640 (fun k => (x0 : S1280x640.Idx → EReal) (ix2 r k)) (fun k => (w : S640x640.Idx → EReal) (ix2 k j)))
    (hx : ∀ (x : S1280x640.Idx) (i : S25600x640.Idx), (i 0).val = t * 1280 + (x 0).val → (i 1).val = (x 1).val →
      (x0 : S1280x640.Idx → EReal) x = X i)
    (hw : ∀ x : S640x640.Idx, (w : S640x640.Idx → EReal) x = W x)
    (y : S1280x640.Idx) (i : S25600x640.Idx) (h0 : (i 0).val = t * 1280 + (y 0).val) (h1 : (i 1).val = (y 1).val) :
    p y = proj X W i := by
  obtain ⟨r, j, rfl⟩ : ∃ (r : Fin 1280) (j : Fin 640), y = ix2 r j := ⟨y 0, y 1, eq_ix2 y⟩
  obtain ⟨n, j', rfl⟩ : ∃ (n : Fin 25600) (j' : Fin 640), i = ix2 n j' := ⟨i 0, i 1, eq_ix2 i⟩
  obtain rfl : j = j' := (Fin.ext h1).symm
  refine (hp r j).trans ?_
  rw [proj_apply]
  unfold Cert.Attn.dot640
  refine Finset.sum_congr rfl fun k _ => ?_
  show x0 (ix2 r k) * w (ix2 k j) = X (ix2 n k) * W (ix2 k j)
  rw [hx (ix2 r k) (ix2 n k) h0 rfl, hw]

/-! ## The grid's index maps -/

theorem hz : (![0, 0] : Fin 2 → Nat) = fun _ => 0 := funext fun a => by fin_cases a <;> rfl

/-- The block index maps, decided over the 20 points: the activations' and the three outputs' row block is the
    point's number and their column block is 0; each weight window is the block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The arithmetic of the cover: with row block ⌊row / 1280⌋ and column block 0, an array index lies inside the
    block's range on both axes. -/
theorem row_cover (idx : Fin 2 → ℕ) (i : S25600x640.Idx) (e0 : idx 0 = (i 0).val / 1280) (e1 : idx 1 = 0) :
    ∀ a : Fin 2, idx a * S1280x640.size a ≤ (i a).val ∧ (i a).val < idx a * S1280x640.size a + S1280x640.size a := by
  have hi1 : (i 1).val < 640 := idx2_lt1 i
  intro a
  match a with
  | ⟨0, _⟩ => show idx 0 * 1280 ≤ (i 0).val ∧ (i 0).val < idx 0 * 1280 + 1280; rw [e0]; omega
  | ⟨1, _⟩ => show idx 1 * 640 ≤ (i 1).val ∧ (i 1).val < idx 1 * 640 + 640; rw [e1]; omega

/-- Row r / 1280 is a point of the grid. -/
theorem point_lt (i : S25600x640.Idx) : (i 0).val / 1280 < cfg0.N := by
  have hi0 : (i 0).val < 25600 := idx2_lt0 i
  have hN : grid0.N = 20 := N_0
  show _ < grid0.N
  rw [hN]; omega

/-! ## The input windows' blocks as entries of their arrays -/

variable (V : (c : Dev nD) → (b : Ref sig .tc) → Buf (Elt Ideal) ((c : Thread nD τ).loc b))

/-- The activation window's block at point t is rows 1280·t … 1280·t + 1279 of the activation array. -/
theorem iblk_x_apply (c : Dev nD) (t : Fin cfg0.N) (x : S1280x640.Idx) (i : S25600x640.Idx)
    (h0 : (i 0).val = t.val * 1280 + (x 0).val) (h1 : (i 1).val = (x 1).val) :
    (iblk0 V c 0 t : Vec Ideal S1280x640 .f32) x = (V c main_arg0 : S25600x640.Idx → EReal) i := by
  obtain ⟨e0, e1, -⟩ := idx_facts t
  unfold iblk0
  rw [View.read_apply]
  show V c main_arg0 _ = V c main_arg0 _
  congr 1
  funext a; apply Fin.ext
  match a with
  | ⟨0, _⟩ => show win0_0.index t 0 * 1280 + 1 * (x 0).val = (i 0).val; rw [e0, h0]; omega
  | ⟨1, _⟩ => show win0_0.index t 1 * 640 + 1 * (x 1).val = (i 1).val; rw [e1, h1]; omega

/-- The first weight window's block at any point is the whole weight array. -/
theorem iblk_w1_apply (c : Dev nD) (t : Fin cfg0.N) (x : S640x640.Idx) :
    (iblk0 V c 1 t : Vec Ideal S640x640 .bf16) x = (V c main_v1 : S640x640.Idx → EReal) x := by
  obtain ⟨-, -, e0, e1, -⟩ := idx_facts t
  unfold iblk0
  rw [View.read_apply]
  show V c main_v1 _ = V c main_v1 _
  congr 1
  funext a; apply Fin.ext
  match a with
  | ⟨0, _⟩ => show win0_1.index t 0 * 640 + 1 * (x 0).val = (x 0).val; rw [e0]; omega
  | ⟨1, _⟩ => show win0_1.index t 1 * 640 + 1 * (x 1).val = (x 1).val; rw [e1]; omega

/-- The second weight window's block at any point is the whole weight array. -/
theorem iblk_w2_apply (c : Dev nD) (t : Fin cfg0.N) (x : S640x640.Idx) :
    (iblk0 V c 2 t : Vec Ideal S640x640 .bf16) x = (V c main_v3 : S640x640.Idx → EReal) x := by
  obtain ⟨-, -, -, -, e0, e1, -⟩ := idx_facts t
  unfold iblk0
  rw [View.read_apply]
  show V c main_v3 _ = V c main_v3 _
  congr 1
  funext a; apply Fin.ext
  match a with
  | ⟨0, _⟩ => show win0_2.index t 0 * 640 + 1 * (x 0).val = (x 0).val; rw [e0]; omega
  | ⟨1, _⟩ => show win0_2.index t 1 * 640 + 1 * (x 1).val = (x 1).val; rw [e1]; omega

/-- The third weight window's block at any point is the whole weight array. -/
theorem iblk_w3_apply (c : Dev nD) (t : Fin cfg0.N) (x : S640x640.Idx) :
    (iblk0 V c 3 t : Vec Ideal S640x640 .bf16) x = (V c main_v5 : S640x640.Idx → EReal) x := by
  obtain ⟨-, -, -, -, -, -, e0, e1, -⟩ := idx_facts t
  unfold iblk0
  rw [View.read_apply]
  show V c main_v5 _ = V c main_v5 _
  congr 1
  funext a; apply Fin.ext
  match a with
  | ⟨0, _⟩ => show win0_3.index t 0 * 640 + 1 * (x 0).val = (x 0).val; rw [e0]; omega
  | ⟨1, _⟩ => show win0_3.index t 1 * 640 + 1 * (x 1).val = (x 1).val; rw [e1]; omega

/-! ## The first output array -/

/-- What point t writes back through the first output window is block t of the projection by the first weight array. -/
theorem flushed4_eq (c : Dev nD) (t : Fin cfg0.N) :
    (dat0 (F := Ideal) V c).flushed 4 t
      = ((cfg0.win 4).blk t).view.read (Elt Ideal) (proj (V c main_arg0) (V c main_v1)) := by
  show (cfg0.win 4).cut (grid0.coords t) ((dat0 V c).after 4 t) = _
  rw [after0_4]
  unfold out0_4
  rw [View.canon_unit_zero hz]
  simp only [View.ld_unit_zero (S := S1280x640) hz, View.ld_unit_zero (S := S640x640) hz]
  obtain ⟨-, -, -, -, -, -, -, -, e0, e1, -⟩ := idx_facts t
  funext y
  show (k0_pay2 (iblk0 V c 0 t) (iblk0 V c 1 t) : S1280x640.Idx → EReal) y
    = proj (V c main_arg0) (V c main_v1) (((cfg0.win 4).blk t).view.emb y)
  refine block_proj (V c main_arg0) (V c main_v1) _ (iblk0 V c 0 t) (iblk0 V c 1 t) t.val
    (pay2_apply _ _) (iblk_x_apply V c t) (iblk_w1_apply V c t) y _ ?_ ?_
  · show win0_4.index t 0 * 1280 + 1 * (y 0).val = _; rw [e0]; omega
  · show win0_4.index t 1 * 640 + 1 * (y 1).val = _; rw [e1]; omega

/-- An index of the array lies in point t's block iff each coordinate is in the block's range on its axis. -/
theorem mem_blk4 (t : Fin cfg0.N) (i : S25600x640.Idx) :
    i ∈ ((cfg0.win 4).blk t).view.set ↔ ∀ a : Fin 2, win0_4.index t a * S1280x640.size a ≤ (i a).val
      ∧ (i a).val < win0_4.index t a * S1280x640.size a + S1280x640.size a := by
  show i ∈ ((View.whole main_v6_0).slice (win0_4.rect t)).set ↔ _
  rw [View.set_slice_whole, Rect.mem_set_unit]
  exact Iff.rfl

/-- Every entry of the array is written: row r by point r / 1280. -/
theorem cover4 (i : S25600x640.Idx) :
    ∃ t : Fin cfg0.N, (cfg0.win 4).flush t = true ∧ i ∈ ((cfg0.win 4).blk t).view.set := by
  obtain ⟨-, -, -, -, -, -, -, -, e0, e1, -⟩ := idx_facts ⟨(i 0).val / 1280, point_lt i⟩
  refine ⟨⟨(i 0).val / 1280, point_lt i⟩, flush0_4 _, ?_⟩
  rw [mem_blk4]
  exact row_cover _ i e0 e1

/-- After the region the first output array is the projection of the activations by the first weight array. -/
theorem final4 (c : Dev nD) :
    (dat0 (F := Ideal) V c).arrAt 4 cfg0.N = proj (V c main_arg0) (V c main_v1) :=
  (dat0 (F := Ideal) V c).arrAt_eq_of_cover 4 (proj (V c main_arg0) (V c main_v1))
    (fun t _ => flushed4_eq V c t) cover4

/-- Entry (n, j) of the first output array after the region: row n of the activations against column j of the
    first weight array. -/
theorem arr4 (c : Dev nD) (n : Fin 25600) (j : Fin 640) :
    ((dat0 (F := Ideal) V c).arrAt 4 cfg0.N : S25600x640.Idx → EReal) (ix2 n j)
      = Cert.Attn.dot640 (fun k => (V c main_arg0 : S25600x640.Idx → EReal) (ix2 n k))
          (fun k => (V c main_v1 : S640x640.Idx → EReal) (ix2 k j)) :=
  (congrFun (final4 V c) (ix2 n j)).trans (proj_apply _ _ n j)

/-! ## The second output array -/

/-- What point t writes back through the second output window is block t of the projection by the second weight array. -/
theorem flushed5_eq (c : Dev nD) (t : Fin cfg0.N) :
    (dat0 (F := Ideal) V c).flushed 5 t
      = ((cfg0.win 5).blk t).view.read (Elt Ideal) (proj (V c main_arg0) (V c main_v3)) := by
  show (cfg0.win 5).cut (grid0.coords t) ((dat0 V c).after 5 t) = _
  rw [after0_5]
  unfold out0_5
  rw [View.canon_unit_zero hz]
  simp only [View.ld_unit_zero (S := S1280x640) hz, View.ld_unit_zero (S := S640x640) hz]
  obtain ⟨-, -, -, -, -, -, -, -, -, -, e0, e1, -⟩ := idx_facts t
  funext y
  show (k0_pay3 (iblk0 V c 0 t) (iblk0 V c 2 t) : S1280x640.Idx → EReal) y
    = proj (V c main_arg0) (V c main_v3) (((cfg0.win 5).blk t).view.emb y)
  refine block_proj (V c main_arg0) (V c main_v3) _ (iblk0 V c 0 t) (iblk0 V c 2 t) t.val
    (pay3_apply _ _) (iblk_x_apply V c t) (iblk_w2_apply V c t) y _ ?_ ?_
  · show win0_5.index t 0 * 1280 + 1 * (y 0).val = _; rw [e0]; omega
  · show win0_5.index t 1 * 640 + 1 * (y 1).val = _; rw [e1]; omega

/-- An index of the array lies in point t's block iff each coordinate is in the block's range on its axis. -/
theorem mem_blk5 (t : Fin cfg0.N) (i : S25600x640.Idx) :
    i ∈ ((cfg0.win 5).blk t).view.set ↔ ∀ a : Fin 2, win0_5.index t a * S1280x640.size a ≤ (i a).val
      ∧ (i a).val < win0_5.index t a * S1280x640.size a + S1280x640.size a := by
  show i ∈ ((View.whole main_v6_1).slice (win0_5.rect t)).set ↔ _
  rw [View.set_slice_whole, Rect.mem_set_unit]
  exact Iff.rfl

/-- Every entry of the array is written: row r by point r / 1280. -/
theorem cover5 (i : S25600x640.Idx) :
    ∃ t : Fin cfg0.N, (cfg0.win 5).flush t = true ∧ i ∈ ((cfg0.win 5).blk t).view.set := by
  obtain ⟨-, -, -, -, -, -, -, -, -, -, e0, e1, -⟩ := idx_facts ⟨(i 0).val / 1280, point_lt i⟩
  refine ⟨⟨(i 0).val / 1280, point_lt i⟩, flush0_5 _, ?_⟩
  rw [mem_blk5]
  exact row_cover _ i e0 e1

/-- After the region the second output array is the projection of the activations by the second weight array. -/
theorem final5 (c : Dev nD) :
    (dat0 (F := Ideal) V c).arrAt 5 cfg0.N = proj (V c main_arg0) (V c main_v3) :=
  (dat0 (F := Ideal) V c).arrAt_eq_of_cover 5 (proj (V c main_arg0) (V c main_v3))
    (fun t _ => flushed5_eq V c t) cover5

/-- Entry (n, j) of the second output array after the region: row n of the activations against column j of the
    second weight array. -/
theorem arr5 (c : Dev nD) (n : Fin 25600) (j : Fin 640) :
    ((dat0 (F := Ideal) V c).arrAt 5 cfg0.N : S25600x640.Idx → EReal) (ix2 n j)
      = Cert.Attn.dot640 (fun k => (V c main_arg0 : S25600x640.Idx → EReal) (ix2 n k))
          (fun k => (V c main_v3 : S640x640.Idx → EReal) (ix2 k j)) :=
  (congrFun (final5 V c) (ix2 n j)).trans (proj_apply _ _ n j)

/-! ## The third output array -/

/-- What point t writes back through the third output window is block t of the projection by the third weight array. -/
theorem flushed6_eq (c : Dev nD) (t : Fin cfg0.N) :
    (dat0 (F := Ideal) V c).flushed 6 t
      = ((cfg0.win 6).blk t).view.read (Elt Ideal) (proj (V c main_arg0) (V c main_v5)) := by
  show (cfg0.win 6).cut (grid0.coords t) ((dat0 V c).after 6 t) = _
  rw [after0_6]
  unfold out0_6
  rw [View.canon_unit_zero hz]
  simp only [View.ld_unit_zero (S := S1280x640) hz, View.ld_unit_zero (S := S640x640) hz]
  obtain ⟨-, -, -, -, -, -, -, -, -, -, -, -, e0, e1⟩ := idx_facts t
  funext y
  show (k0_pay4 (iblk0 V c 0 t) (iblk0 V c 3 t) : S1280x640.Idx → EReal) y
    = proj (V c main_arg0) (V c main_v5) (((cfg0.win 6).blk t).view.emb y)
  refine block_proj (V c main_arg0) (V c main_v5) _ (iblk0 V c 0 t) (iblk0 V c 3 t) t.val
    (pay4_apply _ _) (iblk_x_apply V c t) (iblk_w3_apply V c t) y _ ?_ ?_
  · show win0_6.index t 0 * 1280 + 1 * (y 0).val = _; rw [e0]; omega
  · show win0_6.index t 1 * 640 + 1 * (y 1).val = _; rw [e1]; omega

/-- An index of the array lies in point t's block iff each coordinate is in the block's range on its axis. -/
theorem mem_blk6 (t : Fin cfg0.N) (i : S25600x640.Idx) :
    i ∈ ((cfg0.win 6).blk t).view.set ↔ ∀ a : Fin 2, win0_6.index t a * S1280x640.size a ≤ (i a).val
      ∧ (i a).val < win0_6.index t a * S1280x640.size a + S1280x640.size a := by
  show i ∈ ((View.whole main_v6_2).slice (win0_6.rect t)).set ↔ _
  rw [View.set_slice_whole, Rect.mem_set_unit]
  exact Iff.rfl

/-- Every entry of the array is written: row r by point r / 1280. -/
theorem cover6 (i : S25600x640.Idx) :
    ∃ t : Fin cfg0.N, (cfg0.win 6).flush t = true ∧ i ∈ ((cfg0.win 6).blk t).view.set := by
  obtain ⟨-, -, -, -, -, -, -, -, -, -, -, -, e0, e1⟩ := idx_facts ⟨(i 0).val / 1280, point_lt i⟩
  refine ⟨⟨(i 0).val / 1280, point_lt i⟩, flush0_6 _, ?_⟩
  rw [mem_blk6]
  exact row_cover _ i e0 e1

/-- After the region the third output array is the projection of the activations by the third weight array. -/
theorem final6 (c : Dev nD) :
    (dat0 (F := Ideal) V c).arrAt 6 cfg0.N = proj (V c main_arg0) (V c main_v5) :=
  (dat0 (F := Ideal) V c).arrAt_eq_of_cover 6 (proj (V c main_arg0) (V c main_v5))
    (fun t _ => flushed6_eq V c t) cover6

/-- Entry (n, j) of the third output array after the region: row n of the activations against column j of the
    third weight array. -/
theorem arr6 (c : Dev nD) (n : Fin 25600) (j : Fin 640) :
    ((dat0 (F := Ideal) V c).arrAt 6 cfg0.N : S25600x640.Idx → EReal) (ix2 n j)
      = Cert.Attn.dot640 (fun k => (V c main_arg0 : S25600x640.Idx → EReal) (ix2 n k))
          (fun k => (V c main_v5 : S640x640.Idx → EReal) (ix2 k j)) :=
  (congrFun (final6 V c) (ix2 n j)).trans (proj_apply _ _ n j)

end Cert.Attn.R0

end
-- ==== Proof.R1Pieces.lean ====
/-
  One grid point of the attention region: what the output block holds after the 32 trips of the head loop.

  The point's output block is [32, 400, 64]: 32 heads, each a 400 × 64 matrix. Trip k of the loop loads head k's
  [1, 400, 64] slice of the query block, head k's [1, 64, 400] slice of the key block and head k's [1, 400, 64] slice
  of the value block, and stores one [1, 400, 64] payload — the softmax-attention arithmetic of those three slices —
  at head k of the output block. So the list of stores the 32 trips make consists of 32 unit rectangles, rectangle k
  at offset (k, 0, 0), and every one of them is the restriction to its rectangle of ONE function of the block's
  index: at (hh, r, d), the payload of head hh's three slices, read at (0, r, d). The rectangles cover the block,
  hence the block read back after the loop is that function (`out_eq`, `out_apply`), whatever the buffer held before.
-/
import proofs.«107818_j88888643158595_2_alg».proof.Proof.Gen.KernelIdeal.Frame
import Idealize.ShloMosaic.Lib.Pipeline.Value
import Idealize.ShloMosaic.Lib.ValueIdx

noncomputable section

namespace Cert.Attn.R1

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The loop makes 32 trips. -/
theorem trips_eq : k1_t1_loop.trips = 32 := by decide +kernel

/-- A trip's offsets: its own number along the head axis, zero along the other two. -/
theorem off1_0 (k : Fin k1_t1_loop.trips) : k1_off1 k 0 = k.val := by rw [k1_off1_eq]; rfl
theorem off1_1 (k : Fin k1_t1_loop.trips) : k1_off1 k 1 = 0 := by rw [k1_off1_eq]; rfl
theorem off1_2 (k : Fin k1_t1_loop.trips) : k1_off1 k 2 = 0 := by rw [k1_off1_eq]; rfl
theorem off2_0 (k : Fin k1_t1_loop.trips) : k1_off2 k 0 = k.val := by rw [k1_off2_eq]; rfl
theorem off2_1 (k : Fin k1_t1_loop.trips) : k1_off2 k 1 = 0 := by rw [k1_off2_eq]; rfl
theorem off2_2 (k : Fin k1_t1_loop.trips) : k1_off2 k 2 = 0 := by rw [k1_off2_eq]; rfl

/-- Head `hh`'s [1,400,64] slice of a [32,400,64] block. -/
def headRows {e : EltTy} (x : Vec F S32x400x64 e) (hh : Fin 32) : Vec F S1x400x64 e :=
  fun j => x (ix3 hh (j 1) (j 2))

/-- Head `hh`'s [1,64,400] slice of a [32,64,400] block. -/
def headCols {e : EltTy} (x : Vec F S32x64x400 e) (hh : Fin 32) : Vec F S1x64x400 e :=
  fun j => x (ix3 hh (j 1) (j 2))

/-- The head a trip handles. -/
abbrev headOf (k : Fin k1_t1_loop.trips) : Fin 32 := ⟨k.val, Nat.lt_of_lt_of_le k.isLt k1_t1_abs.2.1⟩

/-- A load through trip `k`'s unit rectangle of a [32,400,64] block reads head `k`'s slice. -/
theorem ld_headRows {e : EltTy} (x : Vec F S32x400x64 e) (k : Fin k1_t1_loop.trips) :
    View.ld (Val := Elt F) x (Rect.unit (s := S32x400x64) (k1_off1 k) S1x400x64.size (k1_off1_inb k))
      = headRows x (headOf k) := by
  funext j
  show x _ = x _
  congr 1
  funext a
  apply Fin.ext
  have h0 : (j 0).val < 1 := (j 0).isLt
  match a with
  | ⟨0, _⟩ => show k1_off1 k 0 + 1 * (j 0).val = k.val; have := off1_0 k; omega
  | ⟨1, _⟩ => show k1_off1 k 1 + 1 * (j 1).val = (j 1).val; have := off1_1 k; omega
  | ⟨2, _⟩ => show k1_off1 k 2 + 1 * (j 2).val = (j 2).val; have := off1_2 k; omega

/-- The same for a [32,64,400] block. -/
theorem ld_headCols {e : EltTy} (x : Vec F S32x64x400 e) (k : Fin k1_t1_loop.trips) :
    View.ld (Val := Elt F) x (Rect.unit (s := S32x64x400) (k1_off2 k) S1x64x400.size (k1_off2_inb k))
      = headCols x (headOf k) := by
  funext j
  show x _ = x _
  congr 1
  funext a
  apply Fin.ext
  have h0 : (j 0).val < 1 := (j 0).isLt
  match a with
  | ⟨0, _⟩ => show k1_off2 k 0 + 1 * (j 0).val = k.val; have := off2_0 k; omega
  | ⟨1, _⟩ => show k1_off2 k 1 + 1 * (j 1).val = (j 1).val; have := off2_1 k; omega
  | ⟨2, _⟩ => show k1_off2 k 2 + 1 * (j 2).val = (j 2).val; have := off2_2 k; omega

/-- What the output block holds after the 32 trips, as ONE function of the block's index: at (hh, r, d) the
    payload of head `hh`'s slices of the three input blocks, at (0, r, d). -/
def headOut (x0 : Vec F S32x400x64 .bf16) (x1 : Vec F S32x64x400 .bf16) (x2 : Vec F S32x400x64 .bf16) : Vec F S32x400x64 .f32 :=
  fun y => k1_pay1 (headRows x0 (y 0)) (headCols x1 (y 0)) (headRows x2 (y 0)) (ix3 0 (y 1) (y 2))

/-- Trip `k`'s payload, at a local index of its store's rectangle, is that function at the embedded index. -/
theorem trip_val (x0 : Vec F S32x400x64 .bf16) (x1 : Vec F S32x64x400 .bf16) (x2 : Vec F S32x400x64 .bf16) (k : Fin k1_t1_loop.trips)
    (x : (Rect.unit (s := S32x400x64) (k1_off1 k) S1x400x64.size (k1_off1_inb k)).shape.Idx) :
    k1_pay1 (View.ld (Val := Elt F) x0 (Rect.unit (s := S32x400x64) (k1_off1 k) S1x400x64.size (k1_off1_inb k)))
        (View.ld (Val := Elt F) x1 (Rect.unit (s := S32x64x400) (k1_off2 k) S1x64x400.size (k1_off2_inb k)))
        (View.ld (Val := Elt F) x2 (Rect.unit (s := S32x400x64) (k1_off1 k) S1x400x64.size (k1_off1_inb k))) x
      = headOut x0 x1 x2 ((Rect.unit (s := S32x400x64) (k1_off1 k) S1x400x64.size (k1_off1_inb k)).emb x) := by
  rw [ld_headRows, ld_headCols, ld_headRows]
  have h0 : (x 0).val < 1 := (x 0).isLt
  have hy0 : (((Rect.unit (s := S32x400x64) (k1_off1 k) S1x400x64.size (k1_off1_inb k)).emb x) 0 : Fin 32) = headOf k :=
    Fin.ext (by show k1_off1 k 0 + 1 * (x 0).val = k.val; have := off1_0 k; omega)
  have hx : x = ix3 (0 : Fin 1) (((Rect.unit (s := S32x400x64) (k1_off1 k) S1x400x64.size (k1_off1_inb k)).emb x) 1 : Fin 400)
      (((Rect.unit (s := S32x400x64) (k1_off1 k) S1x400x64.size (k1_off1_inb k)).emb x) 2 : Fin 64) := by
    funext a
    apply Fin.ext
    match a with
    | ⟨0, _⟩ => show (x 0).val = 0; omega
    | ⟨1, _⟩ => show (x 1).val = k1_off1 k 1 + 1 * (x 1).val; have := off1_1 k; omega
    | ⟨2, _⟩ => show (x 2).val = k1_off1 k 2 + 1 * (x 2).val; have := off1_2 k; omega
  unfold headOut
  rw [hy0]
  exact congrArg _ hx

/-- One trip writes ONE piece: at its unit rectangle, the payload of its three loads. -/
theorem trip_piece (𝒱 : Variants) (c : Dev nD) (bd : Option 𝒱.V) (i : grid1.Coords) (arg1 : Memref sig .tc .vmem S32x400x64 .bf16) (harg1 : arg1.IsWhole) (arg2 : Memref sig .tc .vmem S32x64x400 .bf16) (harg2 : arg2.IsWhole) (arg3 : Memref sig .tc .vmem S32x400x64 .bf16) (harg3 : arg3.IsWhole) (arg4 : Memref sig .tc .vmem S32x400x64 .f32) (harg4 : arg4.IsWhole) (X1 : BufTy.Contents (Elt F) arg1.view.ty) (X2 : BufTy.Contents (Elt F) arg2.view.ty) (X3 : BufTy.Contents (Elt F) arg3.view.ty) (k : Fin k1_t1_loop.trips) :
    tripL_k1_t1 (F := F) 𝒱 c bd i arg1 harg1 arg2 harg2 arg3 harg3 arg4 harg4 X1 X2 X3 k
      = [⟨Rect.unit (s := S32x400x64) (k1_off1 k) S1x400x64.size (k1_off1_inb k),
          k1_pay1 (View.readAt (Elt F) arg1.view (Rect.unit (s := S32x400x64) (k1_off1 k) S1x400x64.size (k1_off1_inb k)).toLoadRect X1)
            (View.readAt (Elt F) arg2.view (Rect.unit (s := S32x64x400) (k1_off2 k) S1x64x400.size (k1_off2_inb k)).toLoadRect X2)
            (View.readAt (Elt F) arg3.view (Rect.unit (s := S32x400x64) (k1_off1 k) S1x400x64.size (k1_off1_inb k)).toLoadRect X3)⟩] := by
  unfold tripL_k1_t1 trip_k1_t1
  rfl

/-- The run's pieces are those of the 32 trips, over the input blocks as the buffers' contents. -/
theorem run_pieces (c : Dev nD) (i : grid1.Coords) (arg1 : Memref sig .tc .vmem S32x400x64 .bf16) (harg1 : arg1.IsWhole) (arg2 : Memref sig .tc .vmem S32x64x400 .bf16) (harg2 : arg2.IsWhole) (arg3 : Memref sig .tc .vmem S32x400x64 .bf16) (harg3 : arg3.IsWhole) (arg4 : Memref sig .tc .vmem S32x400x64 .f32) (harg4 : arg4.IsWhole) (x0 : Vec F S32x400x64 .bf16) (x1 : Vec F S32x64x400 .bf16) (x2 : Vec F S32x400x64 .bf16) :
    (kernelRun1_A (F := F) c i arg1 harg1 arg2 harg2 arg3 harg3 arg4 harg4 x0 x1 x2).1 = pb_k1_t1 (F := F) Variants.none c none i arg1 harg1 arg2 harg2 arg3 harg3 arg4 harg4 (harg1.unread x0) (harg2.unread x1) (harg3.unread x2) k1_t1_loop.trips := by
  unfold kernelRun1_A
  rfl

/-- Every piece of the first `n` trips is a block of the one function `headOut`. -/
theorem pieces (c : Dev nD) (i : grid1.Coords) (arg1 : Memref sig .tc .vmem S32x400x64 .bf16) (harg1 : arg1.IsWhole) (arg2 : Memref sig .tc .vmem S32x64x400 .bf16) (harg2 : arg2.IsWhole) (arg3 : Memref sig .tc .vmem S32x400x64 .bf16) (harg3 : arg3.IsWhole) (arg4 : Memref sig .tc .vmem S32x400x64 .f32) (harg4 : arg4.IsWhole) (x0 : Vec F S32x400x64 .bf16) (x1 : Vec F S32x64x400 .bf16) (x2 : Vec F S32x400x64 .bf16) :
    ∀ (n : ℕ) (_ : n ≤ k1_t1_loop.trips), ∀ p ∈ pb_k1_t1 (F := F) Variants.none c none i arg1 harg1 arg2 harg2 arg3 harg3 arg4 harg4 (harg1.unread x0) (harg2.unread x1) (harg3.unread x2) n,
      ∀ x : p.1.shape.Idx, p.2 x = headOut x0 x1 x2 (p.1.emb x)
  | 0, _ => fun p hp => absurd hp List.not_mem_nil
  | n + 1, hn => by
    intro p hp x
    have hk : n < k1_t1_loop.trips := hn
    have e : pb_k1_t1 (F := F) Variants.none c none i arg1 harg1 arg2 harg2 arg3 harg3 arg4 harg4 (harg1.unread x0) (harg2.unread x1) (harg3.unread x2) (n + 1) = _ := pb_k1_t1_succ (F := F) Variants.none c none i arg1 harg1 arg2 harg2 arg3 harg3 arg4 harg4 (harg1.unread x0) (harg2.unread x1) (harg3.unread x2) ⟨n, hk⟩
    rw [e] at hp
    rcases List.mem_append.mp hp with h | h
    · rw [trip_piece] at h
      obtain rfl := List.mem_singleton.mp h
      dsimp only
      simp only [View.readAt_eq_ld, harg1.read_unread, harg2.read_unread, harg3.read_unread]
      exact trip_val x0 x1 x2 ⟨n, hk⟩ x
    · exact pieces c i arg1 harg1 arg2 harg2 arg3 harg3 arg4 harg4 x0 x1 x2 n (Nat.le_of_succ_le hn) p h x

/-- So the output's staging buffer after the body holds `headOut` of the three input blocks. -/
theorem out_eq (c : Dev nD) (i : grid1.Coords) (arg1 : Memref sig .tc .vmem S32x400x64 .bf16) (harg1 : arg1.IsWhole) (arg2 : Memref sig .tc .vmem S32x64x400 .bf16) (harg2 : arg2.IsWhole) (arg3 : Memref sig .tc .vmem S32x400x64 .bf16) (harg3 : arg3.IsWhole) (arg4 : Memref sig .tc .vmem S32x400x64 .f32) (harg4 : arg4.IsWhole) (x0 : Vec F S32x400x64 .bf16) (x1 : Vec F S32x64x400 .bf16) (x2 : Vec F S32x400x64 .bf16) :
    out1_A_3 (F := F) c i arg1 harg1 arg2 harg2 arg3 harg3 arg4 harg4 x0 x1 x2 = headOut x0 x1 x2 := by
  unfold out1_A_3
  rw [View.read_writes_eq_canon _ _ _ (cover1_A_3 c i arg1 harg1 arg2 harg2 arg3 harg3 arg4 harg4 x0 x1 x2)]
  funext y
  refine View.canon_apply_of_pieces (headOut x0 x1 x2) _ ?_ y (cover1_A_3 c i arg1 harg1 arg2 harg2 arg3 harg3 arg4 harg4 x0 x1 x2 y)
  rw [run_pieces]
  exact pieces c i arg1 harg1 arg2 harg2 arg3 harg3 arg4 harg4 x0 x1 x2 k1_t1_loop.trips le_rfl

/-- At an index: head `hh`, row `r`, column `d` of the output block is the payload of head `hh`'s slices at (0, r, d). -/
theorem out_apply (c : Dev nD) (i : grid1.Coords) (arg1 : Memref sig .tc .vmem S32x400x64 .bf16) (harg1 : arg1.IsWhole) (arg2 : Memref sig .tc .vmem S32x64x400 .bf16) (harg2 : arg2.IsWhole) (arg3 : Memref sig .tc .vmem S32x400x64 .bf16) (harg3 : arg3.IsWhole) (arg4 : Memref sig .tc .vmem S32x400x64 .f32) (harg4 : arg4.IsWhole) (x0 : Vec F S32x400x64 .bf16) (x1 : Vec F S32x64x400 .bf16) (x2 : Vec F S32x400x64 .bf16) (hh : Fin 32) (r : Fin 400) (d : Fin 64) :
    out1_A_3 (F := F) c i arg1 harg1 arg2 harg2 arg3 harg3 arg4 harg4 x0 x1 x2 (ix3 hh r d)
      = k1_pay1 (headRows x0 hh) (headCols x1 hh) (headRows x2 hh) (ix3 0 r d) := by
  rw [out_eq]; rfl

end Cert.Attn.R1

end
-- ==== Proof.R1Payload.lean ====
/-
  One attention head's payload, read at an output entry.

  The head takes a query block q (400 × 64), a key block k (64 × 400) and a value block v (400 × 64), each stored with a
  leading unit axis. It forms the scores s r j = (∑ e, q r e · k e j) · 0.125, the row maxima m r (the fold of max from −∞
  over the 400 columns), the unnormalised weights p r j = exp (s r j − m r), their row sums l r = ∑ j, p r j, the weighted
  values ∑ j, p r j · v j d, and divides the last by l r. This module proves that the entry (0, r, d) of that computation
  is exactly `headK scaleK q k v r d` of the shared specification, with q, k, v the three blocks read at (0, ·, ·).

  The steps, bottom-up: dropping or adding the leading unit axis, a vector turned into a column, and a column spread over
  a row are each read at an entry given by its coordinates; a matrix product into the zero matrix is the sum over the one
  shared coordinate; a maximum (sum) along the second axis is the fold of max (the sum) over that axis's coordinate.
-/
import proofs.«107818_j88888643158595_2_alg».proof.Proof.Gen.KernelIdeal.Skeleton
import proofs.«107818_j88888643158595_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.R1

open Cert.KernelIdeal Cert.KernelIdeal.Gen Idealize.ShloMosaic Idealize.ShloMosaic.ValueIdx

/-! ## A vector turned into a column, and a column spread over the columns of a matrix -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of row values made a column and spread over `b` columns reads, at `(p, c)`, the value of row `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Layout

/-! ## A reduction along the second axis of a 400 × 400 matrix -/

/-- Over row `r` of the result, the source index with coordinate `k` put back on the reduced (second) axis is `(r, k)`. -/
theorem lift_row (h : S400x400.Reduces [1] S400) (r k : Fin 400) : h.lift (ix1 r) k = ix2 r k := by
  funext c
  refine Fin.ext ?_
  match c with
  | ⟨0, _⟩ => rfl
  | ⟨1, _⟩ => rfl

/-- The maximum along the second axis, started from the float word of −∞, is at row `r` the fold of max from −∞ over the
row's 400 entries. -/
theorem rowMax_apply (src : FVec Ideal S400x400 .f32) (h : S400x400.Reduces [1] S400) (hφ : FKind.Formats .f32)
    (hacc : (0xFF800000#32 : BitVec 32) = FKind.maximumf.neutral .f32 hφ) (r : Fin 400) :
    multiReduction .maximumf [1] S400 src 0xFF800000#32 h hφ hacc (ix1 r)
      = (Finset.univ : Finset (Fin 400)).fold max Cert.Attn.negInf (fun j => src (ix2 r j)) := by
  refine (Ideal.multiReduction_maximumf_single src _ h hφ hacc (ix1 r)).trans ?_
  show (Finset.univ : Finset (Fin 400)).fold max Cert.Attn.negInf (src ∘ h.lift (ix1 r)) = _
  exact congrArg (fun f : Fin 400 → EReal => (Finset.univ : Finset (Fin 400)).fold max Cert.Attn.negInf f)
    (funext fun k => congrArg src (lift_row h r k))

/-- The sum along the second axis is at row `r` the sum of the row's 400 entries. -/
theorem rowSum_apply (src : FVec Ideal S400x400 .f32) (h : S400x400.Reduces [1] S400) (hφ : FKind.Formats .f32)
    (hacc : (0x00000000#32 : BitVec 32) = FKind.add.neutral .f32 hφ) (r : Fin 400) :
    multiReduction .add [1] S400 src 0x00000000#32 h hφ hacc (ix1 r) = ∑ j : Fin 400, src (ix2 r j) := by
  refine (Ideal.multiReduction_add_single src _ h hφ hacc (ix1 r)).trans ?_
  show ∑ k : Fin 400, src (h.lift (ix1 r) k) = _
  exact Finset.sum_congr rfl fun k _ => congrArg src (lift_row h r k)

/-! ## The two matrix products, each into the zero matrix: a sum over the one shared coordinate

For each product, the four coordinate facts of its dimension numbers (the left operand is read at the result's row and the
shared coordinate, the right operand at the shared coordinate and the result's column), then the product at an entry. -/

theorem scoresDot_lhs0 (i : S400x400.Idx) (q : dot_S400x64_S64x400_S400x400_1_0_0_1_n_n.contr.Idx) :
    (dot_S400x64_S64x400_S400x400_1_0_0_1_n_n.lhsIdx i q 0).val = (i 0).val := by
  unfold DotDims.lhsIdx
  rw [dif_neg (show ¬(0 : Fin S400x64.rank) ∈ dot_S400x64_S64x400_S400x400_1_0_0_1_n_n.lhsBatch by decide),
    dif_pos (show (0 : Fin S400x64.rank) ∈ dot_S400x64_S64x400_S400x400_1_0_0_1_n_n.lhsNonContracting by decide)]
  rfl
theorem scoresDot_lhs1 (i : S400x400.Idx) (q : dot_S400x64_S64x400_S400x400_1_0_0_1_n_n.contr.Idx) :
    (dot_S400x64_S64x400_S400x400_1_0_0_1_n_n.lhsIdx i q 1).val = (q ⟨0, by decide⟩).val :=
  dot_S400x64_S64x400_S400x400_1_0_0_1_n_n.lhsIdx_val_of_single rfl i q
theorem scoresDot_rhs0 (i : S400x400.Idx) (q : dot_S400x64_S64x400_S400x400_1_0_0_1_n_n.contr.Idx) :
    (dot_S400x64_S64x400_S400x400_1_0_0_1_n_n.rhsIdx i q 0).val = (q ⟨0, by decide⟩).val :=
  dot_S400x64_S64x400_S400x400_1_0_0_1_n_n.rhsIdx_val_of_single rfl i q
theorem scoresDot_rhs1 (i : S400x400.Idx) (q : dot_S400x64_S64x400_S400x400_1_0_0_1_n_n.contr.Idx) :
    (dot_S400x64_S64x400_S400x400_1_0_0_1_n_n.rhsIdx i q 1).val = (i 1).val := by
  unfold DotDims.rhsIdx
  rw [dif_neg (show ¬(1 : Fin S64x400.rank) ∈ dot_S400x64_S64x400_S400x400_1_0_0_1_n_n.rhsBatch by decide),
    dif_pos (show (1 : Fin S64x400.rank) ∈ dot_S400x64_S64x400_S400x400_1_0_0_1_n_n.rhsNonContracting by decide)]
  rfl

/-- Queries times keys: entry `(r, c)` is the sum over the 64 shared coordinates. -/
theorem scoresDot_apply (lhs : FVec Ideal S400x64 .bf16) (rhs : FVec Ideal S64x400 .bf16) (r : Fin 400) (c : Fin 400) :
    matmul dot_S400x64_S64x400_S400x400_1_0_0_1_n_n none lhs rhs (constant S400x400 .f32 0x00000000#32) (ix2 r c)
      = ∑ k : Fin 64, lhs (ix2 r k) * rhs (ix2 k c) := by
  refine (Ideal.matmul_constant_zero_apply dot_S400x64_S64x400_S400x400_1_0_0_1_n_n none lhs rhs (ix2 r c)).trans ?_
  rw [← Equiv.sum_comp (contrEquiv1 dot_S400x64_S64x400_S400x400_1_0_0_1_n_n 64 rfl rfl).symm]
  refine Finset.sum_congr rfl fun k _ => ?_
  have hk := contrEquiv1_symm_val dot_S400x64_S64x400_S400x400_1_0_0_1_n_n 64 rfl rfl k
  have el : dot_S400x64_S64x400_S400x400_1_0_0_1_n_n.lhsIdx (ix2 r c) ((contrEquiv1 dot_S400x64_S64x400_S400x400_1_0_0_1_n_n 64 rfl rfl).symm k) = ix2 r k := funext fun a => Fin.ext (by
    match a with
    | ⟨0, _⟩ => exact scoresDot_lhs0 _ _
    | ⟨1, _⟩ => exact (scoresDot_lhs1 _ _).trans hk)
  have er : dot_S400x64_S64x400_S400x400_1_0_0_1_n_n.rhsIdx (ix2 r c) ((contrEquiv1 dot_S400x64_S64x400_S400x400_1_0_0_1_n_n 64 rfl rfl).symm k) = ix2 k c := funext fun a => Fin.ext (by
    match a with
    | ⟨0, _⟩ => exact (scoresDot_rhs0 _ _).trans hk
    | ⟨1, _⟩ => exact scoresDot_rhs1 _ _)
  rw [el, er]

theorem valuesDot_lhs0 (i : S400x64.Idx) (q : dot_S400x400_S400x64_S400x64_1_0_0_1_n_n.contr.Idx) :
    (dot_S400x400_S400x64_S400x64_1_0_0_1_n_n.lhsIdx i q 0).val = (i 0).val := by
  unfold DotDims.lhsIdx
  rw [dif_neg (show ¬(0 : Fin S400x400.rank) ∈ dot_S400x400_S400x64_S400x64_1_0_0_1_n_n.lhsBatch by decide),
    dif_pos (show (0 : Fin S400x400.rank) ∈ dot_S400x400_S400x64_S400x64_1_0_0_1_n_n.lhsNonContracting by decide)]
  rfl
theorem valuesDot_lhs1 (i : S400x64.Idx) (q : dot_S400x400_S400x64_S400x64_1_0_0_1_n_n.contr.Idx) :
    (dot_S400x400_S400x64_S400x64_1_0_0_1_n_n.lhsIdx i q 1).val = (q ⟨0, by decide⟩).val :=
  dot_S400x400_S400x64_S400x64_1_0_0_1_n_n.lhsIdx_val_of_single rfl i q
theorem valuesDot_rhs0 (i : S400x64.Idx) (q : dot_S400x400_S400x64_S400x64_1_0_0_1_n_n.contr.Idx) :
    (dot_S400x400_S400x64_S400x64_1_0_0_1_n_n.rhsIdx i q 0).val = (q ⟨0, by decide⟩).val :=
  dot_S400x400_S400x64_S400x64_1_0_0_1_n_n.rhsIdx_val_of_single rfl i q
theorem valuesDot_rhs1 (i : S400x64.Idx) (q : dot_S400x400_S400x64_S400x64_1_0_0_1_n_n.contr.Idx) :
    (dot_S400x400_S400x64_S400x64_1_0_0_1_n_n.rhsIdx i q 1).val = (i 1).val := by
  unfold DotDims.rhsIdx
  rw [dif_neg (show ¬(1 : Fin S400x64.rank) ∈ dot_S400x400_S400x64_S400x64_1_0_0_1_n_n.rhsBatch by decide),
    dif_pos (show (1 : Fin S400x64.rank) ∈ dot_S400x400_S400x64_S400x64_1_0_0_1_n_n.rhsNonContracting by decide)]
  rfl

/-- Weights times values: entry `(r, c)` is the sum over the 400 shared coordinates. -/
theorem valuesDot_apply (lhs : FVec Ideal S400x400 .bf16) (rhs : FVec Ideal S400x64 .bf16) (r : Fin 400) (c : Fin 64) :
    matmul dot_S400x400_S400x64_S400x64_1_0_0_1_n_n none lhs rhs (constant S400x64 .f32 0x00000000#32) (ix2 r c)
      = ∑ k : Fin 400, lhs (ix2 r k) * rhs (ix2 k c) := by
  refine (Ideal.matmul_constant_zero_apply dot_S400x400_S400x64_S400x64_1_0_0_1_n_n none lhs rhs (ix2 r c)).trans ?_
  rw [← Equiv.sum_comp (contrEquiv1 dot_S400x400_S400x64_S400x64_1_0_0_1_n_n 400 rfl rfl).symm]
  refine Finset.sum_congr rfl fun k _ => ?_
  have hk := contrEquiv1_symm_val dot_S400x400_S400x64_S400x64_1_0_0_1_n_n 400 rfl rfl k
  have el : dot_S400x400_S400x64_S400x64_1_0_0_1_n_n.lhsIdx (ix2 r c) ((contrEquiv1 dot_S400x400_S400x64_S400x64_1_0_0_1_n_n 400 rfl rfl).symm k) = ix2 r k := funext fun a => Fin.ext (by
    match a with
    | ⟨0, _⟩ => exact valuesDot_lhs0 _ _
    | ⟨1, _⟩ => exact (valuesDot_lhs1 _ _).trans hk)
  have er : dot_S400x400_S400x64_S400x64_1_0_0_1_n_n.rhsIdx (ix2 r c) ((contrEquiv1 dot_S400x400_S400x64_S400x64_1_0_0_1_n_n 400 rfl rfl).symm k) = ix2 k c := funext fun a => Fin.ext (by
    match a with
    | ⟨0, _⟩ => exact (valuesDot_rhs0 _ _).trans hk
    | ⟨1, _⟩ => exact valuesDot_rhs1 _ _)
  rw [el, er]

/-! ## The head, bottom-up: scores, weights, and the quotient -/

/-- The scaled scores at `(r, j)`: the product of the query block and the key block (each with its unit axis dropped)
times the splat of the scale word is the specification's score. -/
theorem scores_apply (x0 : Vec Ideal S1x400x64 .bf16) (x1 : Vec Ideal S1x64x400 .bf16)
    (h0 : S1x400x64.ShapeCasts S400x64) (h1 : S1x64x400.ShapeCasts S64x400) (r j : Fin 400) :
    mulf (matmul dot_S400x64_S64x400_S400x400_1_0_0_1_n_n none (shapeCast S400x64 x0 h0 : FVec Ideal S400x64 .bf16) (shapeCast S64x400 x1 h1 : FVec Ideal S64x400 .bf16)
          (constant S400x400 .f32 0x00000000#32))
        (broadcast S400x400 (FloatOps.ofBits (F := Ideal) .f32 0x3E000000#32)) (ix2 r j)
      = Cert.Attn.score Cert.Attn.scaleK (fun r e => x0 (ix3 0 r e)) (fun e j => x1 (ix3 0 e j)) r j := by
  refine (mulf_apply _ _ (ix2 r j)).trans ?_
  refine congrArg (· * Cert.Attn.scaleK) ?_
  refine (scoresDot_apply _ _ r j).trans ?_
  exact Finset.sum_congr rfl fun e _ =>
    congrArg₂ (· * ·) (shapeCast_1ab_ab_apply x0 h0 r e) (shapeCast_1ab_ab_apply x1 h1 e j)

/-- The unnormalised weights at `(r, j)`, for any score matrix `S` known entrywise as `s`: the exponential of the score
minus the row's maximum, the maximum having been taken along the second axis, made a column and spread back over the row. -/
theorem weights_apply (S : FVec Ideal S400x400 .f32) (s : Fin 400 → Fin 400 → EReal) (hS : ∀ r j, S (ix2 r j) = s r j)
    (hr : S400x400.Reduces [1] S400) (hφ : FKind.Formats .f32)
    (hacc : (0xFF800000#32 : BitVec 32) = FKind.maximumf.neutral .f32 hφ)
    (hc : S400.ShapeCasts S400x1) (hb : S400x1.Broadcasts S400x400) (r j : Fin 400) :
    exp (subf S (broadcastTo S400x400 (shapeCast S400x1 (multiReduction .maximumf [1] S400 S 0xFF800000#32 hr hφ hacc) hc) hb))
        (ix2 r j)
      = Ideal.exp (s r j - (Finset.univ : Finset (Fin 400)).fold max Cert.Attn.negInf (s r)) := by
  show Ideal.exp (S (ix2 r j)
      - broadcastTo S400x400 (shapeCast S400x1 (multiReduction .maximumf [1] S400 S 0xFF800000#32 hr hφ hacc) hc) hb (ix2 r j)) = _
  rw [column_spread_apply, rowMax_apply, hS]
  exact congrArg (fun f : Fin 400 → EReal => Ideal.exp (s r j - (Finset.univ : Finset (Fin 400)).fold max Cert.Attn.negInf f))
    (funext fun k => hS r k)

/-- One head's output at `(0, r, d)`: the weighted sum of the values divided once by the row's sum of weights, which is the
specification's `headK` at the scale word 0.125 over the three blocks read at `(0, ·, ·)`. -/
theorem pay_head (x0 : Vec Ideal S1x400x64 .bf16) (x1 : Vec Ideal S1x64x400 .bf16) (x2 : Vec Ideal S1x400x64 .bf16) (r : Fin 400) (d : Fin 64) :
    Cert.KernelIdeal.Gen.k1_pay1 (F := Ideal) x0 x1 x2 (ix3 0 r d)
      = Cert.Attn.headK Cert.Attn.scaleK (fun r e => x0 (ix3 0 r e)) (fun e j => x1 (ix3 0 e j)) (fun j d => x2 (ix3 0 j d)) r d := by
  unfold k1_pay1
  -- the trailing cast only adds the unit axis back
  refine (shapeCast_ab_1ab_apply _ _ 0 r d).trans ?_
  -- the weights at any entry of row r
  have hP := fun j : Fin 400 => weights_apply _
    (Cert.Attn.score Cert.Attn.scaleK (fun r e => x0 (ix3 0 r e)) (fun e j => x1 (ix3 0 e j)))
    (fun r j => scores_apply x0 x1 shapeCasts_S1x400x64_S400x64 shapeCasts_S1x64x400_S64x400 r j)
    reduces_S400x400_S400 (.inl rfl) rfl shapeCasts_S400_S400x1 broadcasts_S400x1_S400x400 r j
  refine (divf_apply _ _ (ix2 r d)).trans ?_
  refine congrArg₂ Ideal.div ?_ ?_
  · -- the numerator: weights times values
    refine (valuesDot_apply _ _ r d).trans ?_
    refine Finset.sum_congr rfl fun j _ => congrArg₂ (· * ·) ?_ (shapeCast_1ab_ab_apply x2 _ j d)
    exact (truncf_apply (ψ := .bf16) _ bitsLt_bf16_f32 (ix2 r j)).trans (hP j)
  · -- the denominator: the row's sum of weights, made a column and spread over the 64 output columns
    refine (column_spread_apply _ _ _ r d).trans ?_
    refine (rowSum_apply _ _ _ _ r).trans ?_
    exact Finset.sum_congr rfl fun j _ => hP j

end Cert.Attn.R1

end
-- ==== Proof.R1Value.lean ====
/-
  The attention region, entry by entry: what its output array holds after the region, for any contents of the
  arrays at region entry.

  The query array q is [640, 400, 64], the key array k is [640, 64, 400], the value array v is [640, 400, 64]:
  640 heads. The grid has 20 points; point t works on heads 32·t … 32·t + 31 — its three input blocks are those 32
  heads of q, k, v, and its output block is those 32 heads of the output array. Within a point the head loop leaves,
  at local head hh, row r, column d of the output block, the softmax-attention payload of local head hh's slices of
  the three input blocks. Read through the payload's arithmetic this is one head of attention in the kernel's order
  (weighted sum of the values first, one division by the row's sum of weights after): `headK` of q[b], k[b], v[b]
  with b = 32·t + hh. So every point writes back its block of ONE function of the arrays (`headFn`), the 20 blocks
  cover the output array (head b lies in point b / 32), and the array after the region is that function: entry
  (b, r, d) is head b's attention at row r, column d (`arr3`).
-/
import proofs.«107818_j88888643158595_2_alg».proof.Proof.R1Pieces
import proofs.«107818_j88888643158595_2_alg».proof.Proof.R1Payload
import proofs.«107818_j88888643158595_2_alg».proof.Proof.Spec
import Idealize.ShloMosaic.Lib.Pipeline.Value
import Idealize.ShloMosaic.Lib.ValueIdx

noncomputable section

namespace Cert.Attn.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- One head of attention read off the whole arrays: entry (b, r, d) is head b's kernel-order attention of
    q[b], k[b], v[b] at row r, column d. -/
def headFn (q : S640x400x64.Idx → EReal) (k : S640x64x400.Idx → EReal) (v : S640x400x64.Idx → EReal) :
    S640x400x64.Idx → EReal :=
  fun y => headK scaleK (fun r e => q (ix3 (y 0) r e)) (fun e j => k (ix3 (y 0) e j)) (fun j d => v (ix3 (y 0) j d)) (y 1) (y 2)

/-- The output block of one grid point, at head hh, row r, column d: head hh's attention of the point's three input blocks. -/
theorem headOut_apply (x0 : Vec Ideal S32x400x64 .bf16) (x1 : Vec Ideal S32x64x400 .bf16) (x2 : Vec Ideal S32x400x64 .bf16)
    (hh : Fin 32) (r : Fin 400) (d : Fin 64) :
    headOut (F := Ideal) x0 x1 x2 (ix3 hh r d)
      = headK scaleK (fun r e => x0 (ix3 hh r e)) (fun e j => x1 (ix3 hh e j)) (fun j d => x2 (ix3 hh j d)) r d :=
  pay_head (headRows x0 hh) (headCols x1 hh) (headRows x2 hh) r d

/-- The four windows' block indices at point t: t along the head axis, 0 along the other two. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The query block at point t holds heads 32·t … 32·t + 31 of the query array. -/
theorem iblk0_apply (c : Dev nD) (t : Fin cfg1.N) (hh : Fin 32) (r : Fin 400) (e : Fin 64) (b : Fin 640)
    (hb : b.val = 32 * t.val + hh.val) :
    (iblk1 (F := Ideal) V c 0 t : Vec Ideal S32x400x64 .bf16) (ix3 hh r e) = (V c main_v7 : S640x400x64.Idx → EReal) (ix3 b r e) := by
  obtain ⟨⟨i0, i1, i2⟩, -, -, -⟩ := idx_facts t
  unfold iblk1
  rw [View.read_apply]
  show V c main_v7 _ = V c main_v7 _
  congr 1
  funext a
  apply Fin.ext
  match a with
  | ⟨0, _⟩ => show win1_0.index t (0 : Fin 3) * 32 + 1 * hh.val = b.val; omega
  | ⟨1, _⟩ => show win1_0.index t (1 : Fin 3) * 400 + 1 * r.val = r.val; omega
  | ⟨2, _⟩ => show win1_0.index t (2 : Fin 3) * 64 + 1 * e.val = e.val; omega

/-- The key block at point t holds heads 32·t … 32·t + 31 of the key array. -/
theorem iblk1_apply (c : Dev nD) (t : Fin cfg1.N) (hh : Fin 32) (e : Fin 64) (j : Fin 400) (b : Fin 640)
    (hb : b.val = 32 * t.val + hh.val) :
    (iblk1 (F := Ideal) V c 1 t : Vec Ideal S32x64x400 .bf16) (ix3 hh e j) = (V c main_v8 : S640x64x400.Idx → EReal) (ix3 b e j) := by
  obtain ⟨-, ⟨i0, i1, i2⟩, -, -⟩ := idx_facts t
  unfold iblk1
  rw [View.read_apply]
  show V c main_v8 _ = V c main_v8 _
  congr 1
  funext a
  apply Fin.ext
  match a with
  | ⟨0, _⟩ => show win1_1.index t (0 : Fin 3) * 32 + 1 * hh.val = b.val; omega
  | ⟨1, _⟩ => show win1_1.index t (1 : Fin 3) * 64 + 1 * e.val = e.val; omega
  | ⟨2, _⟩ => show win1_1.index t (2 : Fin 3) * 400 + 1 * j.val = j.val; omega

/-- The value block at point t holds heads 32·t … 32·t + 31 of the value array. -/
theorem iblk2_apply (c : Dev nD) (t : Fin cfg1.N) (hh : Fin 32) (j : Fin 400) (d : Fin 64) (b : Fin 640)
    (hb : b.val = 32 * t.val + hh.val) :
    (iblk1 (F := Ideal) V c 2 t : Vec Ideal S32x400x64 .bf16) (ix3 hh j d) = (V c main_v9 : S640x400x64.Idx → EReal) (ix3 b j d) := by
  obtain ⟨-, -, ⟨i0, i1, i2⟩, -⟩ := idx_facts t
  unfold iblk1
  rw [View.read_apply]
  show V c main_v9 _ = V c main_v9 _
  congr 1
  funext a
  apply Fin.ext
  match a with
  | ⟨0, _⟩ => show win1_2.index t (0 : Fin 3) * 32 + 1 * hh.val = b.val; omega
  | ⟨1, _⟩ => show win1_2.index t (1 : Fin 3) * 400 + 1 * j.val = j.val; omega
  | ⟨2, _⟩ => show win1_2.index t (2 : Fin 3) * 64 + 1 * d.val = d.val; omega

/-- The head that point t's block holds at its local head hh. -/
abbrev headAt (t : Fin cfg1.N) (hh : Fin 32) : Fin 640 :=
  ⟨32 * t.val + hh.val, by have hN : cfg1.N = 20 := N_1; have := t.isLt; have := hh.isLt; omega⟩

/-- Point t's output block at (hh, r, d) is `headFn` of the three arrays at head 32·t + hh, row r, column d. -/
theorem flushed_pt (c : Dev nD) (t : Fin cfg1.N) (hh : Fin 32) (r : Fin 400) (d : Fin 64) :
    headOut (F := Ideal) (iblk1 V c 0 t) (iblk1 V c 1 t) (iblk1 V c 2 t) (ix3 hh r d)
      = headFn (V c main_v7) (V c main_v8) (V c main_v9) (ix3 (headAt t hh) r d) := by
  refine (headOut_apply (iblk1 V c 0 t) (iblk1 V c 1 t) (iblk1 V c 2 t) hh r d).trans ?_
  have e0 : (fun (r : Fin 400) (e : Fin 64) => (iblk1 (F := Ideal) V c 0 t : Vec Ideal S32x400x64 .bf16) (ix3 hh r e))
      = fun r e => (V c main_v7 : S640x400x64.Idx → EReal) (ix3 (headAt t hh) r e) :=
    funext fun r => funext fun e => iblk0_apply V c t hh r e (headAt t hh) rfl
  have e1 : (fun (e : Fin 64) (j : Fin 400) => (iblk1 (F := Ideal) V c 1 t : Vec Ideal S32x64x400 .bf16) (ix3 hh e j))
      = fun e j => (V c main_v8 : S640x64x400.Idx → EReal) (ix3 (headAt t hh) e j) :=
    funext fun e => funext fun j => iblk1_apply V c t hh e j (headAt t hh) rfl
  have e2 : (fun (j : Fin 400) (d : Fin 64) => (iblk1 (F := Ideal) V c 2 t : Vec Ideal S32x400x64 .bf16) (ix3 hh j d))
      = fun j d => (V c main_v9 : S640x400x64.Idx → EReal) (ix3 (headAt t hh) j d) :=
    funext fun j => funext fun d => iblk2_apply V c t hh j d (headAt t hh) rfl
  rw [e0, e1, e2]
  rfl

/-- What point t writes back is block t of `headFn` of the three arrays as the region finds them. -/
theorem flushed_eq (c : Dev nD) (t : Fin cfg1.N) :
    (dat1 (F := Ideal) V c).flushed 3 t
      = ((cfg1.win 3).blk t).view.read (Elt Ideal) (headFn (V c main_v7) (V c main_v8) (V c main_v9)) := by
  show (cfg1.win 3).cut (grid1.coords t) ((dat1 V c).after 3 t) = _
  rw [after1_3]
  unfold outsAt1
  rw [out_eq]
  funext y
  obtain ⟨-, -, -, ⟨i0, i1, i2⟩⟩ := idx_facts t
  obtain ⟨hh, r, d, rfl⟩ : ∃ (hh : Fin 32) (r : Fin 400) (d : Fin 64), y = ix3 hh r d := ⟨y 0, y 1, y 2, eq_ix3 y⟩
  show headOut (F := Ideal) (iblk1 V c 0 t) (iblk1 V c 1 t) (iblk1 V c 2 t) (ix3 hh r d)
    = headFn (V c main_v7) (V c main_v8) (V c main_v9) (((cfg1.win 3).blk t).view.emb (ix3 hh r d))
  refine (flushed_pt V c t hh r d).trans ?_
  congr 1
  funext a
  apply Fin.ext
  match a with
  | ⟨0, _⟩ => show 32 * t.val + hh.val = win1_3.index t (0 : Fin 3) * 32 + 1 * hh.val; omega
  | ⟨1, _⟩ => show r.val = win1_3.index t (1 : Fin 3) * 400 + 1 * r.val; omega
  | ⟨2, _⟩ => show d.val = win1_3.index t (2 : Fin 3) * 64 + 1 * d.val; omega

/-- Every entry of the output array lies in some point's block: head b in point b / 32. -/
theorem covered (i : S640x400x64.Idx) :
    ∃ t : Fin cfg1.N, (cfg1.win 3).flush t = true ∧ i ∈ ((cfg1.win 3).blk t).view.set := by
  have hN : cfg1.N = 20 := N_1
  have h0 : (i 0).val < 640 := (i 0).isLt
  have h1 : (i 1).val < 400 := (i 1).isLt
  have h2 : (i 2).val < 64 := (i 2).isLt
  have ht : (i 0).val / 32 < cfg1.N := by rw [hN]; omega
  obtain ⟨-, -, -, ⟨i0, i1, i2⟩⟩ := idx_facts ⟨(i 0).val / 32, ht⟩
  refine ⟨⟨(i 0).val / 32, ht⟩, flush1_3 _, ?_⟩
  show i ∈ ((View.whole main_v10).slice (win1_3.rect ⟨(i 0).val / 32, ht⟩)).set
  rw [View.set_slice_whole, Rect.mem_set_unit]
  intro a
  match a with
  | ⟨0, _⟩ => show win1_3.index ⟨(i 0).val / 32, ht⟩ (0 : Fin 3) * 32 ≤ (i 0).val ∧ (i 0).val < win1_3.index ⟨(i 0).val / 32, ht⟩ (0 : Fin 3) * 32 + 32
              have e : (⟨(i 0).val / 32, ht⟩ : Fin cfg1.N).val = (i 0).val / 32 := rfl
              omega
  | ⟨1, _⟩ => show win1_3.index ⟨(i 0).val / 32, ht⟩ (1 : Fin 3) * 400 ≤ (i 1).val ∧ (i 1).val < win1_3.index ⟨(i 0).val / 32, ht⟩ (1 : Fin 3) * 400 + 400
              omega
  | ⟨2, _⟩ => show win1_3.index ⟨(i 0).val / 32, ht⟩ (2 : Fin 3) * 64 ≤ (i 2).val ∧ (i 2).val < win1_3.index ⟨(i 0).val / 32, ht⟩ (2 : Fin 3) * 64 + 64
              omega

/-- So the output array after the region is `headFn` of the three input arrays as the region finds them. -/
theorem final (c : Dev nD) :
    (dat1 (F := Ideal) V c).arrAt 3 cfg1.N = headFn (V c main_v7) (V c main_v8) (V c main_v9) :=
  (dat1 (F := Ideal) V c).arrAt_eq_of_cover 3 (headFn (V c main_v7) (V c main_v8) (V c main_v9))
    (fun t _ => flushed_eq V c t) covered

/-- Entry (b, r, d) of the output array after the region: head b's kernel-order attention of q[b], k[b], v[b]. -/
theorem arr3 (c : Dev nD) (b : Fin 640) (r : Fin 400) (d : Fin 64) :
    ((dat1 (F := Ideal) V c).arrAt 3 cfg1.N : S640x400x64.Idx → EReal) (ix3 b r d)
      = headK scaleK (fun r e => (V c main_v7 : S640x400x64.Idx → EReal) (ix3 b r e))
          (fun e j => (V c main_v8 : S640x64x400.Idx → EReal) (ix3 b e j))
          (fun j d => (V c main_v9 : S640x400x64.Idx → EReal) (ix3 b j d)) r d :=
  congrFun (final V c) (ix3 b r d)

end Cert.Attn.R1

end
-- ==== Proof.R2Value.lean ====
/-
  The residual + layer normalisation region of the kernel program, read entry by entry.

  The region's grid has 32 points. Point t loads rows 800·t … 800·t + 799 of the attention output and of the input x
  (two blocks of 800 × 640), the whole gain and bias rows (1 × 640 each), and stores one 800 × 640 block of the result.
  Inside a block, row p of what is stored depends only on row p of the two loaded blocks: with y = a + x on that row,
  mean = (∑ y) / 640, var = (∑ (y − mean)²) / 640, and entry q is (y q − mean) · rsqrt (var + ε) · gain q + bias q,
  which is `Cert.Attn.layerNorm` of the specification with the same float words for 640 and ε (`pay_apply`).
  Each row sum starts from the word of +0.0, so it is the bare sum of the row's 640 entries; keeping the summed axis as
  a unit axis ([800] → [800, 1]) and spreading a column over the columns ([800, 1] → [800, 640]) only re-index
  (`shapeCast_a_a1_apply`, `broadcastTo_a1_ab_apply`, `keptRowSum_apply`).

  Block t of a row-blocked array is rows 800·t … of that array, and the gain's and the bias's block is the whole row at
  every point (`iblk0_apply` … `iblk3_apply`). So what point t writes back is block t of one function `G` of the
  arrays as the region finds them (`flushed_eq`); row r lies in the block of point r / 800 and every point writes back
  (`cover`); hence the result array is `G` everywhere (`final`), and at row n, column j it is the layer normalisation
  of row n of a + x at column j (`arr4`). All of this holds for any contents `V` of the buffers at the region's entry.
-/
import proofs.«107818_j88888643158595_2_alg».proof.Proof.Gen.KernelIdeal.Frame
import proofs.«107818_j88888643158595_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.R2

open Cert.KernelIdeal Cert.KernelIdeal.Gen Idealize.ShloMosaic Idealize.ShloMosaic.ValueIdx Idealize.SL.Sem

/-! ## Layout operations of a kept column axis, read at an index -/

/-- A vector of length `a` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel's vector reciprocal square root at an index. -/
theorem rsqrt_apply {s : Shape} {φ : FTy} (a : FVec Ideal s φ) (i : s.Idx) : rsqrt a i = Ideal.rsqrt (a i) := rfl

/-- The kept row sum: the row sum reshaped to a column `[800, 1]`, at `(p, u)`. -/
theorem keptRowSum_apply (y : FVec Ideal S800x640 .f32) (hφ : FKind.Formats .f32)
    (hacc : (0x00000000#32 : BitVec 32) = 0x00000000#32) (p : Fin 800) (u : Fin 1) :
    shapeCast S800x1 (multiReduction (F := Ideal) .add [1] S800 y 0x00000000#32 reduces_S800x640_S800 hφ hacc) shapeCasts_S800_S800x1 (ix2 p u)
      = ∑ k : Fin 640, y (ix2 p k) := by
  refine (shapeCast_a_a1_apply _ _ p u).trans ?_
  refine (Ideal.multiReduction_add_single y 0x00000000#32 reduces_S800x640_S800 hφ hacc (ix1 p)).trans ?_
  refine Finset.sum_congr rfl fun k _ => congrArg y ?_
  funext c
  apply Fin.ext
  match c with
  | ⟨0, _⟩ => rfl
  | ⟨1, _⟩ => rfl

/-! ## The payload at an index -/

/-- One entry of what the body stores: the layer normalisation of row `p` of the sum of the two loaded blocks,
    with the loaded gain and bias rows, at column `q`. -/
theorem pay_apply (x0 x1 : Vec Ideal S800x640 .f32) (g b : Vec Ideal S1x640 .f32) (p : Fin 800) (q : Fin 640) :
    k2_pay1 x0 x1 g b (ix2 p q)
      = Cert.Attn.layerNorm (fun k => (x0 (ix2 p k) : EReal) + x1 (ix2 p k)) (fun k => (g (ix2 0 k) : EReal))
          (fun k => (b (ix2 0 k) : EReal)) q := by
  unfold k2_pay1
  simp only [shapeCast_self]
  simp only [addf_apply, mulf_apply, subf_apply, divf_apply, rsqrt_apply, broadcast_apply, broadcastTo_1b_ab_apply,
    broadcastTo_a1_ab_apply]
  rw [keptRowSum_apply _ _ _ p 0, keptRowSum_apply _ _ _ p 0]
  simp only [addf_apply, mulf_apply, subf_apply, divf_apply, broadcast_apply, broadcastTo_a1_ab_apply]
  rw [keptRowSum_apply _ _ _ p 0]
  simp only [addf_apply]
  unfold Cert.Attn.layerNorm Cert.Attn.rowVar Cert.Attn.rowMean Cert.Attn.c640 Cert.Attn.ceps
  rfl

/-! ## From blocks to the array -/

open Idealize.ShloMosaic.TcCoe
open Idealize.ShloMosaic.Pipeline (Dat)

variable (V : (c : Dev nD) → (b : Ref sig .tc) → Buf (Elt Ideal) ((c : Thread nD τ).loc b))

/-- A buffer's contents as a function on a literal index type into the extended reals. -/
abbrev rd (S : Shape) (f : S.Idx → EReal) : S.Idx → EReal := f

/-- The offsets of a whole-block access are zero on both axes. -/
theorem hz : (![0, 0] : Fin 2 → Nat) = fun _ => 0 := funext fun a => by fin_cases a <;> rfl

/-- Layer normalisation is a function of the row, the gain and the bias. -/
theorem layerNorm_congr {y y' g g' b b' : Fin 640 → EReal} (hy : y = y') (hg : g = g') (hb : b = b') (j : Fin 640) :
    Cert.Attn.layerNorm y g b j = Cert.Attn.layerNorm y' g' b' j := by subst hy hg hb; rfl

/-- Row `n` of the result at column `j`, from the arrays as the region finds them. -/
def rowLN (c : Dev nD) (n : Fin 25600) (j : Fin 640) : EReal :=
  Cert.Attn.layerNorm
    (fun k => rd S25600x640 (V c main_v11) (ix2 n k) + rd S25600x640 (V c main_arg0) (ix2 n k))
    (fun k => rd S1x640 (V c main_v12) (ix2 0 k)) (fun k => rd S1x640 (V c main_v13) (ix2 0 k)) j

/-- The whole result array as one function of the region-entry arrays. -/
def G (c : Dev nD) : S25600x640.Idx → EReal :=
  fun i => rowLN V c ⟨(i 0).val, idx2_lt0 i⟩ ⟨(i 1).val, idx2_lt1 i⟩

/-- The block index maps over the grid: the two row-blocked inputs and the output take row block `t`; the gain and
    the bias are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of the first input is rows `800 t … 800 t + 799` of its array. -/
theorem iblk0_apply (c : Dev nD) (t : Fin cfg2.N) (p : Fin 800) (k : Fin 640) (r : Fin 25600)
    (hr : r.val = 800 * t.val + p.val) :
    (iblk2 V c 0 t : Vec Ideal S800x640 .f32) (ix2 p k) = rd S25600x640 (V c main_v11) (ix2 r k) := by
  obtain ⟨e0, e1, -⟩ := idx_facts t
  unfold iblk2
  rw [View.read_apply]
  show V c main_v11 _ = V c main_v11 _
  congr 1
  funext a
  apply Fin.ext
  match a with
  | ⟨0, _⟩ => show win2_0.index t (0 : Fin 2) * 800 + 1 * p.val = r.val; rw [e0, hr]; omega
  | ⟨1, _⟩ => show win2_0.index t (1 : Fin 2) * 640 + 1 * k.val = k.val; rw [e1]; omega

/-- Block `t` of the second input is the same rows of its array. -/
theorem iblk1_apply (c : Dev nD) (t : Fin cfg2.N) (p : Fin 800) (k : Fin 640) (r : Fin 25600)
    (hr : r.val = 800 * t.val + p.val) :
    (iblk2 V c 1 t : Vec Ideal S800x640 .f32) (ix2 p k) = rd S25600x640 (V c main_arg0) (ix2 r k) := by
  obtain ⟨-, -, e0, e1, -⟩ := idx_facts t
  unfold iblk2
  rw [View.read_apply]
  show V c main_arg0 _ = V c main_arg0 _
  congr 1
  funext a
  apply Fin.ext
  match a with
  | ⟨0, _⟩ => show win2_1.index t (0 : Fin 2) * 800 + 1 * p.val = r.val; rw [e0, hr]; omega
  | ⟨1, _⟩ => show win2_1.index t (1 : Fin 2) * 640 + 1 * k.val = k.val; rw [e1]; omega

/-- The gain's block at every point is the whole gain row. -/
theorem iblk2_apply (c : Dev nD) (t : Fin cfg2.N) (u : Fin 1) (k : Fin 640) :
    (iblk2 V c 2 t : Vec Ideal S1x640 .f32) (ix2 u k) = rd S1x640 (V c main_v12) (ix2 0 k) := by
  obtain ⟨-, -, -, -, e0, e1, -⟩ := idx_facts t
  unfold iblk2
  rw [View.read_apply]
  show V c main_v12 _ = V c main_v12 _
  congr 1
  funext a
  apply Fin.ext
  match a with
  | ⟨0, _⟩ => show win2_2.index t (0 : Fin 2) * 1 + 1 * u.val = 0; rw [e0]; omega
  | ⟨1, _⟩ => show win2_2.index t (1 : Fin 2) * 640 + 1 * k.val = k.val; rw [e1]; omega

/-- The bias's block at every point is the whole bias row. -/
theorem iblk3_apply (c : Dev nD) (t : Fin cfg2.N) (u : Fin 1) (k : Fin 640) :
    (iblk2 V c 3 t : Vec Ideal S1x640 .f32) (ix2 u k) = rd S1x640 (V c main_v13) (ix2 0 k) := by
  obtain ⟨-, -, -, -, -, -, e0, e1, -⟩ := idx_facts t
  unfold iblk2
  rw [View.read_apply]
  show V c main_v13 _ = V c main_v13 _
  congr 1
  funext a
  apply Fin.ext
  match a with
  | ⟨0, _⟩ => show win2_3.index t (0 : Fin 2) * 1 + 1 * u.val = 0; rw [e0]; omega
  | ⟨1, _⟩ => show win2_3.index t (1 : Fin 2) * 640 + 1 * k.val = k.val; rw [e1]; omega

/-- What point `t` stores at `(p, q)` of its block is the result function at row `800 t + p`, column `q`. -/
theorem block_point (c : Dev nD) (t : Fin cfg2.N) (y : S800x640.Idx) (i : S25600x640.Idx)
    (h0 : (i 0).val = 800 * t.val + (y 0).val) (h1 : (i 1).val = (y 1).val) :
    k2_pay1 (iblk2 V c 0 t) (iblk2 V c 1 t) (iblk2 V c 2 t) (iblk2 V c 3 t) y = G V c i := by
  obtain ⟨p, q, rfl⟩ : ∃ (p : Fin 800) (q : Fin 640), y = ix2 p q := ⟨y 0, y 1, eq_ix2 y⟩
  refine (pay_apply (iblk2 V c 0 t) (iblk2 V c 1 t) (iblk2 V c 2 t) (iblk2 V c 3 t) p q).trans ?_
  have hq : (⟨(i 1).val, idx2_lt1 i⟩ : Fin 640) = q := Fin.ext h1
  unfold G rowLN
  rw [hq]
  exact layerNorm_congr
    (funext fun k => congrArg₂ (fun a b : EReal => a + b) (iblk0_apply V c t p k ⟨(i 0).val, idx2_lt0 i⟩ h0)
      (iblk1_apply V c t p k ⟨(i 0).val, idx2_lt0 i⟩ h0))
    (funext fun k => iblk2_apply V c t 0 k) (funext fun k => iblk3_apply V c t 0 k) q

/-- What point `t` writes back is block `t` of the result function. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S800x640) hz, View.ld_unit_zero (S := S1x640) hz]
  obtain ⟨-, -, -, -, -, -, -, -, e0, e1⟩ := idx_facts t
  funext y
  rw [View.read_apply]
  refine block_point V c t y _ ?_ ?_
  · show win2_4.index t (0 : Fin 2) * 800 + 1 * (y 0).val = 800 * t.val + (y 0).val
    rw [e0]; omega
  · show win2_4.index t (1 : Fin 2) * 640 + 1 * (y 1).val = (y 1).val
    rw [e1]; omega

/-- An index of the array is in point `t`'s block iff each coordinate is in the block's range on its axis. -/
theorem mem_blk (t : Fin cfg2.N) (i : S25600x640.Idx) :
    i ∈ ((cfg2.win 4).blk t).view.set ↔ ∀ a : Fin 2, win2_4.index t a * S800x640.size a ≤ (i a).val
      ∧ (i a).val < win2_4.index t a * S800x640.size a + S800x640.size a := by
  show i ∈ ((View.whole main_v14).slice (win2_4.rect t)).set ↔ _
  rw [View.set_slice_whole, Rect.mem_set_unit]
  exact Iff.rfl

/-- Every row is in the block of the point that is its number divided by 800, and every point writes back. -/
theorem cover (i : S25600x640.Idx) :
    ∃ t : Fin cfg2.N, (cfg2.win 4).flush t = true ∧ i ∈ ((cfg2.win 4).blk t).view.set := by
  have hN : cfg2.N = 32 := N_2
  have hi0 : (i 0).val < 25600 := idx2_lt0 i
  have hi1 : (i 1).val < 640 := idx2_lt1 i
  have ht : (i 0).val / 800 < cfg2.N := by rw [hN]; omega
  obtain ⟨-, -, -, -, -, -, -, -, e0, e1⟩ := idx_facts ⟨(i 0).val / 800, ht⟩
  have e0' : win2_4.index ⟨(i 0).val / 800, ht⟩ (0 : Fin 2) = (i 0).val / 800 := e0
  refine ⟨⟨(i 0).val / 800, ht⟩, flush2_4 _, ?_⟩
  rw [mem_blk]
  intro a
  match a with
  | ⟨0, _⟩ =>
    show win2_4.index ⟨(i 0).val / 800, ht⟩ (0 : Fin 2) * 800 ≤ (i 0).val
      ∧ (i 0).val < win2_4.index ⟨(i 0).val / 800, ht⟩ (0 : Fin 2) * 800 + 800
    rw [e0']; omega
  | ⟨1, _⟩ =>
    show win2_4.index ⟨(i 0).val / 800, ht⟩ (1 : Fin 2) * 640 ≤ (i 1).val
      ∧ (i 1).val < win2_4.index ⟨(i 0).val / 800, ht⟩ (1 : Fin 2) * 640 + 640
    rw [e1]; omega

/-- The result array after the region is the result function, everywhere. -/
theorem final (c : Dev nD) : (dat2 V c).arrAt 4 cfg2.N = G V c :=
  (dat2 V c).arrAt_eq_of_cover 4 (G V c) (fun t _ => flushed_eq V c t) cover

/-- Entry by entry: row `n`, column `j` of the result array is the layer normalisation of row `n` of the sum of the two
    inputs, with the gain and the bias, at column `j`. -/
theorem arr4 (c : Dev nD) (n : Fin 25600) (j : Fin 640) :
    rd S25600x640 ((dat2 V c).arrAt 4 cfg2.N) (ix2 n j)
      = Cert.Attn.layerNorm
          (fun k => rd S25600x640 (V c main_v11) (ix2 n k) + rd S25600x640 (V c main_arg0) (ix2 n k))
          (fun k => rd S1x640 (V c main_v12) (ix2 0 k)) (fun k => rd S1x640 (V c main_v13) (ix2 0 k)) j := by
  rw [final]
  rfl

end Cert.Attn.R2

end
-- ==== Proof.KernelValue.lean ====
/-
  The kernel program's result as the shared specification.

  Reading the run backwards from the result buffer: the third region leaves the layer normalisation of each
  row of (attention output + x); the attention output re-read as [25600, 640] at (n, k) is the second region's
  entry of head (n · 640 + k) / 25600; a head's query, key and value matrices are the first region's three
  projections read at the head's row-major positions; and a projection's entry is the sum over the 640 shared
  coordinates of x times the (transposed) weight, both as launched.
-/
import proofs.«107818_j88888643158595_2_alg».proof.Proof.Gen.KernelIdeal.Frame
import proofs.«107818_j88888643158595_2_alg».proof.Proof.Glue
import proofs.«107818_j88888643158595_2_alg».proof.Proof.FlatIndex
import proofs.«107818_j88888643158595_2_alg».proof.Proof.R0Value
import proofs.«107818_j88888643158595_2_alg».proof.Proof.R1Value
import proofs.«107818_j88888643158595_2_alg».proof.Proof.R2Value

set_option maxRecDepth 16384

noncomputable section

namespace Cert.Attn.KernelValue

open Cert.KernelIdeal Cert.KernelIdeal.Gen
open Idealize.ShloMosaic Idealize.ShloMosaic.TcCoe Idealize.ShloMosaic.ValueIdx
open Idealize.SL.Sem
open Cert.Attn Cert.Attn.Glue

variable (m : (ℓ : Loc nD τ sig) → Buf (Elt Ideal) ℓ) (ρ : Dev nD → PrngReg)

/-- The six argument arrays as launched, on core c. -/
abbrev X (c : Dev nD) : Arr := m ((c : Thread nD τ).loc main_arg0)
abbrev Wq (c : Dev nD) : Wt := m ((c : Thread nD τ).loc main_arg1)
abbrev Wk (c : Dev nD) : Wt := m ((c : Thread nD τ).loc main_arg2)
abbrev Wv (c : Dev nD) : Wt := m ((c : Thread nD τ).loc main_arg3)
abbrev Gn (c : Dev nD) : Vc := m ((c : Thread nD τ).loc main_arg4)
abbrev Bs (c : Dev nD) : Vc := m ((c : Thread nD τ).loc main_arg5)

/-! ## The first region's outputs are the three projections -/

theorem proj_q (c : Dev nD) (n : Fin 25600) (j : Fin 640) :
    @Eq EReal (((dat0 (V1 m ρ) c).arrAt 4 cfg0.N : S25600x640.Idx → EReal) (ix2 n j)) (projAt (X m c) (Wq m c) n j) := by
  rw [Cert.Attn.R0.arr4 (V1 m ρ) c n j]
  unfold projAt
  have ea : (fun k => (V1 m ρ c main_arg0 : S25600x640.Idx → EReal) (ix2 n k)) = fun k => X m c (ix2 n k) :=
    funext fun k => congrFun (v1_x m ρ c) (ix2 n k)
  have eb : (fun k => (V1 m ρ c main_v1 : S640x640.Idx → EReal) (ix2 k j)) = fun k => Wq m c (ix2 j k) :=
    funext fun k => v1_wq m ρ c k j
  rw [ea, eb]

theorem proj_k (c : Dev nD) (n : Fin 25600) (j : Fin 640) :
    @Eq EReal (((dat0 (V1 m ρ) c).arrAt 5 cfg0.N : S25600x640.Idx → EReal) (ix2 n j)) (projAt (X m c) (Wk m c) n j) := by
  rw [Cert.Attn.R0.arr5 (V1 m ρ) c n j]
  unfold projAt
  have ea : (fun k => (V1 m ρ c main_arg0 : S25600x640.Idx → EReal) (ix2 n k)) = fun k => X m c (ix2 n k) :=
    funext fun k => congrFun (v1_x m ρ c) (ix2 n k)
  have eb : (fun k => (V1 m ρ c main_v3 : S640x640.Idx → EReal) (ix2 k j)) = fun k => Wk m c (ix2 j k) :=
    funext fun k => v1_wk m ρ c k j
  rw [ea, eb]

theorem proj_v (c : Dev nD) (n : Fin 25600) (j : Fin 640) :
    @Eq EReal (((dat0 (V1 m ρ) c).arrAt 6 cfg0.N : S25600x640.Idx → EReal) (ix2 n j)) (projAt (X m c) (Wv m c) n j) := by
  rw [Cert.Attn.R0.arr6 (V1 m ρ) c n j]
  unfold projAt
  have ea : (fun k => (V1 m ρ c main_arg0 : S25600x640.Idx → EReal) (ix2 n k)) = fun k => X m c (ix2 n k) :=
    funext fun k => congrFun (v1_x m ρ c) (ix2 n k)
  have eb : (fun k => (V1 m ρ c main_v5 : S640x640.Idx → EReal) (ix2 k j)) = fun k => Wv m c (ix2 j k) :=
    funext fun k => v1_wv m ρ c k j
  rw [ea, eb]

/-! ## A head's three matrices, as the second region reads them -/

theorem pos_split (f : ℕ) : f / 640 * 640 + f % 640 = f := by omega

theorem head_q (c : Dev nD) (b : Fin 640) (r : Fin 400) (e : Fin 64) :
    @Eq EReal ((V3 m ρ c main_v7 : S640x400x64.Idx → EReal) (ix3 b r e)) (headQ (projAt (X m c) (Wq m c)) b r e) := by
  rw [v3_q m ρ c b r e (rowOf _ (qpos_lt b r e)) (colOf ((b.val * 400 + r.val) * 64 + e.val)) (pos_split _)]
  exact proj_q m ρ c _ _

theorem head_k (c : Dev nD) (b : Fin 640) (e : Fin 64) (s : Fin 400) :
    @Eq EReal ((V3 m ρ c main_v8 : S640x64x400.Idx → EReal) (ix3 b e s)) (headKm (projAt (X m c) (Wk m c)) b e s) := by
  rw [v3_k m ρ c b e s (rowOf _ (kpos_lt b e s)) (colOf ((b.val * 64 + e.val) * 400 + s.val)) (pos_split _)]
  exact proj_k m ρ c _ _

theorem head_v (c : Dev nD) (b : Fin 640) (r : Fin 400) (e : Fin 64) :
    @Eq EReal ((V3 m ρ c main_v9 : S640x400x64.Idx → EReal) (ix3 b r e)) (headQ (projAt (X m c) (Wv m c)) b r e) := by
  rw [v3_v m ρ c b r e (rowOf _ (qpos_lt b r e)) (colOf ((b.val * 400 + r.val) * 64 + e.val)) (pos_split _)]
  exact proj_v m ρ c _ _

/-! ## The attention output, as the third region reads it -/

theorem attn_entry (c : Dev nD) (n : Fin 25600) (k : Fin 640) :
    @Eq EReal ((V5 m ρ c main_v11 : S25600x640.Idx → EReal) (ix2 n k))
      (attnHead headK scaleK (X m c) (Wq m c) (Wk m c) (Wv m c) (Cert.Attn.headOf n k) (qrowOf n k) (dcolOf n k)) := by
  rw [v5_vals m ρ c n k (Cert.Attn.headOf n k) (qrowOf n k) (dcolOf n k) (pos_of_entry n k),
    Cert.Attn.R1.arr3 (V3 m ρ) c (Cert.Attn.headOf n k) (qrowOf n k) (dcolOf n k)]
  have eq : (fun r e => (V3 m ρ c main_v7 : S640x400x64.Idx → EReal) (ix3 (Cert.Attn.headOf n k) r e)) = headQ (projAt (X m c) (Wq m c)) (Cert.Attn.headOf n k) :=
    funext fun r => funext fun e => head_q m ρ c _ r e
  have ek : (fun e s => (V3 m ρ c main_v8 : S640x64x400.Idx → EReal) (ix3 (Cert.Attn.headOf n k) e s)) = headKm (projAt (X m c) (Wk m c)) (Cert.Attn.headOf n k) :=
    funext fun e => funext fun s => head_k m ρ c _ e s
  have ev : (fun j d => (V3 m ρ c main_v9 : S640x400x64.Idx → EReal) (ix3 (Cert.Attn.headOf n k) j d)) = headQ (projAt (X m c) (Wv m c)) (Cert.Attn.headOf n k) :=
    funext fun j => funext fun d => head_v m ρ c _ j d
  rw [eq, ek, ev]; rfl

/-! ## The result buffer -/

theorem layerNorm_congr {y y' g g' b b' : Fin 640 → EReal} (hy : y = y') (hg : g = g') (hb : b = b') (j : Fin 640) :
    layerNorm y g b j = layerNorm y' g' b' j := by subst hy hg hb; rfl

/-- What the kernel program leaves in its result buffer, entry by entry. -/
theorem result (c : Dev nD) (n : Fin 25600) (j : Fin 640) :
    @Eq EReal ((W6 m ρ c (Proc.devRef .tc main_v14) : S25600x640.Idx → EReal) (ix2 n j))
      (resultAt headK scaleK (X m c) (Wq m c) (Wk m c) (Wv m c) (Gn m c) (Bs m c) n j) := by
  have e0 : @Eq EReal ((W6 m ρ c (Proc.devRef .tc main_v14) : S25600x640.Idx → EReal) (ix2 n j))
      (Cert.Attn.R2.rd S25600x640 ((dat2 (V5 m ρ) c).arrAt 4 cfg2.N) (ix2 n j)) := congrFun (W6_arr m ρ c 4) (ix2 n j)
  refine e0.trans ((Cert.Attn.R2.arr4 (V5 m ρ) c n j).trans ?_)
  unfold resultAt
  have ey : (fun k => Cert.Attn.R2.rd S25600x640 (V5 m ρ c main_v11) (ix2 n k) + Cert.Attn.R2.rd S25600x640 (V5 m ρ c main_arg0) (ix2 n k))
      = fun k => attnHead headK scaleK (X m c) (Wq m c) (Wk m c) (Wv m c) (Cert.Attn.headOf n k) (qrowOf n k) (dcolOf n k) + X m c (ix2 n k) :=
    funext fun k => by
      have e1 : Cert.Attn.R2.rd S25600x640 (V5 m ρ c main_v11) (ix2 n k)
          = attnHead headK scaleK (X m c) (Wq m c) (Wk m c) (Wv m c) (Cert.Attn.headOf n k) (qrowOf n k) (dcolOf n k) := attn_entry m ρ c n k
      have e2 : Cert.Attn.R2.rd S25600x640 (V5 m ρ c main_arg0) (ix2 n k) = X m c (ix2 n k) := congrFun (v5_x m ρ c) (ix2 n k)
      rw [e1, e2]
  have eg : (fun k => Cert.Attn.R2.rd S1x640 (V5 m ρ c main_v12) (ix2 0 k)) = fun k => Gn m c (ix1 k) := funext fun k => v5_gain m ρ c k
  have eb : (fun k => Cert.Attn.R2.rd S1x640 (V5 m ρ c main_v13) (ix2 0 k)) = fun k => Bs m c (ix1 k) := funext fun k => v5_bias m ρ c k
  exact layerNorm_congr ey eg eb j

end Cert.Attn.KernelValue

end
-- ==== Proof.RefValue.lean ====
/-
  The reference program read at an index, as the specification's functions of its six arguments.

  The three projections: entry (n, j) of x · Wᵀ is the sum over the 640 shared coordinates of x n k · W j k
  (the program transposes W and then contracts W's first axis, so the weight is read at (j, k)).

  The attention stage: entry (b, h, r, d) of the batched product of the normalised weights with the values is the
  reference-order head of the specification (every weight divided by its row's sum, then the weighted sum) over the
  query, key and value blocks of batch b and head h. On the way: the score is the 64-term product sum times the
  scale 1.0 / sqrt 64.0, which stays a name here; the row maximum, which the program takes as max (−∞) of the fold
  of max from −∞, is that fold, because −∞ is below the fold; the row's sum of weights, which the program starts
  from the zero word, is the bare sum, because 0 + s = s.

  The output: entry (n, j) is the layer normalisation of row n of (attention + x) with the gain and the bias:
  the mean and the variance are sums over the row's 640 entries divided by the word of 640, again with 0 + s = s.
-/
import proofs.«107818_j88888643158595_2_alg».proof.Proof.RefRead
import proofs.«107818_j88888643158595_2_alg».proof.Proof.Spec

noncomputable section

open scoped BigOperators

namespace Cert.Attn.Ref

open Cert.ReferenceIdeal Cert.ReferenceIdeal.Gen Cert.ReferenceIdeal.ReadP Idealize.ShloMosaic Idealize.ShloMosaic.ValueIdx

/-- Entry (n, j) of the query projection: the row n of x against the row j of the weight. -/
theorem proj_q (x0 : (⟨S25600x640, .f32⟩ : BufTy).Contents (Elt Ideal)) (x1 : (⟨S640x640, .f32⟩ : BufTy).Contents (Elt Ideal))
    (n : Fin 25600) (j : Fin 640) :
    val_main_v1 (F := Ideal) x0 x1 (ix2 n j) = Cert.Attn.dot640 (fun k => x0 (ix2 n k)) (fun k => x1 (ix2 j k)) := by
  rw [val_main_v1_apply]
  unfold Cert.Attn.dot640
  refine Finset.sum_congr rfl fun k _ => ?_
  rw [val_main_v0_apply]
  have e1 : lidx_main_v1 (ix2 n j) k = ix2 n k :=
    funext fun a => Fin.ext (by match a with | ⟨0, _⟩ => rfl | ⟨1, _⟩ => rfl)
  have e2 : idx_main_v0 (ridx_main_v1 (ix2 n j) k) = ix2 j k :=
    funext fun a => Fin.ext (by match a with | ⟨0, _⟩ => rfl | ⟨1, _⟩ => rfl)
  rw [e1, e2]

/-- Entry (n, j) of the key projection: the row n of x against the row j of the weight. -/
theorem proj_k (x0 : (⟨S25600x640, .f32⟩ : BufTy).Contents (Elt Ideal)) (x2 : (⟨S640x640, .f32⟩ : BufTy).Contents (Elt Ideal))
    (n : Fin 25600) (j : Fin 640) :
    val_main_v3 (F := Ideal) x0 x2 (ix2 n j) = Cert.Attn.dot640 (fun k => x0 (ix2 n k)) (fun k => x2 (ix2 j k)) := by
  rw [val_main_v3_apply]
  unfold Cert.Attn.dot640
  refine Finset.sum_congr rfl fun k _ => ?_
  rw [val_main_v2_apply]
  have e1 : lidx_main_v3 (ix2 n j) k = ix2 n k :=
    funext fun a => Fin.ext (by match a with | ⟨0, _⟩ => rfl | ⟨1, _⟩ => rfl)
  have e2 : idx_main_v2 (ridx_main_v3 (ix2 n j) k) = ix2 j k :=
    funext fun a => Fin.ext (by match a with | ⟨0, _⟩ => rfl | ⟨1, _⟩ => rfl)
  rw [e1, e2]

/-- Entry (n, j) of the value projection: the row n of x against the row j of the weight. -/
theorem proj_v (x0 : (⟨S25600x640, .f32⟩ : BufTy).Contents (Elt Ideal)) (x3 : (⟨S640x640, .f32⟩ : BufTy).Contents (Elt Ideal))
    (n : Fin 25600) (j : Fin 640) :
    val_main_v5 (F := Ideal) x0 x3 (ix2 n j) = Cert.Attn.dot640 (fun k => x0 (ix2 n k)) (fun k => x3 (ix2 j k)) := by
  rw [val_main_v5_apply]
  unfold Cert.Attn.dot640
  refine Finset.sum_congr rfl fun k _ => ?_
  rw [val_main_v4_apply]
  have e1 : lidx_main_v5 (ix2 n j) k = ix2 n k :=
    funext fun a => Fin.ext (by match a with | ⟨0, _⟩ => rfl | ⟨1, _⟩ => rfl)
  have e2 : idx_main_v4 (ridx_main_v5 (ix2 n j) k) = ix2 j k :=
    funext fun a => Fin.ext (by match a with | ⟨0, _⟩ => rfl | ⟨1, _⟩ => rfl)
  rw [e1, e2]

/-- The reference's score scale, 1.0 / sqrt 64.0, kept as the program computes it. -/
def scaleR : EReal := val_main_v11 (F := Ideal) ValueIdx.ix0

theorem scaleR_eq : scaleR = Ideal.div (Ideal.ofBits .f32 0x3F800000#32) (Ideal.sqrt (Ideal.ofBits .f32 0x42800000#32)) := rfl

section Head

variable (x0 : (⟨S25600x640, .f32⟩ : BufTy).Contents (Elt Ideal)) (x1 x2 x3 : (⟨S640x640, .f32⟩ : BufTy).Contents (Elt Ideal))
  (bb : Fin 64) (h : Fin 10)

/-- The scaled score at (b, h, r, j): the query row r against the key column j, times the scale. -/
theorem score_eq (r j : Fin 400) :
    val_main_v14 (F := Ideal) x0 x1 x2 (ix4 bb h r j)
      = Cert.Attn.score scaleR (fun r e => val_main_v6 (F := Ideal) x0 x1 (ix4 bb h r e))
          (fun e j => val_main_v9 (F := Ideal) x0 x2 (ix4 bb h e j)) r j := by
  rw [val_main_v14_apply, val_main_v12_apply, val_main_v13_apply, Ideal.mulf_def]
  unfold Cert.Attn.score
  refine congrArg₂ (· * ·) (Finset.sum_congr rfl fun k _ => ?_) rfl
  have e1 : lidx_main_v12 (ix4 bb h r j) k = ix4 bb h r k :=
    funext fun a => Fin.ext (by match a with | ⟨0, _⟩ => rfl | ⟨1, _⟩ => rfl | ⟨2, _⟩ => rfl | ⟨3, _⟩ => rfl)
  have e2 : ridx_main_v12 (ix4 bb h r j) k = ix4 bb h k j :=
    funext fun a => Fin.ext (by match a with | ⟨0, _⟩ => rfl | ⟨1, _⟩ => rfl | ⟨2, _⟩ => rfl | ⟨3, _⟩ => rfl)
  rw [e1, e2]

/-- The index over (b, h, r) with the column k put back on the last axis is (b, h, r, k). -/
theorem lift_row (hR : S64x10x400x400.Reduces [3] S64x10x400) (r : Fin 400) (k : Fin (S64x10x400x400.size 3)) :
    hR.lift (ix3 bb h r) k = ix4 bb h r (⟨k.val, k.isLt⟩ : Fin 400) := by
  funext c; apply Fin.ext
  fin_cases c <;> rfl

/-- The program's reduce with a maximum body over the last axis, at (b, h, r): the fold of max from −∞ over the row. -/
theorem rowMax_read (r : Fin 400) :
    val_main_v15 (F := Ideal) x0 x1 x2 (ix3 bb h r)
      = (Finset.univ : Finset (Fin 400)).fold max Cert.Attn.negInf
          (fun j => val_main_v14 (F := Ideal) x0 x1 x2 (ix4 bb h r j)) := by
  unfold val_main_v15
  generalize val_main_v14 (F := Ideal) x0 x1 x2 = y
  have hR : S64x10x400x400.Reduces [3] S64x10x400 := by decide
  refine (Host.reduce_eq_fold_single (FloatOps.maximumf (F := Ideal) (φ := .f32)) y _
    reducesTo_S64x10x400x400_S64x10x400_d3 hR h_S_ (ix3 bb h r)).trans ?_
  have hf : (y ∘ hR.lift (ix3 bb h r)) = fun j : Fin 400 => y (ix4 bb h r j) :=
    funext fun k => congrArg y (lift_row bb h hR r k)
  exact congrArg (fun f => Finset.fold max Cert.Attn.negInf f (Finset.univ : Finset (Fin 400))) hf

/-- The row maximum the program subtracts: its extra max with −∞ in front changes nothing. -/
theorem rowMax_eq (r : Fin 400) :
    val_main_v17 (F := Ideal) x0 x1 x2 (ix3 bb h r)
      = Cert.Attn.rowMax scaleR (fun r e => val_main_v6 (F := Ideal) x0 x1 (ix4 bb h r e))
          (fun e j => val_main_v9 (F := Ideal) x0 x2 (ix4 bb h e j)) r := by
  rw [val_main_v17_apply, val_main_v16_apply, val_main_cst_2_apply, Ideal.maximumf_def, Ideal.ofBits_def, rowMax_read]
  have hs : (fun j => val_main_v14 (F := Ideal) x0 x1 x2 (ix4 bb h r j))
      = Cert.Attn.score scaleR (fun r e => val_main_v6 (F := Ideal) x0 x1 (ix4 bb h r e))
          (fun e j => val_main_v9 (F := Ideal) x0 x2 (ix4 bb h e j)) r := funext fun j => score_eq x0 x1 x2 bb h r j
  rw [hs]
  unfold Cert.Attn.rowMax
  exact max_eq_right ((Finset.le_fold_max _).2 (Or.inl le_rfl))

/-- The unnormalised weight at (b, h, r, j). -/
theorem prob_eq (r j : Fin 400) :
    val_main_v21 (F := Ideal) x0 x1 x2 (ix4 bb h r j)
      = Cert.Attn.prob scaleR (fun r e => val_main_v6 (F := Ideal) x0 x1 (ix4 bb h r e))
          (fun e j => val_main_v9 (F := Ideal) x0 x2 (ix4 bb h e j)) r j := by
  rw [val_main_v21_apply, val_main_v20_apply, val_main_v19_apply, val_main_v18_apply, Ideal.hostUnary_exp_def, Ideal.subf_def]
  have e : idx_main_v18 (idx_main_v19 (ix4 bb h r j)) = ix3 bb h r :=
    funext fun a => Fin.ext (by match a with | ⟨0, _⟩ => rfl | ⟨1, _⟩ => rfl | ⟨2, _⟩ => rfl)
  rw [e, rowMax_eq, score_eq]
  rfl

/-- The row's sum of weights at (b, h, r): the program's zero start adds nothing. -/
theorem denom_eq (r : Fin 400) :
    val_main_v22 (F := Ideal) x0 x1 x2 (ix3 bb h r)
      = Cert.Attn.denom scaleR (fun r e => val_main_v6 (F := Ideal) x0 x1 (ix4 bb h r e))
          (fun e j => val_main_v9 (F := Ideal) x0 x2 (ix4 bb h e j)) r := by
  rw [val_main_v22_apply, val_main_cst_3_apply, Ideal.ofBits_def, Ideal.ofBits_zero_f32, zero_add]
  unfold Cert.Attn.denom
  refine Finset.sum_congr rfl fun j _ => ?_
  have e : idx_main_v22 (ix3 bb h r) j = ix4 bb h r j :=
    funext fun a => Fin.ext (by match a with | ⟨0, _⟩ => rfl | ⟨1, _⟩ => rfl | ⟨2, _⟩ => rfl | ⟨3, _⟩ => rfl)
  rw [e, prob_eq]

/-- The normalised weight at (b, h, r, j). -/
theorem weight_eq (r j : Fin 400) :
    val_main_v25 (F := Ideal) x0 x1 x2 (ix4 bb h r j)
      = Ideal.div (Cert.Attn.prob scaleR (fun r e => val_main_v6 (F := Ideal) x0 x1 (ix4 bb h r e))
          (fun e j => val_main_v9 (F := Ideal) x0 x2 (ix4 bb h e j)) r j)
        (Cert.Attn.denom scaleR (fun r e => val_main_v6 (F := Ideal) x0 x1 (ix4 bb h r e))
          (fun e j => val_main_v9 (F := Ideal) x0 x2 (ix4 bb h e j)) r) := by
  rw [val_main_v25_apply, val_main_v24_apply, val_main_v23_apply, Ideal.hostDivf_def]
  have e : idx_main_v23 (idx_main_v24 (ix4 bb h r j)) = ix3 bb h r :=
    funext fun a => Fin.ext (by match a with | ⟨0, _⟩ => rfl | ⟨1, _⟩ => rfl | ⟨2, _⟩ => rfl)
  rw [e, denom_eq, prob_eq]

/-- Entry (b, h, r, d) of the attention stage: the reference-order head over the blocks of batch b and head h. -/
theorem vals (r : Fin 400) (d : Fin 64) :
    val_main_v26 (F := Ideal) x0 x1 x2 x3 (ix4 bb h r d)
      = Cert.Attn.headR scaleR (fun r e => val_main_v6 (F := Ideal) x0 x1 (ix4 bb h r e))
          (fun e j => val_main_v9 (F := Ideal) x0 x2 (ix4 bb h e j))
          (fun j d => val_main_v7 (F := Ideal) x0 x3 (ix4 bb h j d)) r d := by
  rw [val_main_v26_apply]
  unfold Cert.Attn.headR
  refine Finset.sum_congr rfl fun j _ => ?_
  have e1 : lidx_main_v26 (ix4 bb h r d) j = ix4 bb h r j :=
    funext fun a => Fin.ext (by match a with | ⟨0, _⟩ => rfl | ⟨1, _⟩ => rfl | ⟨2, _⟩ => rfl | ⟨3, _⟩ => rfl)
  have e2 : ridx_main_v26 (ix4 bb h r d) j = ix4 bb h j d :=
    funext fun a => Fin.ext (by match a with | ⟨0, _⟩ => rfl | ⟨1, _⟩ => rfl | ⟨2, _⟩ => rfl | ⟨3, _⟩ => rfl)
  rw [e1, e2, weight_eq]

end Head

section Norm

variable (x0 : (⟨S25600x640, .f32⟩ : BufTy).Contents (Elt Ideal)) (x1 x2 x3 : (⟨S640x640, .f32⟩ : BufTy).Contents (Elt Ideal))
  (x4 x5 : (⟨S640, .f32⟩ : BufTy).Contents (Elt Ideal)) (n : Fin 25600)

/-- The mean of row n of (attention + x): the program's zero start adds nothing. -/
theorem mean_eq :
    val_main_v32 (F := Ideal) x0 x1 x2 x3 (ix2 n (0 : Fin 1))
      = Cert.Attn.rowMean (fun k => val_main_v27 (F := Ideal) x0 x1 x2 x3 (ix2 n k) + x0 (ix2 n k)) := by
  rw [val_main_v32_apply, val_main_v30_apply, val_main_v31_apply, val_main_cst_5_apply, val_main_v29_apply,
    val_main_cst_4_apply]
  simp only [Ideal.hostDivf_def, Ideal.ofBits_def, Ideal.ofBits_zero_f32, zero_add]
  unfold Cert.Attn.rowMean Cert.Attn.c640
  refine congrArg (Ideal.div · _) (Finset.sum_congr rfl fun k _ => ?_)
  have e : idx_main_v29 (idx_main_v30 (ix2 n (0 : Fin 1))) k = ix2 n k :=
    funext fun a => Fin.ext (by match a with | ⟨0, _⟩ => rfl | ⟨1, _⟩ => rfl)
  rw [e]
  rfl

/-- Entry (n, k) minus the row's mean. -/
theorem center_eq (k : Fin 640) :
    val_main_v34 (F := Ideal) x0 x1 x2 x3 (ix2 n k)
      = (fun k => val_main_v27 (F := Ideal) x0 x1 x2 x3 (ix2 n k) + x0 (ix2 n k)) k
        - Cert.Attn.rowMean (fun k => val_main_v27 (F := Ideal) x0 x1 x2 x3 (ix2 n k) + x0 (ix2 n k)) := by
  rw [val_main_v34_apply, val_main_v33_apply, Ideal.subf_def]
  have e : idx_main_v33 (ix2 n k) = ix2 n (0 : Fin 1) :=
    funext fun a => Fin.ext (by match a with | ⟨0, _⟩ => rfl | ⟨1, _⟩ => rfl)
  rw [e, mean_eq]
  rfl

/-- The variance of row n of (attention + x). -/
theorem var_eq :
    val_main_v39 (F := Ideal) x0 x1 x2 x3 (ix2 n (0 : Fin 1))
      = Cert.Attn.rowVar (fun k => val_main_v27 (F := Ideal) x0 x1 x2 x3 (ix2 n k) + x0 (ix2 n k)) := by
  rw [val_main_v39_apply, val_main_v37_apply, val_main_v38_apply, val_main_cst_7_apply, val_main_v36_apply,
    val_main_cst_6_apply]
  simp only [Ideal.hostDivf_def, Ideal.ofBits_def, Ideal.ofBits_zero_f32, zero_add]
  unfold Cert.Attn.rowVar Cert.Attn.c640
  refine congrArg (Ideal.div · _) (Finset.sum_congr rfl fun k _ => ?_)
  have e : idx_main_v36 (idx_main_v37 (ix2 n (0 : Fin 1))) k = ix2 n k :=
    funext fun a => Fin.ext (by match a with | ⟨0, _⟩ => rfl | ⟨1, _⟩ => rfl)
  rw [e, val_main_v35_apply, Ideal.mulf_def, center_eq]

/-- Entry (n, j) of the result: the layer normalisation of row n of (attention + x) with the gain and the bias. -/
theorem out (j : Fin 640) :
    val_main_v52 (F := Ideal) x0 x1 x2 x3 x4 x5 (ix2 n j)
      = Cert.Attn.layerNorm (fun k => val_main_v27 (F := Ideal) x0 x1 x2 x3 (ix2 n k) + x0 (ix2 n k))
          (fun k => x4 (ix1 k)) (fun k => x5 (ix1 k)) j := by
  rw [val_main_v52_apply, val_main_v49_apply, val_main_v46_apply, val_main_v41_apply, val_main_v40_apply,
    val_main_v45_apply, val_main_v44_apply, val_main_v43_apply, val_main_v42_apply, val_main_cst_8_apply,
    val_main_v48_apply, val_main_v47_apply, val_main_v51_apply, val_main_v50_apply]
  simp only [Ideal.addf_def, Ideal.mulf_def, Ideal.subf_def, Ideal.hostUnary_rsqrt_def, Ideal.ofBits_def]
  have e1 : idx_main_v40 (ix2 n j) = ix2 n (0 : Fin 1) :=
    funext fun a => Fin.ext (by match a with | ⟨0, _⟩ => rfl | ⟨1, _⟩ => rfl)
  have e2 : idx_main_v45 (ix2 n j) = ix2 n (0 : Fin 1) :=
    funext fun a => Fin.ext (by match a with | ⟨0, _⟩ => rfl | ⟨1, _⟩ => rfl)
  have e3 : idx_main_v47 (idx_main_v48 (ix2 n j)) = ix1 j :=
    funext fun a => Fin.ext (by match a with | ⟨0, _⟩ => rfl)
  have e4 : idx_main_v50 (idx_main_v51 (ix2 n j)) = ix1 j :=
    funext fun a => Fin.ext (by match a with | ⟨0, _⟩ => rfl)
  rw [e1, e2, e3, e4, mean_eq, var_eq]
  rfl

end Norm

end Cert.Attn.Ref

end
-- ==== Proof.RefBridge.lean ====
/-
  The reference program's result as the shared specification.

  The reference re-reads each projection as [64, 10, 400, 64] (the keys then as [64, 10, 64, 400]): head h of
  batch bb is head bb · 10 + h of the 640, and its query, key and value matrices are the projections read at the
  row-major positions the specification names. The attention output re-read as [25600, 640] at (n, k) is the
  entry of head (n · 640 + k) / 25600 at row (n · 640 + k) / 64 % 400 and column (n · 640 + k) % 64.
-/
import proofs.«107818_j88888643158595_2_alg».proof.Proof.RefRead
import proofs.«107818_j88888643158595_2_alg».proof.Proof.FlatIndex
import proofs.«107818_j88888643158595_2_alg».proof.Proof.RefValue

noncomputable section

namespace Cert.Attn.RefBridge

open Cert.ReferenceIdeal Cert.ReferenceIdeal.ReadP Idealize.ShloMosaic Idealize.ShloMosaic.ValueIdx
open Cert.Attn
open Cert.Attn.Ref

abbrev X0 := (⟨S25600x640, .f32⟩ : BufTy).Contents (Elt Ideal)
abbrev XW := (⟨S640x640, .f32⟩ : BufTy).Contents (Elt Ideal)
abbrev XG := (⟨S640, .f32⟩ : BufTy).Contents (Elt Ideal)

/-- Head h of batch bb among the 640 heads. -/
def headIdx (bb : Fin 64) (h : Fin 10) : Fin 640 := ⟨bb.val * 10 + h.val, by have := bb.isLt; have := h.isLt; omega⟩

/-- A row-major position of a [64, 10, 400, 64] array, split into its four coordinates, is itself. -/
theorem recompose (G : ℕ) : ((G / 256000 * 10 + G / 25600 % 10) * 400 + G / 64 % 400) * 64 + G % 64 = G := by
  have e1 : G / 64 / 400 = G / 25600 := Nat.div_div_eq_div_mul _ 64 400
  have e2 : G / 25600 / 10 = G / 256000 := Nat.div_div_eq_div_mul _ 25600 10
  omega

/-- Head (bb, h)'s query matrix is the query projection at the head's positions. -/
theorem q_entry (x0 : X0) (x1 : XW) (bb : Fin 64) (h : Fin 10) (r : Fin 400) (e : Fin 64) :
    val_main_v6 (F := Ideal) x0 x1 (ix4 bb h r e) = headQ (projAt x0 x1) (headIdx bb h) r e := by
  rw [val_main_v6_apply]
  have hi : idx_main_v6 (ix4 bb h r e)
      = ix2 (rowOf (((headIdx bb h).val * 400 + r.val) * 64 + e.val) (qpos_lt (headIdx bb h) r e)) (colOf (((headIdx bb h).val * 400 + r.val) * 64 + e.val)) :=
    funext fun a => match a with
      | ⟨0, _⟩ => rfl
      | ⟨1, _⟩ => rfl
  rw [hi, proj_q]; rfl

/-- Head (bb, h)'s value matrix likewise. -/
theorem v_entry (x0 : X0) (x3 : XW) (bb : Fin 64) (h : Fin 10) (r : Fin 400) (e : Fin 64) :
    val_main_v7 (F := Ideal) x0 x3 (ix4 bb h r e) = headQ (projAt x0 x3) (headIdx bb h) r e := by
  rw [val_main_v7_apply]
  have hi : idx_main_v7 (ix4 bb h r e)
      = ix2 (rowOf (((headIdx bb h).val * 400 + r.val) * 64 + e.val) (qpos_lt (headIdx bb h) r e)) (colOf (((headIdx bb h).val * 400 + r.val) * 64 + e.val)) :=
    funext fun a => match a with
      | ⟨0, _⟩ => rfl
      | ⟨1, _⟩ => rfl
  rw [hi, proj_v]; rfl

/-- Head (bb, h)'s key matrix, 64 × 400: the key projection re-read twice lands on the head's positions. -/
theorem k_entry (x0 : X0) (x2 : XW) (bb : Fin 64) (h : Fin 10) (e : Fin 64) (s : Fin 400) :
    val_main_v9 (F := Ideal) x0 x2 (ix4 bb h e s) = headKm (projAt x0 x2) (headIdx bb h) e s := by
  rw [val_main_v9_apply, val_main_v8_apply]
  have hi : idx_main_v8 (idx_main_v9 (ix4 bb h e s))
      = ix2 (rowOf (((headIdx bb h).val * 64 + e.val) * 400 + s.val) (kpos_lt (headIdx bb h) e s)) (colOf (((headIdx bb h).val * 64 + e.val) * 400 + s.val)) :=
    funext fun a => match a with
      | ⟨0, _⟩ => Fin.ext (congrArg (· / 640) (recompose (((bb.val * 10 + h.val) * 64 + e.val) * 400 + s.val)))
      | ⟨1, _⟩ => Fin.ext (congrArg (· % 640) (recompose (((bb.val * 10 + h.val) * 64 + e.val) * 400 + s.val)))
  rw [hi, proj_k]; rfl

/-- The attention output re-read as [25600, 640], at (n, k). -/
theorem vals_entry (x0 : X0) (x1 x2 x3 : XW) (n : Fin 25600) (k : Fin 640) :
    val_main_v27 (F := Ideal) x0 x1 x2 x3 (ix2 n k)
      = attnHead headR scaleR x0 x1 x2 x3 (headOf n k) (qrowOf n k) (dcolOf n k) := by
  have hn := n.isLt; have hk := k.isLt
  rw [val_main_v27_apply]
  have hi : idx_main_v27 (ix2 n k)
      = ix4 (⟨(n.val * 640 + k.val) / 256000, by omega⟩ : Fin 64) (⟨(n.val * 640 + k.val) / 25600 % 10, Nat.mod_lt _ (by decide)⟩ : Fin 10) (qrowOf n k) (dcolOf n k) :=
    funext fun a => match a with
      | ⟨0, _⟩ => rfl
      | ⟨1, _⟩ => rfl
      | ⟨2, _⟩ => rfl
      | ⟨3, _⟩ => rfl
  rw [hi, vals]
  have hb : headIdx (⟨(n.val * 640 + k.val) / 256000, by omega⟩ : Fin 64) (⟨(n.val * 640 + k.val) / 25600 % 10, Nat.mod_lt _ (by decide)⟩ : Fin 10) = headOf n k :=
    Fin.ext (by
      show (n.val * 640 + k.val) / 256000 * 10 + (n.val * 640 + k.val) / 25600 % 10 = (n.val * 640 + k.val) / 25600
      have e2 : (n.val * 640 + k.val) / 25600 / 10 = (n.val * 640 + k.val) / 256000 := Nat.div_div_eq_div_mul _ 25600 10
      omega)
  have eq : (fun r e => val_main_v6 (F := Ideal) x0 x1 (ix4 (⟨(n.val * 640 + k.val) / 256000, by omega⟩ : Fin 64) (⟨(n.val * 640 + k.val) / 25600 % 10, Nat.mod_lt _ (by decide)⟩ : Fin 10) r e))
      = headQ (projAt x0 x1) (headOf n k) := by
    rw [← hb]; exact funext fun r => funext fun e => q_entry x0 x1 _ _ r e
  have ek : (fun e s => val_main_v9 (F := Ideal) x0 x2 (ix4 (⟨(n.val * 640 + k.val) / 256000, by omega⟩ : Fin 64) (⟨(n.val * 640 + k.val) / 25600 % 10, Nat.mod_lt _ (by decide)⟩ : Fin 10) e s))
      = headKm (projAt x0 x2) (headOf n k) := by
    rw [← hb]; exact funext fun e => funext fun s => k_entry x0 x2 _ _ e s
  have ev : (fun j d => val_main_v7 (F := Ideal) x0 x3 (ix4 (⟨(n.val * 640 + k.val) / 256000, by omega⟩ : Fin 64) (⟨(n.val * 640 + k.val) / 25600 % 10, Nat.mod_lt _ (by decide)⟩ : Fin 10) j d))
      = headQ (projAt x0 x3) (headOf n k) := by
    rw [← hb]; exact funext fun j => funext fun d => v_entry x0 x3 _ _ j d
  rw [eq, ek, ev]; rfl

/-- The reference's result at (n, j) is the specification's, with the reference's order of normalisation. -/
theorem out_entry (x0 : X0) (x1 x2 x3 : XW) (x4 x5 : XG) (n : Fin 25600) (j : Fin 640) :
    val_main_v52 (F := Ideal) x0 x1 x2 x3 x4 x5 (ix2 n j) = resultAt headR scaleR x0 x1 x2 x3 x4 x5 n j := by
  rw [out]
  unfold resultAt
  refine congrArg (fun y => layerNorm y (fun k => x4 (ix1 k)) (fun k => x5 (ix1 k)) j) (funext fun k => ?_)
  rw [vals_entry x0 x1 x2 x3 n k]

end Cert.Attn.RefBridge

end
-- ==== Proof.Softmax.lean ====
/-
  The softmax-normalisation law of one attention head, over the extended reals.

  With real inputs every score s r j = (∑ e, q r e · k e j) · scale is a real number, so the row maximum (a fold of
  max from −∞ over a nonempty row of reals) is a real number, every weight p r j = exp (s r j − max_r) is a
  positive real, and the row sum l r = ∑ j, p r j is a positive real, in particular not zero.  Division by a nonzero
  real l is multiplication by the real 1 / l, and over the reals
      (∑ j, p j · v j) · (1 / l) = ∑ j, (p j · (1 / l)) · v j,
  which is the statement that dividing once after the weighted sum (headK) and dividing every weight before the
  sum (headR) give the same entry.

  The module also evaluates the float words the two programs spell: −∞, 0.125, and 1.0 / √64.0 = 0.125.
-/
import proofs.«107818_j88888643158595_2_alg».proof.Proof.Spec
import Idealize.ShloMosaic.PureOps.Ideal
import Idealize.ShloMosaic.PureOps.Ideal.Laws

noncomputable section

open scoped BigOperators

namespace Cert.Attn

open Idealize.ShloMosaic

/-- An extended real that is a real number (neither infinity). -/
def IsReal (x : EReal) : Prop := ∃ r : ℝ, x = (r : EReal)

/-! ### The float words -/

/-- The word 0xFF800000 (sign 1, exponent all ones, fraction 0) denotes −∞. -/
theorem negInf_eq : negInf = ⊥ := by
  simp [negInf, Ideal.ofBits, Ideal.ieee]

/-- The word 0x3E000000 (exponent 124, fraction 0) denotes 2⁻³ = 0.125. -/
theorem scaleK_eq : scaleK = ((0.125 : ℝ) : EReal) := by
  simp [scaleK, Ideal.ofBits, Ideal.ieee, -EReal.coe_mul]; norm_num

/-- The word 0x3F800000 (exponent 127, fraction 0) denotes 1. -/
theorem ofBits_one : Ideal.ofBits .f32 0x3F800000#32 = ((1 : ℝ) : EReal) := by
  simp [Ideal.ofBits, Ideal.ieee, -EReal.coe_mul]; norm_num

/-- The word 0x42800000 (exponent 133, fraction 0) denotes 2⁶ = 64. -/
theorem ofBits_64 : Ideal.ofBits .f32 0x42800000#32 = ((64 : ℝ) : EReal) := by
  simp [Ideal.ofBits, Ideal.ieee, -EReal.coe_mul]; norm_num

/-- √64 = 8 over the reals. -/
theorem sqrt_64 : Real.sqrt 64 = 8 := by
  rw [show (64 : ℝ) = 8 ^ 2 by norm_num]
  exact Real.sqrt_sq (by norm_num)

/-- The reference's scale 1.0 / √64.0 is the kernel's constant 0.125. -/
theorem scale_ref_eq :
    Ideal.div (Ideal.ofBits .f32 0x3F800000#32) (Ideal.sqrt (Ideal.ofBits .f32 0x42800000#32)) = scaleK := by
  have hs : Ideal.sqrt ((64 : ℝ) : EReal) = ((8 : ℝ) : EReal) := by
    rw [Ideal.sqrt_coe, if_neg (by norm_num), sqrt_64]
  rw [ofBits_one, ofBits_64, scaleK_eq, hs, Ideal.div_coe (by norm_num), ← EReal.coe_mul]
  congr 1
  norm_num

/-! ### Sums, products and maxima of real numbers stay real -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is real. -/
theorem isReal_sum_mul {ι : Type} (s : Finset ι) (a b : ι → EReal) (ha : ∀ i, IsReal (a i)) (hb : ∀ i, IsReal (b i)) :
    IsReal (∑ i ∈ s, a i * b i) := by
  choose a' ha' using ha
  choose b' hb' using hb
  refine ⟨∑ i ∈ s, a' i * b' i, ?_⟩
  rw [coe_sum]
  exact Finset.sum_congr rfl (fun i _ => by rw [ha' i, hb' i, EReal.coe_mul])

/-- One projection entry, a sum of 640 products of reals, is real. -/
theorem isReal_dot640 (a b : Fin 640 → EReal) (ha : ∀ k, IsReal (a k)) (hb : ∀ k, IsReal (b k)) :
    IsReal (dot640 a b) :=
  isReal_sum_mul Finset.univ a b ha hb

/-- The fold of max from −∞ over a nonempty finite family of reals is a real (the largest of them). -/
theorem isReal_fold_max {ι : Type} (f : ι → ℝ) (t : Finset ι) (ht : t.Nonempty) :
    IsReal (t.fold max (⊥ : EReal) (fun i => (f i : EReal))) := by
  classical
  induction t using Finset.induction_on with
  | empty => exact absurd ht Finset.not_nonempty_empty
  | insert a t ha ih =>
    rw [Finset.fold_insert ha]
    rcases t.eq_empty_or_nonempty with h | h
    · subst h
      exact ⟨f a, by rw [Finset.fold_empty, max_eq_left bot_le]⟩
    · obtain ⟨m, hm⟩ := ih h
      refine ⟨max (f a) m, ?_⟩
      rw [hm]
      exact (EReal.coe_strictMono.monotone.map_max).symm

/-! ### The law over the reals and over the extended reals -/

/-- Over the reals: scaling a weighted sum by 1 / l is scaling every weight by 1 / l. -/
theorem sum_mul_inv_real (p v : Fin 400 → ℝ) (l : ℝ) :
    (∑ j : Fin 400, p j * v j) * (1 / l) = ∑ j : Fin 400, p j * (1 / l) * v j := by
  rw [Finset.sum_mul]
  exact Finset.sum_congr rfl (fun j _ => by ring)

/-- Over the extended reals, for real weights, real values and a nonzero real divisor: dividing the weighted sum
    once is dividing every weight. -/
theorem div_sum_eq_sum_div (p v : Fin 400 → ℝ) (l : ℝ) (hl : l ≠ 0) :
    Ideal.div (∑ j : Fin 400, (p j : EReal) * (v j : EReal)) (l : EReal)
      = ∑ j : Fin 400, Ideal.div (p j : EReal) (l : EReal) * (v j : EReal) := by
  have hL : (∑ j : Fin 400, (p j : EReal) * (v j : EReal)) = ((∑ j : Fin 400, p j * v j : ℝ) : EReal) := by
    rw [coe_sum]
    exact Finset.sum_congr rfl (fun j _ => by rw [EReal.coe_mul])
  have hR : (∑ j : Fin 400, Ideal.div (p j : EReal) (l : EReal) * (v j : EReal))
      = ((∑ j : Fin 400, p j * (1 / l) * v j : ℝ) : EReal) := by
    rw [coe_sum]
    exact Finset.sum_congr rfl (fun j _ => by rw [Ideal.div_coe hl, EReal.coe_mul, EReal.coe_mul])
  rw [hL, hR, Ideal.div_coe hl, ← EReal.coe_mul, sum_mul_inv_real]

/-! ### One attention head with real inputs -/

section Head

variable (scale : EReal) (q : Fin 400 → Fin 64 → EReal) (k : Fin 64 → Fin 400 → EReal) (v : Fin 400 → Fin 64 → EReal)

/-- Every score of real queries and keys under a real scale is real. -/
theorem isReal_score (hs : IsReal scale) (hq : ∀ r e, IsReal (q r e)) (hk : ∀ e j, IsReal (k e j)) (r j : Fin 400) :
    IsReal (score scale q k r j) := by
  obtain ⟨c, hc⟩ := hs
  obtain ⟨t, ht⟩ := isReal_sum_mul Finset.univ (fun e => q r e) (fun e => k e j) (fun e => hq r e) (fun e => hk e j)
  exact ⟨t * c, by rw [score, ht, hc, EReal.coe_mul]⟩

/-- A row's maximum score is real. -/
theorem isReal_rowMax (hs : IsReal scale) (hq : ∀ r e, IsReal (q r e)) (hk : ∀ e j, IsReal (k e j)) (r : Fin 400) :
    IsReal (rowMax scale q k r) := by
  choose s hsc using fun j => isReal_score scale q k hs hq hk r j
  have hfun : score scale q k r = fun j => (s j : EReal) := funext hsc
  rw [rowMax, negInf_eq, hfun]
  exact isReal_fold_max s Finset.univ Finset.univ_nonempty

/-- Every unnormalised weight is a positive real. -/
theorem prob_pos_real (hs : IsReal scale) (hq : ∀ r e, IsReal (q r e)) (hk : ∀ e j, IsReal (k e j)) (r j : Fin 400) :
    ∃ p : ℝ, 0 < p ∧ prob scale q k r j = (p : EReal) := by
  obtain ⟨s, hsc⟩ := isReal_score scale q k hs hq hk r j
  obtain ⟨m, hm⟩ := isReal_rowMax scale q k hs hq hk r
  exact ⟨Real.exp (s - m), Real.exp_pos _, by rw [prob, hsc, hm, ← EReal.coe_sub, Ideal.exp_coe]⟩

/-- The kernel's order (divide the weighted sum once by the row's sum of weights) and the reference's order
    (divide every weight, then sum) give the same entry when the inputs are real. -/
theorem headK_eq_headR (hs : IsReal scale) (hq : ∀ r e, IsReal (q r e)) (hk : ∀ e j, IsReal (k e j))
    (hv : ∀ j d, IsReal (v j d)) (r : Fin 400) (d : Fin 64) :
    headK scale q k v r d = headR scale q k v r d := by
  choose P hPpos hP using fun j => prob_pos_real scale q k hs hq hk r j
  choose V hV using hv
  have hl : (∑ j : Fin 400, P j) ≠ 0 := (Finset.sum_pos (fun j _ => hPpos j) Finset.univ_nonempty).ne'
  have hden : denom scale q k r = ((∑ j : Fin 400, P j : ℝ) : EReal) := by
    rw [denom, coe_sum]
    exact Finset.sum_congr rfl (fun j _ => hP j)
  have hK : (∑ j : Fin 400, prob scale q k r j * v j d) = ∑ j : Fin 400, (P j : EReal) * (V j d : EReal) :=
    Finset.sum_congr rfl (fun j _ => by rw [hP j, hV j d])
  have hR : (∑ j : Fin 400, Ideal.div (prob scale q k r j) (denom scale q k r) * v j d)
      = ∑ j : Fin 400, Ideal.div (P j : EReal) ((∑ j : Fin 400, P j : ℝ) : EReal) * (V j d : EReal) :=
    Finset.sum_congr rfl (fun j _ => by rw [hP j, hV j d, hden])
  rw [headK, headR, hK, hR, hden]
  exact div_sum_eq_sum_div P (fun j => V j d) _ hl

end Head

end Cert.Attn

end
-- ==== Proof.Law.lean ====
/-
  The two orders of the softmax normalisation give the same result.

  When x and the three weights are real, every entry of a projection is real (a finite sum of products of
  reals), so every head's query, key and value matrix is real, and for real matrices dividing the weighted sum
  of values by the row's sum of weights equals summing the values weighted by the divided weights. The
  scales agree (1 / √64 = 0.125), and the residual and the layer normalisation are applied to equal rows.
-/
import proofs.«107818_j88888643158595_2_alg».proof.Proof.FlatIndex
import proofs.«107818_j88888643158595_2_alg».proof.Proof.Softmax

noncomputable section

namespace Cert.Attn

open Idealize.ShloMosaic Idealize.ShloMosaic.ValueIdx

theorem isReal_projAt (x : Arr) (w : Wt) (hx : ∀ i, IsReal (x i)) (hw : ∀ i, IsReal (w i)) (n : Fin 25600) (j : Fin 640) :
    IsReal (projAt x w n j) :=
  isReal_dot640 _ _ (fun _ => hx _) (fun _ => hw _)

/-- The whole result, kernel's order against the reference's order, from real inputs and weights. -/
theorem result_eq (x : Arr) (wq wk wv : Wt) (g bias : Vc) (scaleR : EReal) (hsc : scaleR = scaleK)
    (hx : ∀ i, IsReal (x i)) (hq : ∀ i, IsReal (wq i)) (hk : ∀ i, IsReal (wk i)) (hv : ∀ i, IsReal (wv i))
    (n : Fin 25600) (j : Fin 640) :
    resultAt headK scaleK x wq wk wv g bias n j = resultAt headR scaleR x wq wk wv g bias n j := by
  subst hsc
  unfold resultAt
  refine congrArg (fun y => layerNorm y (fun k => g (ix1 k)) (fun k => bias (ix1 k)) j) (funext fun k => ?_)
  refine congrArg (· + x (ix2 n k)) ?_
  unfold attnHead
  exact headK_eq_headR scaleK _ _ _ ⟨_, scaleK_eq⟩
    (fun r e => isReal_projAt x wq hx hq _ _) (fun e s => isReal_projAt x wk hx hk _ _)
    (fun r e => isReal_projAt x wv hx hv _ _) _ _

end Cert.Attn

end
-- ==== Proof.Agree.lean ====
/-
  The two programs end with the same array.

  From memories that agree on the six arguments, with x and the three weights real: the kernel program's result
  buffer holds, entry by entry, the layer normalisation of (attention output + x) with the softmax normalised
  after the weighted sum of values; the reference's holds the same with the softmax normalised before it. For
  real inputs the two orders agree, and 1 / √64 is 0.125.
-/
import proofs.«107818_j88888643158595_2_alg».proof.Proof.KernelValue
import proofs.«107818_j88888643158595_2_alg».proof.Proof.RefBridge
import proofs.«107818_j88888643158595_2_alg».proof.Proof.Law
import proofs.«107818_j88888643158595_2_alg».proof.Proof.Gen.ReferenceIdeal.Run

set_option maxRecDepth 16384

noncomputable section

namespace Cert.Attn

open Idealize.ShloMosaic Idealize.ShloMosaic.TcCoe Idealize.ShloMosaic.ValueIdx Idealize.SL.Sem

/-- The reference's result array is the kernel's, from agreeing memories and real x, Wq, Wk, Wv. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hx : ∀ i, IsReal (KernelValue.X m c i)) (hq : ∀ i, IsReal (KernelValue.Wq m c i))
    (hk : ∀ i, IsReal (KernelValue.Wk m c i)) (hv : ∀ i, IsReal (KernelValue.Wv m c i)) :
    @Eq ((⟨2, ![25600, 640]⟩ : Shape).Idx → EReal) (Cert.ReferenceIdeal.Value.res_main_v52 m' c)
      (Cert.KernelIdeal.Gen.W6 m ρ c (Proc.devRef .tc Cert.KernelIdeal.main_v14)) := by
  rw [Cert.ReferenceIdeal.ReadP.val_main_v52_eq, h0, h1, h2, h3, h4, h5]
  funext i
  obtain ⟨n, j, rfl⟩ : ∃ (n : Fin 25600) (j : Fin 640), i = ix2 n j := ⟨i 0, i 1, eq_ix2 i⟩
  refine (RefBridge.out_entry _ _ _ _ _ _ n j).trans ?_
  refine Eq.trans ?_ (KernelValue.result m ρ c n j).symm
  exact (result_eq (KernelValue.X m c) (KernelValue.Wq m c) (KernelValue.Wk m c) (KernelValue.Wv m c) (KernelValue.Gn m c) (KernelValue.Bs m c)
    Ref.scaleR (Ref.scaleR_eq.trans scale_ref_eq) hx hq hk hv n j).symm

end Cert.Attn

end
-- ==== Proof.Finite.lean ====
/-
  What the precondition says of the inputs: every entry of the first four arguments is a real number.

  The precondition is the conjunction, over the six argument arrays, of "all entries satisfy |x| < +∞", computed as
  a reduction by `and` of the entrywise comparison against the float word of +∞ and stated to be the bit 1.  A
  conjunction of bits is 1 exactly when both are; a reduction by `and` over all axes that is 1 had a 1 at every
  entry; and on the extended reals max x (−x) < ⊤ rules out both x = ⊤ and x = ⊥, which leaves a real number.
-/
import proofs.«107818_j88888643158595_2_alg».proof.Defs
import proofs.«107818_j88888643158595_2_alg».proof.Proof.Gen.Pre_finite_inputs
import proofs.«107818_j88888643158595_2_alg».proof.Proof.Softmax
import Idealize.ShloMosaic.Lib.ReduceAll
import Idealize.ShloMosaic.Lib.ValueIdx

noncomputable section

namespace Cert.Attn

open Idealize.ShloMosaic Idealize.SL.Sem

/-- The word 0x7F800000 (sign 0, exponent all ones, fraction 0) denotes +∞. -/
theorem posInf_eq : Ideal.ofBits .f32 0x7F800000#32 = ⊤ := by
  simp [Ideal.ofBits, Ideal.ieee]

/-- On the extended reals, |x| < +∞ (as the comparison bit the programs compute) says that x is a real number. -/
theorem isReal_of_abs_lt (x : EReal)
    (h : Ideal.cmp .olt (max x (-x)) (Ideal.ofBits .f32 0x7F800000#32) = 1#1) : IsReal x := by
  rw [posInf_eq] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

/-- The shape of a scalar has one index. -/
instance subsingleton_scalar_idx : Subsingleton Cert.Pre_finite_inputs.S_.Idx :=
  ⟨fun a b => funext fun d => d.elim0⟩

/-- The entrywise `and` of two bit arrays is 1 at an index exactly when both are. -/
theorem andi_apply_eq_one {s : Shape} (x y : IVec s 1) (i : s.Idx) :
    Idealize.ShloMosaic.andi x y i = 1#1 ↔ x i = 1#1 ∧ y i = 1#1 :=
  IntOp.andi_eq_one

/-- One conjunct of the precondition: if "all entries of A have |x| < +∞" is the bit 1, every entry of A is real. -/
theorem isReal_of_all {S : Shape} {axes : List (Fin S.rank)} (A : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf A)
            (broadcastInDim S ![] hb (constant (F := Ideal) Cert.Pre_finite_inputs.S_ .f32 0x7F800000#32)))
          (constantI Cert.Pre_finite_inputs.S_ 1 1#1) hr hu ValueIdx.ix0 = 1#1)
    (i : S.Idx) : IsReal (A i) :=
  isReal_of_abs_lt (A i) (Host.reduce_andi_all _ _ hr hu ValueIdx.ix0 e i)

/-- Under the precondition every entry of x, Wq, Wk and Wv (arguments 0 to 3) is a real number. -/
theorem real_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S25600x640.Idx,
        IsReal ((m ((c.tc : Thread Cert.KernelIdeal.nD Cert.KernelIdeal.τ).loc Cert.KernelIdeal.main_arg0)
          : Cert.KernelIdeal.S25600x640.Idx → EReal) i))
    ∧ (∀ i : Cert.KernelIdeal.S640x640.Idx,
        IsReal ((m ((c.tc : Thread Cert.KernelIdeal.nD Cert.KernelIdeal.τ).loc Cert.KernelIdeal.main_arg1)
          : Cert.KernelIdeal.S640x640.Idx → EReal) i))
    ∧ (∀ i : Cert.KernelIdeal.S640x640.Idx,
        IsReal ((m ((c.tc : Thread Cert.KernelIdeal.nD Cert.KernelIdeal.τ).loc Cert.KernelIdeal.main_arg2)
          : Cert.KernelIdeal.S640x640.Idx → EReal) i))
    ∧ (∀ i : Cert.KernelIdeal.S640x640.Idx,
        IsReal ((m ((c.tc : Thread Cert.KernelIdeal.nD Cert.KernelIdeal.τ).loc Cert.KernelIdeal.main_arg3)
          : Cert.KernelIdeal.S640x640.Idx → EReal) i)) := by
  have e := congrFun (hpre c) ValueIdx.ix0
  dsimp only [Cert.Pre_finite_inputs.fn, Cert.Pre_finite_inputs.fn_part1] at e
  simp only [andi_apply_eq_one] at e
  obtain ⟨⟨⟨⟨⟨e0, e1⟩, e2⟩, e3⟩, -⟩, -⟩ := e
  exact ⟨fun i => isReal_of_all _ _ _ _ e0 i, fun i => isReal_of_all _ _ _ _ e1 i,
    fun i => isReal_of_all _ _ _ _ e2 i, fun i => isReal_of_all _ _ _ _ e3 i⟩

/-! The same four facts at literal coordinates. -/

section Coordinates

variable [hPre : Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)

include hpre

/-- Entry (n, j) of x is real. -/
theorem real_arg0 (n : Fin 25600) (j : Fin 640) :
    IsReal ((m ((c.tc : Thread Cert.KernelIdeal.nD Cert.KernelIdeal.τ).loc Cert.KernelIdeal.main_arg0)
      : Cert.KernelIdeal.S25600x640.Idx → EReal) (ValueIdx.ix2 n j)) :=
  (real_of_pre m hpre c).1 (ValueIdx.ix2 n j)

/-- Entry (a, b) of Wq is real. -/
theorem real_arg1 (a b : Fin 640) :
    IsReal ((m ((c.tc : Thread Cert.KernelIdeal.nD Cert.KernelIdeal.τ).loc Cert.KernelIdeal.main_arg1)
      : Cert.KernelIdeal.S640x640.Idx → EReal) (ValueIdx.ix2 a b)) :=
  (real_of_pre m hpre c).2.1 (ValueIdx.ix2 a b)

/-- Entry (a, b) of Wk is real. -/
theorem real_arg2 (a b : Fin 640) :
    IsReal ((m ((c.tc : Thread Cert.KernelIdeal.nD Cert.KernelIdeal.τ).loc Cert.KernelIdeal.main_arg2)
      : Cert.KernelIdeal.S640x640.Idx → EReal) (ValueIdx.ix2 a b)) :=
  (real_of_pre m hpre c).2.2.1 (ValueIdx.ix2 a b)

/-- Entry (a, b) of Wv is real. -/
theorem real_arg3 (a b : Fin 640) :
    IsReal ((m ((c.tc : Thread Cert.KernelIdeal.nD Cert.KernelIdeal.τ).loc Cert.KernelIdeal.main_arg3)
      : Cert.KernelIdeal.S640x640.Idx → EReal) (ValueIdx.ix2 a b)) :=
  (real_of_pre m hpre c).2.2.2 (ValueIdx.ix2 a b)

end Coordinates

end Cert.Attn

end
-- ==== Proof.lean ====
/-
  The certificate's proof.

  The kernel computes, in three regions joined by re-readings of arrays under other shapes, the projections
  Q = x·Wqᵀ, K = x·Wkᵀ, V = x·Wvᵀ; per head the softmax attention (scores scaled by 0.125, a row's maximum
  subtracted, exponentials, the weighted sum of values divided by the row's sum of weights); and the layer
  normalisation of (attention output + x) with gain and bias. The reference computes the same with the softmax
  weights divided by their row sum before they meet the values, and with the scale written 1 / √64.

  The three frame claims are the generated frames (the reference's is its generated run with the result dropped).
  No operation was rewritten by the idealization, so the fourth claim is trivial. For the fifth, the kernel
  program's run names its result buffer's final contents, which are read back region by region to the shared
  specification (kernel's order of the normalisation); the reference's generated run is read stage by stage to
  the same specification (reference's order); and under the precondition x and the weights are real, for which
  the two orders agree.
-/
import proofs.«107818_j88888643158595_2_alg».proof.Defs
import proofs.«107818_j88888643158595_2_alg».proof.Proof.Gen.Kernel
import proofs.«107818_j88888643158595_2_alg».proof.Proof.Gen.Kernel.Skeleton
import proofs.«107818_j88888643158595_2_alg».proof.Proof.Gen.Kernel.Loops
import proofs.«107818_j88888643158595_2_alg».proof.Proof.Gen.Kernel.Launch
import proofs.«107818_j88888643158595_2_alg».proof.Proof.Gen.Kernel.Points
import proofs.«107818_j88888643158595_2_alg».proof.Proof.Gen.Kernel.Frame
import proofs.«107818_j88888643158595_2_alg».proof.Proof.Gen.KernelIdeal
import proofs.«107818_j88888643158595_2_alg».proof.Proof.Gen.KernelIdeal.Skeleton
import proofs.«107818_j88888643158595_2_alg».proof.Proof.Gen.KernelIdeal.Loops
import proofs.«107818_j88888643158595_2_alg».proof.Proof.Gen.KernelIdeal.Launch
import proofs.«107818_j88888643158595_2_alg».proof.Proof.Gen.KernelIdeal.Points
import proofs.«107818_j88888643158595_2_alg».proof.Proof.Gen.KernelIdeal.Frame
import proofs.«107818_j88888643158595_2_alg».proof.Proof.Gen.ReferenceIdeal
import proofs.«107818_j88888643158595_2_alg».proof.Proof.Gen.ReferenceIdeal.Run
import proofs.«107818_j88888643158595_2_alg».proof.Proof.Gen.Pre_finite_inputs
import proofs.«107818_j88888643158595_2_alg».proof.Proof.KernelRun
import proofs.«107818_j88888643158595_2_alg».proof.Proof.Agree
import proofs.«107818_j88888643158595_2_alg».proof.Proof.Finite
import Idealize.ShloMosaic.Adequacy
import Idealize.ShloMosaic.Init

noncomputable section

namespace Cert.Proof

open Idealize.ShloMosaic Idealize.SL.Sem

/-- The word-level kernel runs and leaves its arguments as launched: the generated frame. -/
theorem frame_kernel [Cert.Kernel.Facts] [Cert.Pre_finite_inputs.Facts] : Cert.frame_Kernel :=
  fun m ρ _ => Cert.Kernel.Gen.frame m ρ

/-- The idealized kernel likewise. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its generated run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, all finite, both idealized programs end with the same result array. -/
theorem algebraic [Cert.KernelIdeal.Facts] [Cert.ReferenceIdeal.Facts] [hPre : Cert.Pre_finite_inputs.Facts] :
    Cert.algebraic_KernelIdeal_ReferenceIdeal := by
  intro m ρ m' ρ' hpre hagree
  refine ⟨fun c => Cert.KernelIdeal.Gen.W6 m ρ c (Proc.devRef .tc Cert.KernelIdeal.main_v14),
    Cert.KernelIdeal.RunOut.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hk, hv⟩ := Cert.Attn.real_of_pre m hpre c
  exact Cert.Attn.results_agree m ρ m' c (hagree c).1 (hagree c).2.1 (hagree c).2.2.1 (hagree c).2.2.2.1
    (hagree c).2.2.2.2.1 (hagree c).2.2.2.2.2 hx hq hk hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
